-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S1x1x2048 : Shape := ⟨3, ![1, 1, 2048]⟩
abbrev S4096x2048 : Shape := ⟨2, ![4096, 2048]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S1x2048 : Shape := ⟨2, ![1, 2048]⟩
abbrev S6144x4096 : Shape := ⟨2, ![6144, 4096]⟩
abbrev S6144x2048 : Shape := ⟨2, ![6144, 2048]⟩
abbrev S6144 : Shape := ⟨1, ![6144]⟩
abbrev S1024x2048 : Shape := ⟨2, ![1024, 2048]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1x2048 : S_.BroadcastsInDim S1x1x2048 (![] : Fin 0 → Fin S1x1x2048.rank)
  reducesTo_S1x1x2048_S_d0_1_2 : S1x1x2048.ReducesTo [0, 1, 2] S_
  bcast_S_S4096x2048 : S_.BroadcastsInDim S4096x2048 (![] : Fin 0 → Fin S4096x2048.rank)
  reducesTo_S4096x2048_S_d0_1 : S4096x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S6144x4096 : S_.BroadcastsInDim S6144x4096 (![] : Fin 0 → Fin S6144x4096.rank)
  reducesTo_S6144x4096_S_d0_1 : S6144x4096.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x2048 .f32) (main_arg15 : FVec F S1024 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S6144x2048 .f32) (main_arg12 : FVec F S6144 .f32) (main_arg13 : FVec F S6144 .f32) (main_arg14 : FVec F S1024x2048 .f32) (main_arg15 : FVec F S1024 .f32) (main_v48 : IVec S_ 1) (main_v49 : FVec F S6144x4096 .f32) (main_v50 : FVec F S6144x4096 .f32) : IVec S_ 1 :=
  let main_v51 : IVec S6144x4096 1 := cmpf .olt main_v49 main_v50
  let main_c_19 : IVec S_ 1 := constantI S_ 1 1#1
  let main_v52 : IVec S_ 1 := (fun x v => Host.reduce IntOp.andi x v reducesTo_S6144x4096_S_d0_1 h_S_) main_v51 main_c_19
  let main_v53 : IVec S_ 1 := andi main_v48 main_v52
  let main_v54 : FVec F S6144x2048 .f32 := Host.absf main_arg11
  let main_cst_20 : FVec F S_ .f32 := constant S_ .f32 0x7F800000#32
  let main_v55 : FVec F S6144x2048 .f32 := broadcastInDim S6144x2048 ![] bcast_S_S6144x2048 main_cst_20
  let main_v56 : IVec S6144x2048 1 := cmpf .olt main_v54 main_v55
  let main_c_21 : IVec S_ 1 := constantI S_ 1 1#1
  let main_v57 : IVec S_ 1 := (fun x v => Host.reduce IntOp.andi x v reducesTo_S6144x2048_S_d0_1 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144 .f32 := Host.absf main_arg13
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg14 main_arg15 main_v63 main_v67

def fn_part2 {F : FTy → Type} [FloatOps F] (main_arg7 : FVec F S2048x2048 .f32) (main_arg8 : FVec F S2048x2048 .f32) (main_arg9 : FVec F S1x2048 .f32) (main_arg10 : FVec F S6144x4096 .f32) (main_arg11 : FVec F S6144x2048 .f32) (main_arg12 : FVec F S6144 .f32) (main_arg13 : FVec F S6144 .f32) (main_arg14 : FVec F S1024x2048 .f32) (main_arg15 : FVec F S1024 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S6144x4096 .f32 := Host.absf main_arg10
  let main_cst_18 : FVec F S_ .f32 := constant S_ .f32 0x7F800000#32
  let main_v50 : FVec F S6144x4096 .f32 := broadcastInDim S6144x4096 ![] bcast_S_S6144x4096 main_cst_18
  fn_part3 (F := F) main_arg11 main_arg12 main_arg13 main_arg14 main_arg15 main_v48 main_v49 main_v50

def fn_part1 {F : FTy → Type} [FloatOps F] (main_arg4 : FVec F S512 .f32) (main_arg5 : FVec F S2048x512 .f32) (main_arg6 : FVec F S2048 .f32) (main_arg7 : FVec F S2048x2048 .f32) (main_arg8 : FVec F S2048x2048 .f32) (main_arg9 : FVec F S1x2048 .f32) (main_arg10 : FVec F S6144x4096 .f32) (main_arg11 : FVec F S6144x2048 .f32) (main_arg12 : FVec F S6144 .f32) (main_arg13 : FVec F S6144 .f32) (main_arg14 : FVec F S1024x2048 .f32) (main_arg15 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1x1024 .f32) (main_arg1 : FVec F S1x1x2048 .f32) (main_arg2 : FVec F S4096x2048 .f32) (main_arg3 : FVec F S512x1024 .f32) (main_arg4 : FVec F S512 .f32) (main_arg5 : FVec F S2048x512 .f32) (main_arg6 : FVec F S2048 .f32) (main_arg7 : FVec F S2048x2048 .f32) (main_arg8 : FVec F S2048x2048 .f32) (main_arg9 : FVec F S1x2048 .f32) (main_arg10 : FVec F S6144x4096 .f32) (main_arg11 : FVec F S6144x2048 .f32) (main_arg12 : FVec F S6144 .f32) (main_arg13 : FVec F S6144 .f32) (main_arg14 : FVec F S1024x2048 .f32) (main_arg15 : FVec F S1024 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1x1024 : Shape := ⟨2, ![1, 1024]⟩
abbrev S1x1x2048 : Shape := ⟨3, ![1, 1, 2048]⟩
abbrev S4096x2048 : Shape := ⟨2, ![4096, 2048]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S1x2048 : Shape := ⟨2, ![1, 2048]⟩
abbrev S6144x4096 : Shape := ⟨2, ![6144, 4096]⟩
abbrev S6144x2048 : Shape := ⟨2, ![6144, 2048]⟩
abbrev S6144 : Shape := ⟨1, ![6144]⟩
abbrev S1024x2048 : Shape := ⟨2, ![1024, 2048]⟩
abbrev S1024 : Shape := ⟨1, ![1024]⟩
abbrev S1024x512 : Shape := ⟨2, ![1024, 512]⟩
abbrev S1x512 : Shape := ⟨2, ![1, 512]⟩
abbrev S_ : Shape := ⟨0, ![]⟩
abbrev S512x2048 : Shape := ⟨2, ![512, 2048]⟩
abbrev S4096x1 : Shape := ⟨2, ![4096, 1]⟩
abbrev S1024x1 : Shape := ⟨2, ![1024, 1]⟩
abbrev S1x4096 : Shape := ⟨2, ![1, 4096]⟩
abbrev S1 : Shape := ⟨1, ![1]⟩
abbrev S1x1 : Shape := ⟨2, ![1, 1]⟩
abbrev S4096x6144 : Shape := ⟨2, ![4096, 6144]⟩
abbrev S1x6144 : Shape := ⟨2, ![1, 6144]⟩
abbrev S2048x6144 : Shape := ⟨2, ![2048, 6144]⟩
abbrev S2048x1024 : Shape := ⟨2, ![2048, 1024]⟩

abbrev nBuf : Space → Nat
  | .hbm => 111
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1x2048, .f32⟩
  | .hbm, ⟨2, _⟩ => ⟨S4096x2048, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S6144x4096, .f32⟩
  | .hbm, ⟨11, _⟩ => ⟨S6144x2048, .f32⟩
  | .hbm, ⟨12, _⟩ => ⟨S6144, .f32⟩
  | .hbm, ⟨13, _⟩ => ⟨S6144, .f32⟩
  | .hbm, ⟨14, _⟩ => ⟨S1024x2048, .f32⟩
  | .hbm, ⟨15, _⟩ => ⟨S1024, .f32⟩
  | .hbm, ⟨16, _⟩ => ⟨S1024x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S512x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S2048x2048, .f32⟩
  | .hbm, ⟨31, _⟩ => ⟨S1x2048, .f32⟩
  | .hbm, ⟨32, _⟩ => ⟨S4096x1, .f32⟩
  | .hbm, ⟨33, _⟩ => ⟨S1x4096, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S1, .f32⟩
  | .hbm, ⟨39, _⟩ => ⟨S1x1, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1, .f32⟩
  | .hbm, ⟨45, _⟩ => ⟨S1x1, .f32⟩
  | .hbm, ⟨46, _⟩ => ⟨S1x4096, .f32⟩
  | .hbm, ⟨47, _⟩ => ⟨S1x4096, .f32⟩
  | .hbm, ⟨48, _⟩ => ⟨S1x2048, .f32⟩
  | .hbm, ⟨49, _⟩ => ⟨S1x4096, .f32⟩
  | .hbm, ⟨50, _⟩ => ⟨S1x2048, .f32⟩
  | .hbm, ⟨51, _⟩ => ⟨S4096x6144, .f32⟩
  | .hbm, ⟨52, _⟩ => ⟨S1x6144, .f32⟩
  | .hbm, ⟨53, _⟩ => ⟨S1x6144, .f32⟩
  | .hbm, ⟨54, _⟩ => ⟨S1x6144, .f32⟩
  | .hbm, ⟨55, _⟩ => ⟨S2048x6144, .f32⟩
  | .hbm, ⟨56, _⟩ => ⟨S1x6144, .f32⟩
  | .hbm, ⟨57, _⟩ => ⟨S1x6144, .f32⟩
  | .hbm, ⟨58, _⟩ => ⟨S1x6144, .f32⟩
  | .hbm, ⟨59, _⟩ => ⟨S1x2048, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S_, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S_, .f32⟩
  | .hbm, ⟨78, _⟩ => ⟨S1x2048, .f32⟩
  | .hbm, ⟨79, _⟩ => ⟨S1x2048, .f32⟩
  | .hbm, ⟨80, _⟩ => ⟨S_, .f32⟩
  | .hbm, ⟨81, _⟩ => ⟨S1x2048, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S_, .f32⟩
  | .hbm, ⟨87, _⟩ => ⟨S1x2048, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S2048x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1, .f32⟩
  | .hbm, ⟨98, _⟩ => ⟨S_, .f32⟩
  | .hbm, ⟨99, _⟩ => ⟨S1, .f32⟩
  | .hbm, ⟨100, _⟩ => ⟨S1, .f32⟩
  | .hbm, ⟨101, _⟩ => ⟨S1x1, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S_, .f32⟩
  | .hbm, ⟨106, _⟩ => ⟨S1, .f32⟩
  | .hbm, ⟨107, _⟩ => ⟨S1x1, .f32⟩
  | .hbm, ⟨108, _⟩ => ⟨S1x1024, .f32⟩
  | .hbm, ⟨109, _⟩ => ⟨S1x1024, .f32⟩
  | .hbm, ⟨110, _⟩ => ⟨S1x1x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .f32⟩
  | .local _ .vmem, ⟨3, _⟩ => ⟨S1x2048, .f32⟩
  | .local _ .vmem, ⟨4, _⟩ => ⟨S1x2048, .f32⟩
  | .local _ .vmem, ⟨5, _⟩ => ⟨S1024x1, .f32⟩
  | .local _ .vmem, ⟨6, _⟩ => ⟨S1024x1, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_cst_8 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_9 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x1024_S1024x512_1_0 : S512x1024.Transposes [1, 0] S1024x512
  bcast_S512_S1x512_1 : S512.BroadcastsInDim S1x512 (![1] : Fin 1 → Fin S1x512.rank)
  bcast_S_S1x512 : S_.BroadcastsInDim S1x512 (![] : Fin 0 → Fin S1x512.rank)
  transposes_S2048x512_S512x2048_1_0 : S2048x512.Transposes [1, 0] S512x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S2048x2048_S2048x2048_1_0 : S2048x2048.Transposes [1, 0] S2048x2048
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S1x4096 : S4096x1.ShapeCasts S1x4096
  reducesTo_S1x4096_S1_d1 : S1x4096.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  concatenates_S1x2048_S1x2048_S1x4096_d1 : Shape.Concatenates [S1x2048, S1x2048] S1x4096 1
  shapeCasts_S1x1x2048_S1x2048 : S1x1x2048.ShapeCasts S1x2048
  transposes_S6144x4096_S4096x6144_1_0 : S6144x4096.Transposes [1, 0] S4096x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S1024x2048_S2048x1024_1_0 : S1024x2048.Transposes [1, 0] S2048x1024
  bcast_S1024_S1x1024_1 : S1024.BroadcastsInDim S1x1024 (![1] : Fin 1 → Fin S1x1024.rank)
  reducesTo_S1x1024_S1_d1 : S1x1024.ReducesTo [1] S1
  bcast_S1x1_S1x1024_0_1 : S1x1.BroadcastsInDim S1x1024 (![0, 1] : Fin 2 → Fin S1x1024.rank)
  bcast_S1x2048_S1x1x2048_1_2 : S1x2048.BroadcastsInDim S1x1x2048 (![1, 2] : Fin 2 → Fin S1x1x2048.rank)
  dot_S1x1024_S1024x512_S1x512_1_0_0_1_n_n_wf : DotDims.WF S1x1024 S1024x512 S1x512 [1] [0] [0] [1] [] []
  dot_S1x512_S512x2048_S1x2048_1_0_0_1_n_n_wf : DotDims.WF S1x512 S512x2048 S1x2048 [1] [0] [0] [1] [] []
  dot_S1x2048_S2048x2048_S1x2048_1_0_0_1_n_n_wf : DotDims.WF S1x2048 S2048x2048 S1x2048 [1] [0] [0] [1] [] []
  dot_S1024x2048_S2048x2048_S1024x2048_1_1_0_0_n_n_wf : DotDims.WF S1024x2048 S2048x2048 S1024x2048 [1] [1] [0] [0] [] []
  dot_S1x4096_S4096x2048_S1x2048_1_0_0_1_n_n_wf : DotDims.WF S1x4096 S4096x2048 S1x2048 [1] [0] [0] [1] [] []
  dot_S1x4096_S4096x6144_S1x6144_1_0_0_1_n_n_wf : DotDims.WF S1x4096 S4096x6144 S1x6144 [1] [0] [0] [1] [] []
  dot_S1x2048_S2048x6144_S1x6144_1_0_0_1_n_n_wf : DotDims.WF S1x2048 S2048x6144 S1x6144 [1] [0] [0] [1] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x4096_S4096x6144_S1x6144_1_0_0_1_n_n : DotDims S1x4096 S4096x6144 S1x6144 where
  lhsContracting := [1]
  rhsContracting := [0]
  lhsNonContracting := [0]
  rhsNonContracting := [1]
  lhsBatch := []
  rhsBatch := []
  wf := dot_S1x4096_S4096x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x1024 : Shape := ⟨2, ![1, 1024]⟩
abbrev S1x1x2048 : Shape := ⟨3, ![1, 1, 2048]⟩
abbrev S4096x2048 : Shape := ⟨2, ![4096, 2048]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S1x2048 : Shape := ⟨2, ![1, 2048]⟩
abbrev S6144x4096 : Shape := ⟨2, ![6144, 4096]⟩
abbrev S6144x2048 : Shape := ⟨2, ![6144, 2048]⟩
abbrev S6144 : Shape := ⟨1, ![6144]⟩
abbrev S1024x2048 : Shape := ⟨2, ![1024, 2048]⟩
abbrev S1024 : Shape := ⟨1, ![1024]⟩
abbrev S1024x512 : Shape := ⟨2, ![1024, 512]⟩
abbrev S1x512 : Shape := ⟨2, ![1, 512]⟩
abbrev S_ : Shape := ⟨0, ![]⟩
abbrev S512x2048 : Shape := ⟨2, ![512, 2048]⟩
abbrev S2048x1 : Shape := ⟨2, ![2048, 1]⟩
abbrev S4096x1 : Shape := ⟨2, ![4096, 1]⟩
abbrev S1x4096 : Shape := ⟨2, ![1, 4096]⟩
abbrev S1 : Shape := ⟨1, ![1]⟩
abbrev S1x1 : Shape := ⟨2, ![1, 1]⟩
abbrev S4096x6144 : Shape := ⟨2, ![4096, 6144]⟩
abbrev S1x6144 : Shape := ⟨2, ![1, 6144]⟩
abbrev S2048x6144 : Shape := ⟨2, ![2048, 6144]⟩
abbrev S2048x1024 : Shape := ⟨2, ![2048, 1024]⟩

abbrev nBuf : Space → Nat
  | .hbm => 117
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1x2048, .f32⟩
  | .hbm, ⟨2, _⟩ => ⟨S4096x2048, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S6144x4096, .f32⟩
  | .hbm, ⟨11, _⟩ => ⟨S6144x2048, .f32⟩
  | .hbm, ⟨12, _⟩ => ⟨S6144, .f32⟩
  | .hbm, ⟨13, _⟩ => ⟨S6144, .f32⟩
  | .hbm, ⟨14, _⟩ => ⟨S1024x2048, .f32⟩
  | .hbm, ⟨15, _⟩ => ⟨S1024, .f32⟩
  | .hbm, ⟨16, _⟩ => ⟨S1024x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S512x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048x1, .f32⟩
  | .hbm, ⟨38, _⟩ => ⟨S4096x1, .f32⟩
  | .hbm, ⟨39, _⟩ => ⟨S1x4096, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1x1, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S_, .f32⟩
  | .hbm, ⟨50, _⟩ => ⟨S1, .f32⟩
  | .hbm, ⟨51, _⟩ => ⟨S1x1, .f32⟩
  | .hbm, ⟨52, _⟩ => ⟨S1x4096, .f32⟩
  | .hbm, ⟨53, _⟩ => ⟨S1x4096, .f32⟩
  | .hbm, ⟨54, _⟩ => ⟨S1x2048, .f32⟩
  | .hbm, ⟨55, _⟩ => ⟨S1x4096, .f32⟩
  | .hbm, ⟨56, _⟩ => ⟨S1x2048, .f32⟩
  | .hbm, ⟨57, _⟩ => ⟨S4096x6144, .f32⟩
  | .hbm, ⟨58, _⟩ => ⟨S1x6144, .f32⟩
  | .hbm, ⟨59, _⟩ => ⟨S1x6144, .f32⟩
  | .hbm, ⟨60, _⟩ => ⟨S1x6144, .f32⟩
  | .hbm, ⟨61, _⟩ => ⟨S2048x6144, .f32⟩
  | .hbm, ⟨62, _⟩ => ⟨S1x6144, .f32⟩
  | .hbm, ⟨63, _⟩ => ⟨S1x6144, .f32⟩
  | .hbm, ⟨64, _⟩ => ⟨S1x6144, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S_, .f32⟩
  | .hbm, ⟨75, _⟩ => ⟨S1x2048, .f32⟩
  | .hbm, ⟨76, _⟩ => ⟨S1x2048, .f32⟩
  | .hbm, ⟨77, _⟩ => ⟨S_, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x2048, .f32⟩
  | .hbm, ⟨83, _⟩ => ⟨S_, .f32⟩
  | .hbm, ⟨84, _⟩ => ⟨S1x2048, .f32⟩
  | .hbm, ⟨85, _⟩ => ⟨S1x2048, .f32⟩
  | .hbm, ⟨86, _⟩ => ⟨S_, .f32⟩
  | .hbm, ⟨87, _⟩ => ⟨S1x2048, .f32⟩
  | .hbm, ⟨88, _⟩ => ⟨S1x2048, .f32⟩
  | .hbm, ⟨89, _⟩ => ⟨S1x2048, .f32⟩
  | .hbm, ⟨90, _⟩ => ⟨S1x2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | .hbm, ⟨95, _⟩ => ⟨S1x2048, .f32⟩
  | .hbm, ⟨96, _⟩ => ⟨S1x2048, .f32⟩
  | .hbm, ⟨97, _⟩ => ⟨S1x2048, .f32⟩
  | .hbm, ⟨98, _⟩ => ⟨S2048x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S1x1, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S_, .f32⟩
  | .hbm, ⟨112, _⟩ => ⟨S1, .f32⟩
  | .hbm, ⟨113, _⟩ => ⟨S1x1, .f32⟩
  | .hbm, ⟨114, _⟩ => ⟨S1x1024, .f32⟩
  | .hbm, ⟨115, _⟩ => ⟨S1x1024, .f32⟩
  | .hbm, ⟨116, _⟩ => ⟨S1x1x2048, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_2 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_4 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_7 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_9 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S_S1x512 : S_.BroadcastsInDim S1x512 (![] : Fin 0 → Fin S1x512.rank)
  transposes_S2048x512_S512x2048_1_0 : S2048x512.Transposes [1, 0] S512x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S2048x2048_S2048x2048_1_0 : S2048x2048.Transposes [1, 0] S2048x2048
  bcast_S1x2048_S4096x2048_0_1 : S1x2048.BroadcastsInDim S4096x2048 (![0, 1] : Fin 2 → Fin S4096x2048.rank)
  transposes_S1x2048_S2048x1_1_0 : S1x2048.Transposes [1, 0] S2048x1
  transposes_S4096x1_S1x4096_1_0 : S4096x1.Transposes [1, 0] S1x4096
  reducesTo_S1x4096_S1_d1 : S1x4096.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  concatenates_S1x2048_S1x2048_S1x4096_d1 : Shape.Concatenates [S1x2048, S1x2048] S1x4096 1
  shapeCasts_S1x1x2048_S1x2048 : S1x1x2048.ShapeCasts S1x2048
  transposes_S6144x4096_S4096x6144_1_0 : S6144x4096.Transposes [1, 0] S4096x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S1024x2048_S2048x1024_1_0 : S1024x2048.Transposes [1, 0] S2048x1024
  bcast_S1024_S1x1024_1 : S1024.BroadcastsInDim S1x1024 (![1] : Fin 1 → Fin S1x1024.rank)
  reducesTo_S1x1024_S1_d1 : S1x1024.ReducesTo [1] S1
  bcast_S1x1_S1x1024_0_1 : S1x1.BroadcastsInDim S1x1024 (![0, 1] : Fin 2 → Fin S1x1024.rank)
  bcast_S1x2048_S1x1x2048_1_2 : S1x2048.BroadcastsInDim S1x1x2048 (![1, 2] : Fin 2 → Fin S1x1x2048.rank)
  dot_S1x1024_S1024x512_S1x512_1_0_0_1_n_n_wf : DotDims.WF S1x1024 S1024x512 S1x512 [1] [0] [0] [1] [] []
  dot_S1x512_S512x2048_S1x2048_1_0_0_1_n_n_wf : DotDims.WF S1x512 S512x2048 S1x2048 [1] [0] [0] [1] [] []
  dot_S1x2048_S2048x2048_S1x2048_1_0_0_1_n_n_wf : DotDims.WF S1x2048 S2048x2048 S1x2048 [1] [0] [0] [1] [] []
  dot_S4096x2048_S2048x2048_S4096x2048_1_0_0_1_n_n_wf : DotDims.WF S4096x2048 S2048x2048 S4096x2048 [1] [0] [0] [1] [] []
  dot_S4096x2048_S2048x1_S4096x1_1_0_0_1_n_n_wf : DotDims.WF S4096x2048 S2048x1 S4096x1 [1] [0] [0] [1] [] []
  dot_S1x4096_S4096x2048_S1x2048_1_0_0_1_n_n_wf : DotDims.WF S1x4096 S4096x2048 S1x2048 [1] [0] [0] [1] [] []
  dot_S1x4096_S4096x6144_S1x6144_1_0_0_1_n_n_wf : DotDims.WF S1x4096 S4096x6144 S1x6144 [1] [0] [0] [1] [] []
  dot_S1x2048_S2048x6144_S1x6144_1_0_0_1_n_n_wf : DotDims.WF S1x2048 S2048x6144 S1x6144 [1] [0] [0] [1] [] []
  dot_S1x2048_S2048x1024_S1x1024_1_0_0_1_n_n_wf : DotDims.WF S1x2048 S2048x1024 S1x1024 [1] [0] [0] [1] [] []

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x1_S4096x1_1_0_0_1_n_n : DotDims S4096x2048 S2048x1 S4096x1 where
  lhsContracting := [1]
  rhsContracting := [0]
  lhsNonContracting := [0]
  rhsNonContracting := [1]
  lhsBatch := []
  rhsBatch := []
  wf := dot_S4096x2048_S2048x1_S4096x1_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x4096_S4096x6144_S1x6144_1_0_0_1_n_n : DotDims S1x4096 S4096x6144 S1x6144 where
  lhsContracting := [1]
  rhsContracting := [0]
  lhsNonContracting := [0]
  rhsNonContracting := [1]
  lhsBatch := []
  rhsBatch := []
  wf := dot_S1x4096_S4096x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

class Facts : Prop extends Facts₀ where

variable [Facts]
-- ==== Proof.BodyK.lean ====
/-
  The score kernel's body on whole staging buffers.

  The body loads the encoder block, the second attention matrix, the third attention vector and the query projection
  whole, loads the output buffer (a value it never uses), and stores ONE value over the whole output block: the scores
  of the block's 1024 rows.  So whatever the output buffer held, it ends at that value, read through the one covering
  store; the four inputs end as they were.
-/
import proofs.«130881_j12369505813152_2_alg».proof.Proof.Gen.Kernel.Launch
import proofs.«130881_j12369505813152_2_alg».proof.Proof.Gen.Kernel.Skeleton
import proofs.«130881_j12369505813152_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of each buffer the body touches. -/
abbrev rEnc : Rect S1024x2048 := Rect.unit (s := S1024x2048) ![0, 0] S1024x2048.size inb_S1024x2048_S1024x2048_0_0
abbrev rMat : Rect S2048x2048 := Rect.unit (s := S2048x2048) ![0, 0] S2048x2048.size inb_S2048x2048_S2048x2048_0_0
abbrev rVec : Rect S1x2048 := Rect.unit (s := S1x2048) ![0, 0] S1x2048.size inb_S1x2048_S1x2048_0_0
abbrev rOut : Rect S1024x1 := Rect.unit (s := S1024x1) ![0, 0] S1024x1.size inb_S1024x1_S1024x1_0_0

/-- What the output buffer holds after the body, from the four input buffers' contents (encoder block, second
    attention matrix, third attention vector, query projection): the one store's value, read through the block. -/
def outScore (x0 : Vec F S1024x2048 .f32) (x1 : Vec F S2048x2048 .f32) (x2 x3 : Vec F S1x2048 .f32) : Vec F S1024x1 .f32 :=
  View.canon [⟨rOut, k0_pay1 (View.ld x0 rEnc) (View.ld x1 rMat) (View.ld x3 rVec) (View.ld x2 rVec)⟩]

/-- The one store covers the output block. -/
theorem coverScore (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 4000000 in
/-- The body's triple: from the four inputs at read contents and the output at anything, to the inputs as they were and
    the output at `outScore` of the inputs. -/
theorem sound_kernel (c : Dev nD) (E : Set ℕ) (i : grid0.Coords)
    (arg1 : Memref sig .tc .vmem S1024x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1024x1 .f32) (harg5 : arg5.IsWhole)
    (x0 : Vec F S1024x2048 .f32) (x1 : Vec F S2048x2048 .f32) (x2 x3 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outScore x0 x1 x2 x3)) -∗ K ⟨⟩))
      ⊢ wp frame (wpE (defs₀ (F := F)) Variants.none c none) E (cc0__score_kernel i arg1 harg1 arg2 harg2 arg3 harg3 arg4 harg4 arg5 harg5) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverScore _)

end Cert.Kernel.Body

end
-- ==== Proof.HostK.lean ====
/-
  The program around its one region: the host lines before it, the region, the host lines after it.

  Before the region the host computes the two-layer feed-forward embedding of the input and its projection by the first
  attention matrix (the query projection the region reads as one of its operands); after it, the softmax of the scores,
  the attention-weighted sum, one recurrent cell step and the output softmax.  No host line writes an argument array,
  and no line after the region writes an array the region stages; the lines after it touch only those arrays and the
  buffers that bypass the region.
-/
import proofs.«130881_j12369505813152_2_alg».proof.Proof.Gen.Kernel.Launch
import Idealize.ShloMosaic.Lib.Pipeline.FrameBody
import Idealize.ShloMosaic.Lib.Pipeline.FrameSuffix

set_option maxRecDepth 16384
set_option maxHeartbeats 40000000

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the region, stretch by stretch. -/
abbrev headOps : List (List (HloOp τ sig (Elt F))) := [hostOps0, hostOps0_1, hostOps0_2, hostOps0_3, hostOps0_4]

/-- Core `c`'s buffer contents when the region is entered: after the host lines before it. -/
abbrev V0 (c : Dev nD) : Valuation τ sig (Elt F) := StableHlo.after (List.flatten (headOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program reduces to its region continued by the lines after it, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main headOps [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The sixteen argument arrays. -/
abbrev argRef : Fin 16 → Ref sig .tc :=
  ![main_arg0, main_arg1, main_arg2, main_arg3, main_arg4, main_arg5, main_arg6, main_arg7, main_arg8, main_arg9,
    main_arg10, main_arg11, main_arg12, main_arg13, main_arg14, main_arg15]

set_option maxHeartbeats 40000000 in
/-- No line after the region writes an array the region stages (each writes its own result buffer). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

set_option maxHeartbeats 40000000 in
/-- No line after the region writes an argument array. -/
theorem hostOps1_keeps_args : (hostOps1 : List (HloOp τ sig (Elt F))).Forall fun op =>
    ∀ k : Fin 16, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

set_option maxHeartbeats 4000000 in
/-- No line before the region writes an argument array. -/
theorem head_keeps_args : (List.flatten (headOps (F := F))).Forall fun op =>
    ∀ k : Fin 16, Proc.devRef .tc (argRef k) ∉ op.writes := by
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

/-- So the region finds every argument array as launched. -/
theorem V_arg (c : Dev nD) (k : Fin 16) : V m c (argRef k) = m ((c : Thread nD τ).loc (argRef k)) :=
  StableHlo.after_of_forall_not_mem (b := Proc.devRef .tc (argRef k)) _ _
    (fun op hop => (List.forall_iff_forall_mem.mp head_keeps_args) op hop k)

/-- And every argument array that bypasses the region ends as launched, whatever the region's arrays end at. -/
theorem W_arg (dats : (p : Fin _) → (c : Dev nD) → Dat τ (Elt F) Unit ℕ (UR sig nD τ) ℕ (cfgs p) c) (c : Dev nD) (k : Fin 16)
    (hk : ∀ w, Pipeline.arrRef spec0 w ≠ argRef k) :
    Pipeline.afterTail₀ cfgs dats 0 (V0 m) [hostOps1] c (argRef k) = m ((c : Thread nD τ).loc (argRef k)) := by
  unfold Pipeline.afterTail₀
  rw [StableHlo.after_of_forall_not_mem (b := Proc.devRef .tc (argRef k)) _ _
      (fun op hop => (List.forall_iff_forall_mem.mp hostOps1_keeps_args) op
        (by simpa only [List.flatten_cons, List.flatten_nil, List.append_nil] using hop) k),
    Pipeline.withArrays_of_ne _ c (V0 m c) _ (argRef k) hk]
  exact V_arg m c k

end Cert.Kernel.Host

end
-- ==== Proof.FrameK.lean ====
/-
  The run of the program around its region, and its frame.

  At grid point `t` the region stages rows `1024·t … 1024·t + 1023` of the encoder array (its block index moves
  with the point) and the whole of the second attention matrix, the third attention vector and the query projection
  (their block index never moves, so they are fetched once); the body leaves the four inputs in place and the output
  block at the scores of the staged rows, which is written back at every point.  With these as the proof data the
  region runs to the end, and the lines after it run on from what it leaves; no argument array is ever written.
-/
import proofs.«130881_j12369505813152_2_alg».proof.Proof.BodyK
import proofs.«130881_j12369505813152_2_alg».proof.Proof.HostK

set_option maxRecDepth 16384
set_option maxHeartbeats 40000000

noncomputable section

namespace Cert.Kernel.Frame

open Cert.Kernel Cert.Kernel.Gen Cert.Kernel.Body Cert.Kernel.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, its block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the region on core `c`: the arrays as the region finds them; after the body at point `t`
    each input's buffer at its block and the output's at the scores of the point's encoder rows; the invariant the
    untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScore (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outScore (iblk m c 0 t) (iblk m c 1 t) (iblk m c 2 t) (iblk m c 3 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, each array of the
    region ending at what the proof data computes and every bypassing buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A bypassing argument array ends as launched. -/
theorem kept_bypass (r : PUnit × MemSt nD τ sig (Elt F))
    (h : Pipeline.FramePost cfgs (dats m) 0 (Pipeline.afterTail₀ cfgs (dats m) 0 (V0 m) [hostOps1]) r) (c : Dev nD) (k : Fin 16)
    (hk : ∀ w, Pipeline.arrRef spec0 w ≠ argRef k) (hs : (argRef k).isScoped = false) :
    r.2.mem ((c.tc : Thread nD τ).loc (argRef k)) = m ((c.tc : Thread nD τ).loc (argRef k)) :=
  ((h c).2 (argRef k) (Pipeline.mem_restRefs_of (argRef k) hs hk)).trans (W_arg m (dats m) c k hk)

/-- The staged input array `main_arg2` ends as launched: the region never writes it back. -/
theorem kept_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 0).trans (((dats m 0 c).arrAt_in 0 rfl _).trans ((A_eq m c 0).trans (V_arg m c 2)))

/-- The staged input array `main_arg8` ends as launched: the region never writes it back. -/
theorem kept_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 1).trans (((dats m 0 c).arrAt_in 1 rfl _).trans ((A_eq m c 1).trans (V_arg m c 8)))

/-- The staged input array `main_arg9` ends as launched: the region never writes it back. -/
theorem kept_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 2).trans (((dats m 0 c).arrAt_in 2 rfl _).trans ((A_eq m c 2).trans (V_arg m c 9)))

/-- The frame: the program runs to the end from any memory and its sixteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨kept_bypass m r h c 0 (by decide) rfl,
    kept_bypass m r h c 1 (by decide) rfl,
    kept_arg2 m r h c,
    kept_bypass m r h c 3 (by decide) rfl,
    kept_bypass m r h c 4 (by decide) rfl,
    kept_bypass m r h c 5 (by decide) rfl,
    kept_bypass m r h c 6 (by decide) rfl,
    kept_bypass m r h c 7 (by decide) rfl,
    kept_arg8 m r h c,
    kept_arg9 m r h c,
    kept_bypass m r h c 10 (by decide) rfl,
    kept_bypass m r h c 11 (by decide) rfl,
    kept_bypass m r h c 12 (by decide) rfl,
    kept_bypass m r h c 13 (by decide) rfl,
    kept_bypass m r h c 14 (by decide) rfl,
    kept_bypass m r h c 15 (by decide) rfl⟩) (run_main m ρ)

end Cert.Kernel.Frame

end
-- ==== Proof.BodyI.lean ====
/-
  The score kernel's body on whole staging buffers.

  The body loads the encoder block, the second attention matrix, the third attention vector and the query projection
  whole, loads the output buffer (a value it never uses), and stores ONE value over the whole output block: the scores
  of the block's 1024 rows.  So whatever the output buffer held, it ends at that value, read through the one covering
  store; the four inputs end as they were.
-/
import proofs.«130881_j12369505813152_2_alg».proof.Proof.Gen.KernelIdeal.Launch
import proofs.«130881_j12369505813152_2_alg».proof.Proof.Gen.KernelIdeal.Skeleton
import proofs.«130881_j12369505813152_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of each buffer the body touches. -/
abbrev rEnc : Rect S1024x2048 := Rect.unit (s := S1024x2048) ![0, 0] S1024x2048.size inb_S1024x2048_S1024x2048_0_0
abbrev rMat : Rect S2048x2048 := Rect.unit (s := S2048x2048) ![0, 0] S2048x2048.size inb_S2048x2048_S2048x2048_0_0
abbrev rVec : Rect S1x2048 := Rect.unit (s := S1x2048) ![0, 0] S1x2048.size inb_S1x2048_S1x2048_0_0
abbrev rOut : Rect S1024x1 := Rect.unit (s := S1024x1) ![0, 0] S1024x1.size inb_S1024x1_S1024x1_0_0

/-- What the output buffer holds after the body, from the four input buffers' contents (encoder block, second
    attention matrix, third attention vector, query projection): the one store's value, read through the block. -/
def outScore (x0 : Vec F S1024x2048 .f32) (x1 : Vec F S2048x2048 .f32) (x2 x3 : Vec F S1x2048 .f32) : Vec F S1024x1 .f32 :=
  View.canon [⟨rOut, k0_pay1 (View.ld x0 rEnc) (View.ld x1 rMat) (View.ld x3 rVec) (View.ld x2 rVec)⟩]

/-- The one store covers the output block. -/
theorem coverScore (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 4000000 in
/-- The body's triple: from the four inputs at read contents and the output at anything, to the inputs as they were and
    the output at `outScore` of the inputs. -/
theorem sound_kernel (c : Dev nD) (E : Set ℕ) (i : grid0.Coords)
    (arg1 : Memref sig .tc .vmem S1024x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1024x1 .f32) (harg5 : arg5.IsWhole)
    (x0 : Vec F S1024x2048 .f32) (x1 : Vec F S2048x2048 .f32) (x2 x3 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outScore x0 x1 x2 x3)) -∗ K ⟨⟩))
      ⊢ wp frame (wpE (defs₀ (F := F)) Variants.none c none) E (cc0__score_kernel i arg1 harg1 arg2 harg2 arg3 harg3 arg4 harg4 arg5 harg5) K := by
  simp only [cc0__score_kernel_eq_skeleton]; unfold cc0__score_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverScore _)

end Cert.KernelIdeal.Body

end
-- ==== Proof.HostI.lean ====
/-
  The program around its one region: the host lines before it, the region, the host lines after it.

  Before the region the host computes the two-layer feed-forward embedding of the input and its projection by the first
  attention matrix (the query projection the region reads as one of its operands); after it, the softmax of the scores,
  the attention-weighted sum, one recurrent cell step and the output softmax.  No host line writes an argument array,
  and no line after the region writes an array the region stages; the lines after it touch only those arrays and the
  buffers that bypass the region.
-/
import proofs.«130881_j12369505813152_2_alg».proof.Proof.Gen.KernelIdeal.Launch
import Idealize.ShloMosaic.Lib.Pipeline.FrameBody
import Idealize.ShloMosaic.Lib.Pipeline.FrameSuffix

set_option maxRecDepth 16384
set_option maxHeartbeats 40000000

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines before the region, stretch by stretch. -/
abbrev headOps : List (List (HloOp τ sig (Elt F))) := [hostOps0, hostOps0_1, hostOps0_2, hostOps0_3, hostOps0_4]

/-- Core `c`'s buffer contents when the region is entered: after the host lines before it. -/
abbrev V0 (c : Dev nD) : Valuation τ sig (Elt F) := StableHlo.after (List.flatten (headOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program reduces to its region continued by the lines after it, holding the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main headOps [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The sixteen argument arrays. -/
abbrev argRef : Fin 16 → Ref sig .tc :=
  ![main_arg0, main_arg1, main_arg2, main_arg3, main_arg4, main_arg5, main_arg6, main_arg7, main_arg8, main_arg9,
    main_arg10, main_arg11, main_arg12, main_arg13, main_arg14, main_arg15]

set_option maxHeartbeats 40000000 in
/-- No line after the region writes an array the region stages (each writes its own result buffer). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

set_option maxHeartbeats 40000000 in
/-- No line after the region writes an argument array. -/
theorem hostOps1_keeps_args : (hostOps1 : List (HloOp τ sig (Elt F))).Forall fun op =>
    ∀ k : Fin 16, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

set_option maxHeartbeats 4000000 in
/-- No line before the region writes an argument array. -/
theorem head_keeps_args : (List.flatten (headOps (F := F))).Forall fun op =>
    ∀ k : Fin 16, Proc.devRef .tc (argRef k) ∉ op.writes := by
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

/-- So the region finds every argument array as launched. -/
theorem V_arg (c : Dev nD) (k : Fin 16) : V m c (argRef k) = m ((c : Thread nD τ).loc (argRef k)) :=
  StableHlo.after_of_forall_not_mem (b := Proc.devRef .tc (argRef k)) _ _
    (fun op hop => (List.forall_iff_forall_mem.mp head_keeps_args) op hop k)

/-- And every argument array that bypasses the region ends as launched, whatever the region's arrays end at. -/
theorem W_arg (dats : (p : Fin _) → (c : Dev nD) → Dat τ (Elt F) Unit ℕ (UR sig nD τ) ℕ (cfgs p) c) (c : Dev nD) (k : Fin 16)
    (hk : ∀ w, Pipeline.arrRef spec0 w ≠ argRef k) :
    Pipeline.afterTail₀ cfgs dats 0 (V0 m) [hostOps1] c (argRef k) = m ((c : Thread nD τ).loc (argRef k)) := by
  unfold Pipeline.afterTail₀
  rw [StableHlo.after_of_forall_not_mem (b := Proc.devRef .tc (argRef k)) _ _
      (fun op hop => (List.forall_iff_forall_mem.mp hostOps1_keeps_args) op
        (by simpa only [List.flatten_cons, List.flatten_nil, List.append_nil] using hop) k),
    Pipeline.withArrays_of_ne _ c (V0 m c) _ (argRef k) hk]
  exact V_arg m c k

end Cert.KernelIdeal.Host

end
-- ==== Proof.FrameI.lean ====
/-
  The run of the program around its region, and its frame.

  At grid point `t` the region stages rows `1024·t … 1024·t + 1023` of the encoder array (its block index moves
  with the point) and the whole of the second attention matrix, the third attention vector and the query projection
  (their block index never moves, so they are fetched once); the body leaves the four inputs in place and the output
  block at the scores of the staged rows, which is written back at every point.  With these as the proof data the
  region runs to the end, and the lines after it run on from what it leaves; no argument array is ever written.
-/
import proofs.«130881_j12369505813152_2_alg».proof.Proof.BodyI
import proofs.«130881_j12369505813152_2_alg».proof.Proof.HostI

set_option maxRecDepth 16384
set_option maxHeartbeats 40000000

noncomputable section

namespace Cert.KernelIdeal.Frame

open Cert.KernelIdeal Cert.KernelIdeal.Gen Cert.KernelIdeal.Body Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (unfetched, its block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the region on core `c`: the arrays as the region finds them; after the body at point `t`
    each input's buffer at its block and the output's at the scores of the point's encoder rows; the invariant the
    untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScore (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outScore (iblk m c 0 t) (iblk m c 1 t) (iblk m c 2 t) (iblk m c 3 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of the program terminates, each array of the
    region ending at what the proof data computes and every bypassing buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A bypassing argument array ends as launched. -/
theorem kept_bypass (r : PUnit × MemSt nD τ sig (Elt F))
    (h : Pipeline.FramePost cfgs (dats m) 0 (Pipeline.afterTail₀ cfgs (dats m) 0 (V0 m) [hostOps1]) r) (c : Dev nD) (k : Fin 16)
    (hk : ∀ w, Pipeline.arrRef spec0 w ≠ argRef k) (hs : (argRef k).isScoped = false) :
    r.2.mem ((c.tc : Thread nD τ).loc (argRef k)) = m ((c.tc : Thread nD τ).loc (argRef k)) :=
  ((h c).2 (argRef k) (Pipeline.mem_restRefs_of (argRef k) hs hk)).trans (W_arg m (dats m) c k hk)

/-- The staged input array `main_arg2` ends as launched: the region never writes it back. -/
theorem kept_arg2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 0).trans (((dats m 0 c).arrAt_in 0 rfl _).trans ((A_eq m c 0).trans (V_arg m c 2)))

/-- The staged input array `main_arg8` ends as launched: the region never writes it back. -/
theorem kept_arg8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 1).trans (((dats m 0 c).arrAt_in 1 rfl _).trans ((A_eq m c 1).trans (V_arg m c 8)))

/-- The staged input array `main_arg9` ends as launched: the region never writes it back. -/
theorem kept_arg9 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).1 2).trans (((dats m 0 c).arrAt_in 2 rfl _).trans ((A_eq m c 2).trans (V_arg m c 9)))

/-- The frame: the program runs to the end from any memory and its sixteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨kept_bypass m r h c 0 (by decide) rfl,
    kept_bypass m r h c 1 (by decide) rfl,
    kept_arg2 m r h c,
    kept_bypass m r h c 3 (by decide) rfl,
    kept_bypass m r h c 4 (by decide) rfl,
    kept_bypass m r h c 5 (by decide) rfl,
    kept_bypass m r h c 6 (by decide) rfl,
    kept_bypass m r h c 7 (by decide) rfl,
    kept_arg8 m r h c,
    kept_arg9 m r h c,
    kept_bypass m r h c 10 (by decide) rfl,
    kept_bypass m r h c 11 (by decide) rfl,
    kept_bypass m r h c 12 (by decide) rfl,
    kept_bypass m r h c 13 (by decide) rfl,
    kept_bypass m r h c 14 (by decide) rfl,
    kept_bypass m r h c 15 (by decide) rfl⟩) (run_main m ρ)

end Cert.KernelIdeal.Frame

end
-- ==== Proof.Spec.lean ====
/-
  The attention score of one encoder row, as a function over the extended reals.

  For an encoder row `r`, a hidden unit `h` sees the pre-activation
  `way[0,h] + Σ_k enc[r,k] · w2[h,k]` (the query projection plus the row's projection by the second attention
  matrix, contracted along the LAST axis of both factors), and the score of the row is the projection of the
  hyperbolic tangents of those pre-activations onto the third attention vector: `Σ_h tanh(·) · w3[0,h]`.
  The number of rows is a parameter so that the same function describes one block of rows and the whole array.
-/
import Idealize.ShloMosaic.PureOps.Ideal
import Idealize.ShloMosaic.Lib.ValueIdx

noncomputable section

namespace Cert.Score

open Idealize.ShloMosaic Idealize.ShloMosaic.ValueIdx
open scoped BigOperators

/-- The score of row `r`: `Σ_h tanh (way[0,h] + Σ_k enc[r,k] · w2[h,k]) · w3[0,h]`. -/
def score {n : Nat} (enc : (⟨2, ![n, 2048]⟩ : Shape).Idx → EReal) (w2 : (⟨2, ![2048, 2048]⟩ : Shape).Idx → EReal)
    (w3 way : (⟨2, ![1, 2048]⟩ : Shape).Idx → EReal) (r : Fin n) : EReal :=
  ∑ h : Fin 2048, Ideal.tanh (way (ix2 (0 : Fin 1) h) + ∑ k : Fin 2048, enc (ix2 r k) * w2 (ix2 h k)) * w3 (ix2 (0 : Fin 1) h)

end Cert.Score

end
-- ==== Proof.PayScore.lean ====
/-
  The value the kernel's body stores, read at a row, is the attention score of that row.

  The stored [1024,1] column is, row by row: the lane sum, over the hidden units `h`, of
  `tanh (q[0,h] + Σ_k enc[r,k] · w2[h,k]) · w3[0,h]`, where the inner sum is the matrix product that contracts the
  LAST axis of both factors into a zero accumulator (the narrowing of the factors is the identity over the
  extended reals), `q` and `w3` are [1,2048] rows repeated over the 1024 rows, and the lane sum's [1024] result is
  viewed as a [1024,1] column.  Each layout step is read at an index written by coordinates, the two sums are
  re-indexed over `Fin 2048`, and the pointwise steps are definitional.
-/
import proofs.«130881_j12369505813152_2_alg».proof.Proof.Gen.KernelIdeal.Skeleton
import proofs.«130881_j12369505813152_2_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.PayScore

open Cert.KernelIdeal Cert.KernelIdeal.Gen Idealize.ShloMosaic Idealize.ShloMosaic.ValueIdx Idealize.SL.Sem
open scoped BigOperators

/-! ## The matrix product: rows of the left factor against ROWS of the right factor -/

/-- The product's dimension numbers: both factors contract their last axis; the result's axes are the two first axes. -/
abbrev D : DotDims S1024x2048 S2048x2048 S1024x2048 := dot_S1024x2048_S2048x2048_S1024x2048_1_1_0_0_n_n

/-- The left operand's row is the result's row. -/
theorem lhs_row (i : S1024x2048.Idx) (q : D.contr.Idx) : (D.lhsIdx i q 0).val = (i 0).val := by
  unfold DotDims.lhsIdx
  rw [dif_neg (show ¬(0 : Fin S1024x2048.rank) ∈ D.lhsBatch by decide),
    dif_pos (show (0 : Fin S1024x2048.rank) ∈ D.lhsNonContracting by decide)]
  rfl

/-- The left operand's column is the contraction coordinate. -/
theorem lhs_col (i : S1024x2048.Idx) (q : D.contr.Idx) : (D.lhsIdx i q 1).val = (q ⟨0, by decide⟩).val :=
  D.lhsIdx_val_of_single rfl i q

/-- The right operand's row is the result's COLUMN. -/
theorem rhs_row (i : S1024x2048.Idx) (q : D.contr.Idx) : (D.rhsIdx i q 0).val = (i 1).val := by
  unfold DotDims.rhsIdx
  rw [dif_neg (show ¬(0 : Fin S2048x2048.rank) ∈ D.rhsBatch by decide),
    dif_pos (show (0 : Fin S2048x2048.rank) ∈ D.rhsNonContracting by decide)]
  rfl

/-- The right operand's column is the contraction coordinate. -/
theorem rhs_col (i : S1024x2048.Idx) (q : D.contr.Idx) : (D.rhsIdx i q 1).val = (q ⟨0, by decide⟩).val :=
  D.rhsIdx_val_of_single rfl i q

/-- Into the zero accumulator the product at `(r, h)` is `Σ_k a[r,k] · b[h,k]`. -/
theorem matmul_at {φ₁ φ₂ : FTy} (a : FVec Ideal S1024x2048 φ₁) (b : FVec Ideal S2048x2048 φ₂) (r : Fin 1024) (h : Fin 2048) :
    matmul D none a b (constant (F := Ideal) S1024x2048 .f32 0x00000000#32) (ix2 r h)
      = ∑ k : Fin 2048, a (ix2 r k) * b (ix2 h k) := by
  refine (Ideal.matmul_constant_zero_apply D none a b (ix2 r h)).trans ?_
  rw [← Equiv.sum_comp (contrEquiv1 D 2048 rfl rfl).symm]
  refine Finset.sum_congr rfl fun k _ => ?_
  have hk := contrEquiv1_symm_val D 2048 rfl rfl k
  have el : D.lhsIdx (ix2 r h) ((contrEquiv1 D 2048 rfl rfl).symm k) = ix2 r k := funext fun c => Fin.ext (by
    match c with
    | ⟨0, _⟩ => exact lhs_row _ _
    | ⟨1, _⟩ => exact (lhs_col _ _).trans hk)
  have er : D.rhsIdx (ix2 r h) ((contrEquiv1 D 2048 rfl rfl).symm k) = ix2 h k := funext fun c => Fin.ext (by
    match c with
    | ⟨0, _⟩ => exact rhs_row _ _
    | ⟨1, _⟩ => exact (rhs_col _ _).trans hk)
  rw [el, er]

/-! ## The lane sum of a row -/

/-- The reduced index `r` with lane `k` put back is `(r, k)`. -/
theorem lift_row (hred : S1024x2048.Reduces [1] S1024) (r : Fin 1024) (k : Fin (S1024x2048.size 1)) :
    hred.lift (ix1 r) k = ix2 r (⟨k.val, k.isLt⟩ : Fin 2048) := by
  funext c; apply Fin.ext
  match c with
  | ⟨0, _⟩ => rfl
  | ⟨1, _⟩ => rfl

/-- The sum over the lanes, read at row `r`: `Σ_h x[r,h]`. -/
theorem rowSum_at (x : FVec Ideal S1024x2048 .f32) (hred : S1024x2048.Reduces [1] S1024) (hφ : FKind.Formats .f32)
    (hacc : (0x00000000#32 : BitVec 32) = FKind.add.neutral .f32 hφ) (r : Fin 1024) :
    multiReduction (F := Ideal) .add [1] S1024 x 0x00000000#32 hred hφ hacc (ix1 r) = ∑ h : Fin 2048, x (ix2 r h) := by
  refine (Ideal.multiReduction_add_single x 0x00000000#32 hred hφ hacc (ix1 r)).trans ?_
  exact Finset.sum_congr rfl fun k _ => congrArg x (lift_row hred r k)

/-! ## A vector viewed as a column -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The stored column at a row -/

/-- The stored value at row `r` is the score of row `r`: the query projection is `x5`, the third attention vector `x10`. -/
theorem pay_score (x0 : FVec Ideal S1024x2048 .f32) (x2 : FVec Ideal S2048x2048 .f32) (x5 x10 : FVec Ideal S1x2048 .f32)
    (r : Fin 1024) :
    Cert.KernelIdeal.Gen.k0_pay1 (F := Ideal) x0 x2 x5 x10 (ix2 r (0 : Fin 1)) = Cert.Score.score x0 x2 x10 x5 r := by
  unfold Cert.KernelIdeal.Gen.k0_pay1
  refine (shapeCast_a_a1_apply _ shapeCasts_S1024_S1024x1 r 0).trans ?_
  refine (rowSum_at _ reduces_S1024x2048_S1024 _ _ r).trans ?_
  unfold Cert.Score.score
  refine Finset.sum_congr rfl fun h _ => ?_
  refine (mulf_apply _ _ _).trans ?_
  refine congrArg₂ (· * ·) ?_ (broadcastTo_1b_ab_apply x10 broadcasts_S1x2048_S1024x2048 r h)
  refine congrArg Ideal.tanh (congrArg₂ (· + ·) ?_ ?_)
  · refine (broadcastTo_1b_ab_apply _ broadcasts_S1x2048_S1024x2048 r h).trans ?_
    rw [shapeCast_self]
  · exact matmul_at _ _ r h

/-- The same as a function of the index: the column's entry depends on the row only. -/
theorem pay_score_fn (x0 : FVec Ideal S1024x2048 .f32) (x2 : FVec Ideal S2048x2048 .f32) (x5 x10 : FVec Ideal S1x2048 .f32) :
    Cert.KernelIdeal.Gen.k0_pay1 (F := Ideal) x0 x2 x5 x10 = fun j => Cert.Score.score x0 x2 x10 x5 (j 0) := by
  funext j
  obtain ⟨p, q, rfl⟩ : ∃ (p : Fin 1024) (q : Fin 1), j = ix2 p q := ⟨j 0, j 1, eq_ix2 j⟩
  obtain rfl : q = 0 := Subsingleton.elim _ _
  exact pay_score x0 x2 x5 x10 p

end Cert.PayScore

end
-- ==== Proof.ValueK.lean ====
/-
  The score array after the idealized kernel's run, as one function of the arrays the region finds.

  Point `t` stages encoder rows `1024·t … 1024·t + 1023` and the whole of the other three operands, so the value the
  body stores at row `r` of its output block is the score of encoder row `1024·t + r`; the output block of point `t`
  is rows `1024·t … 1024·t + 1023` of the score column.  The four blocks tile the column, so after the region the
  column holds, at every row, the score of that encoder row.
-/
import proofs.«130881_j12369505813152_2_alg».proof.Proof.FrameI
import proofs.«130881_j12369505813152_2_alg».proof.Proof.PayScore
import Idealize.ShloMosaic.Lib.Pipeline.Value
import Idealize.ShloMosaic.Lib.ValueIdx

set_option maxRecDepth 16384
set_option maxHeartbeats 40000000

noncomputable section

namespace Cert.KernelIdeal.ScoreValue

open Cert.KernelIdeal Cert.KernelIdeal.Gen Cert.KernelIdeal.Body Cert.KernelIdeal.Host Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The score column as a function of the encoder array, the second attention matrix, the third attention vector and
    the query projection: row `i 0` holds the score of encoder row `i 0`. -/
def scoreCol (enc : S4096x2048.Idx → EReal) (w2 : S2048x2048.Idx → EReal) (w3 way : S1x2048.Idx → EReal) : S4096x1.Idx → EReal :=
  fun i => Cert.Score.score (n := 4096) enc w2 w3 way (i 0)

/-- The printed index maps, decided over the four points: the encoder window's and the output window's row block is
    the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r`, column `k` of the encoder block at point `t` is row `1024·t + r`, column `k` of the encoder array. -/
theorem enc_blk (c : Dev nD) (t : Fin cfg0.N) (r : Fin 1024) (k : Fin 2048) (R : Fin 4096) (hR : R.val = t.val * 1024 + r.val) :
    iblk m c 0 t (ix2 r k) = V m c main_arg2 (ix2 R k) := by
  show V m c main_arg2 (((cfg0.win 0).blk t).view.emb (ix2 r k)) = V m c main_arg2 (ix2 R k)
  refine congrArg _ ?_
  obtain ⟨e0, e1, -⟩ := idx_facts t
  funext a; apply Fin.ext
  match a with
  | ⟨0, _⟩ => show win0_0.index t (0 : Fin 2) * 1024 + 1 * r.val = R.val; omega
  | ⟨1, _⟩ => show win0_0.index t (1 : Fin 2) * 2048 + 1 * k.val = k.val; omega

/-- The second attention matrix's block is the whole matrix at every point. -/
theorem w2_blk (c : Dev nD) (t : Fin cfg0.N) (h k : Fin 2048) :
    iblk m c 1 t (ix2 h k) = V m c main_arg8 (ix2 h k) := by
  show V m c main_arg8 (((cfg0.win 1).blk t).view.emb (ix2 h k)) = V m c main_arg8 (ix2 h k)
  refine congrArg _ ?_
  obtain ⟨-, -, e0, e1, -⟩ := idx_facts t
  funext a; apply Fin.ext
  match a with
  | ⟨0, _⟩ => show win0_1.index t (0 : Fin 2) * 2048 + 1 * h.val = h.val; omega
  | ⟨1, _⟩ => show win0_1.index t (1 : Fin 2) * 2048 + 1 * k.val = k.val; omega

/-- The third attention vector's block is the whole vector at every point. -/
theorem w3_blk (c : Dev nD) (t : Fin cfg0.N) (h : Fin 2048) :
    iblk m c 2 t (ix2 (0 : Fin 1) h) = V m c main_arg9 (ix2 (0 : Fin 1) h) := by
  show V m c main_arg9 (((cfg0.win 2).blk t).view.emb (ix2 (0 : Fin 1) h)) = V m c main_arg9 (ix2 (0 : Fin 1) h)
  refine congrArg _ ?_
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 2048 + 1 * h.val = h.val; omega

/-- The query projection's block is the whole row at every point. -/
theorem way_blk (c : Dev nD) (t : Fin cfg0.N) (h : Fin 2048) :
    iblk m c 3 t (ix2 (0 : Fin 1) h) = V m c main_v11 (ix2 (0 : Fin 1) h) := by
  show V m c main_v11 (((cfg0.win 3).blk t).view.emb (ix2 (0 : Fin 1) h)) = V m c main_v11 (ix2 (0 : Fin 1) h)
  refine congrArg _ ?_
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 2048 + 1 * h.val = h.val; omega

/-- What point `t` writes back is block `t` of the score column of the arrays the region finds. -/
theorem flushed_eq (c : Dev nD) (t : Fin cfg0.N) :
    (dats m 0 c).flushed 4 t = ((cfg0.win 4).blk t).view.read (Elt Ideal)
      (scoreCol (V m c main_arg2) (V m c main_arg8) (V m c main_arg9) (V m c main_v11)) := by
  show (cfg0.win 4).cut (grid0.coords t) ((dats m 0 c).after 4 t) = _
  rw [after_4]
  unfold outScore
  rw [View.canon_unit_zero hz]
  simp only [View.ld_unit_zero (S := S1024x2048) hz, View.ld_unit_zero (S := S2048x2048) hz, View.ld_unit_zero (S := S1x2048) hz]
  funext j
  obtain ⟨r, q, rfl⟩ : ∃ (r : Fin 1024) (q : Fin 1), j = ix2 r q := ⟨j 0, j 1, eq_ix2 j⟩
  obtain rfl : q = 0 := Subsingleton.elim _ _
  obtain ⟨-, -, -, -, -, -, -, -, e0, e1⟩ := idx_facts t
  have hR : t.val * 1024 + r.val < 4096 := by have := t.isLt; have h4 : cfg0.N = 4 := N_0; have := r.isLt; omega
  have hemb : (((cfg0.win 4).blk t).view.emb (ix2 r (0 : Fin 1))) (0 : Fin 2) = (⟨t.val * 1024 + r.val, hR⟩ : Fin 4096) := by
    apply Fin.ext
    show win0_4.index t (0 : Fin 2) * 1024 + 1 * r.val = t.val * 1024 + r.val
    omega
  refine (Cert.PayScore.pay_score _ _ _ _ r).trans ?_
  show Cert.Score.score (n := 1024) (iblk m c 0 t) (iblk m c 1 t) (iblk m c 2 t) (iblk m c 3 t) r
    = Cert.Score.score (n := 4096) (V m c main_arg2) (V m c main_arg8) (V m c main_arg9) (V m c main_v11)
        ((((cfg0.win 4).blk t).view.emb (ix2 r (0 : Fin 1))) (0 : Fin 2))
  rw [hemb]
  unfold Cert.Score.score
  have he : ∀ k : Fin 2048, iblk m c 0 t (ix2 r k) = V m c main_arg2 (ix2 (⟨t.val * 1024 + r.val, hR⟩ : Fin 4096) k) :=
    fun k => enc_blk m c t r k _ rfl
  simp only [he, w2_blk m c t, w3_blk m c t, way_blk m c t]

/-- An index of the score column is in point `t`'s block iff its row lies in rows `1024·t … 1024·t + 1023`. -/
theorem mem_blk (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v12).slice (win0_4.rect t)).set ↔ _
  rw [View.set_slice_whole, Rect.mem_set_unit]
  exact Iff.rfl

/-- Every row of the score column is in the block of the point `row / 1024`. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have h4 : cfg0.N = 4 := N_0
  refine ⟨⟨(i 0).val / 1024, by omega⟩, flush0_4 _, ?_⟩
  rw [mem_blk]
  obtain ⟨-, -, -, -, -, -, -, -, e0, e1⟩ := idx_facts ⟨(i 0).val / 1024, by omega⟩
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 1 ≤ (i 1).val ∧ (i 1).val < win0_4.index _ (1 : Fin 2) * 1 + 1
    rw [e1]; omega

/-- The score column after the region: at every row the score of that encoder row. -/
theorem final (c : Dev nD) : (dats m 0 c).arrAt 4 cfg0.N
    = scoreCol (V m c main_arg2) (V m c main_arg8) (V m c main_arg9) (V m c main_v11) :=
  (dats m 0 c).arrAt_eq_of_cover 4 _ (fun t _ => flushed_eq m c t) cover

end Cert.KernelIdeal.ScoreValue

end
-- ==== Proof.Tail.lean ====
/-
  What the program computes after the attention scores, as functions of the score row and the arrays it reads.

  From the score row `g` [1,4096]: the attention weights are its softmax (the row minus its maximum, exponentiated,
  divided by the sum); the context is the weights times the encoder array; the recurrent cell reads the embedding `e`
  joined with the context through its input weights and the previous hidden state through its hidden weights, splits
  each into the reset, update and candidate thirds, and returns the new hidden state
  `(1 − z) · tanh(i_n + r · h_n) + z · h`; the output is the softmax of the new state's projection.  The three
  definitions below are the program's three results — output probabilities, new hidden state, attention weights —
  each as the same list of operations, line by line, one `let` per line.
-/
import proofs.«130881_j12369505813152_2_alg».proof.KernelIdeal

set_option maxRecDepth 16384
set_option maxHeartbeats 4000000

noncomputable section

namespace Cert.Tail

open Cert.KernelIdeal Idealize.ShloMosaic
open Cert.KernelIdeal.Facts₀ Cert.KernelIdeal.Facts

variable {F : FTy → Type} [FloatOps F] [Cert.KernelIdeal.Facts]

/-- The output probabilities: the softmax of the new hidden state's projection. -/
def outProbs (g : (⟨S1x4096, .f32⟩ : BufTy).Contents (Elt F)) (e : (⟨S1x2048, .f32⟩ : BufTy).Contents (Elt F)) (a1 : (⟨S1x1x2048, .f32⟩ : BufTy).Contents (Elt F)) (a2 : (⟨S4096x2048, .f32⟩ : BufTy).Contents (Elt F))
    (a10 : (⟨S6144x4096, .f32⟩ : BufTy).Contents (Elt F)) (a11 : (⟨S6144x2048, .f32⟩ : BufTy).Contents (Elt F)) (a12 a13 : (⟨S6144, .f32⟩ : BufTy).Contents (Elt F)) (a14 : (⟨S1024x2048, .f32⟩ : BufTy).Contents (Elt F)) (a15 : (⟨S1024, .f32⟩ : BufTy).Contents (Elt F)) :
    (⟨S1x1024, .f32⟩ : BufTy).Contents (Elt F) :=
  let cst : (⟨S_, .f32⟩ : BufTy).Contents (Elt F) := constant S_ .f32 0xFF800000#32
  let v14 : (⟨S1, .f32⟩ : BufTy).Contents (Elt F) := ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)) g cst
  let cst_0 : (⟨S_, .f32⟩ : BufTy).Contents (Elt F) := constant S_ .f32 0xFF800000#32
  let v15 : (⟨S1, .f32⟩ : BufTy).Contents (Elt F) := (broadcastInDim S1 ![] bcast_S_S1 : (⟨S_, .f32⟩ : BufTy).Contents (Elt F) → (⟨S1, .f32⟩ : BufTy).Contents (Elt F)) cst_0
  let v16 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v15 v14
  let v17 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v16
  let v18 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v17
  let v19 : (⟨S1x4096, .f32⟩ : BufTy).Contents (Elt F) := (subf : (⟨S1x4096, .f32⟩ : BufTy).Contents (Elt F) → (⟨S1x4096, .f32⟩ : BufTy).Contents (Elt F) → (⟨S1x4096, .f32⟩ : BufTy).Contents (Elt F)) g v18
  let v20 : (⟨S1x4096, .f32⟩ : BufTy).Contents (Elt F) := (Host.exp : (⟨S1x4096, .f32⟩ : BufTy).Contents (Elt F) → (⟨S1x4096, .f32⟩ : BufTy).Contents (Elt F)) v19
  let cst_1 : (⟨S_, .f32⟩ : BufTy).Contents (Elt F) := constant S_ .f32 0x00000000#32
  let v21 : (⟨S1, .f32⟩ : BufTy).Contents (Elt F) := ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)) v20 cst_1
  let v22 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v21
  let v23 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v22
  let v24 : (⟨S1x4096, .f32⟩ : BufTy).Contents (Elt F) := (Host.divf : (⟨S1x4096, .f32⟩ : BufTy).Contents (Elt F) → (⟨S1x4096, .f32⟩ : BufTy).Contents (Elt F) → (⟨S1x4096, .f32⟩ : BufTy).Contents (Elt F)) v20 v23
  let v25 : (⟨S1x2048, .f32⟩ : BufTy).Contents (Elt F) := ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)) v24 a2
  let v26 : (⟨S1x4096, .f32⟩ : BufTy).Contents (Elt F) := ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)) e v25
  let v27 : (⟨S1x2048, .f32⟩ : BufTy).Contents (Elt F) := shapeCast _ a1 shapeCasts_S1x1x2048_S1x2048
  let v28 : (⟨S4096x6144, .f32⟩ : BufTy).Contents (Elt F) := ((transpose S4096x6144 [1, 0] · transposes_S6144x4096_S4096x6144_1_0) : (⟨S6144x4096, .f32⟩ : BufTy).Contents (Elt F) → (⟨S4096x6144, .f32⟩ : BufTy).Contents (Elt F)) a10
  let v29 : (⟨S1x6144, .f32⟩ : BufTy).Contents (Elt F) := ((fun l r => Host.dotGeneral dot_S1x4096_S4096x6144_S1x6144_1_0_0_1_n_n none l r) : (⟨S1x4096, .f32⟩ : BufTy).Contents (Elt F) → (⟨S4096x6144, .f32⟩ : BufTy).Contents (Elt F) → (⟨S1x6144, .f32⟩ : BufTy).Contents (Elt F)) v26 v28
  let v30 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a12
  let v31 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v29 v30
  let v32 : (⟨S2048x6144, .f32⟩ : BufTy).Contents (Elt F) := ((transpose S2048x6144 [1, 0] · transposes_S6144x2048_S2048x6144_1_0) : (⟨S6144x2048, .f32⟩ : BufTy).Contents (Elt F) → (⟨S2048x6144, .f32⟩ : BufTy).Contents (Elt F)) a11
  let v33 : (⟨S1x6144, .f32⟩ : BufTy).Contents (Elt F) := ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)) v27 v32
  let v34 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a13
  let v35 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v33 v34
  let v36 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v31
  let v37 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v31
  let v38 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v31
  let v39 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v35
  let v40 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v35
  let v41 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v35
  let v42 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v36 v39
  let v43 : (⟨S1x2048, .f32⟩ : BufTy).Contents (Elt F) := (Host.negf : (⟨S1x2048, .f32⟩ : BufTy).Contents (Elt F) → (⟨S1x2048, .f32⟩ : BufTy).Contents (Elt F)) v42
  let v44 : (⟨S1x2048, .f32⟩ : BufTy).Contents (Elt F) := (Host.exp : (⟨S1x2048, .f32⟩ : BufTy).Contents (Elt F) → (⟨S1x2048, .f32⟩ : BufTy).Contents (Elt F)) v43
  let cst_2 : (⟨S_, .f32⟩ : BufTy).Contents (Elt F) := constant S_ .f32 0x3F800000#32
  let v45 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_2
  let v46 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v45 v44
  let cst_3 : (⟨S_, .f32⟩ : BufTy).Contents (Elt F) := constant S_ .f32 0x3F800000#32
  let v47 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_3
  let v48 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v47 v46
  let v49 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v37 v40
  let v50 : (⟨S1x2048, .f32⟩ : BufTy).Contents (Elt F) := (Host.negf : (⟨S1x2048, .f32⟩ : BufTy).Contents (Elt F) → (⟨S1x2048, .f32⟩ : BufTy).Contents (Elt F)) v49
  let v51 : (⟨S1x2048, .f32⟩ : BufTy).Contents (Elt F) := (Host.exp : (⟨S1x2048, .f32⟩ : BufTy).Contents (Elt F) → (⟨S1x2048, .f32⟩ : BufTy).Contents (Elt F)) v50
  let cst_4 : (⟨S_, .f32⟩ : BufTy).Contents (Elt F) := constant S_ .f32 0x3F800000#32
  let v52 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_4
  let v53 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v52 v51
  let cst_5 : (⟨S_, .f32⟩ : BufTy).Contents (Elt F) := constant S_ .f32 0x3F800000#32
  let v54 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_5
  let v55 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v54 v53
  let v56 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v48 v41
  let v57 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v38 v56
  let v58 : (⟨S1x2048, .f32⟩ : BufTy).Contents (Elt F) := (Host.tanh : (⟨S1x2048, .f32⟩ : BufTy).Contents (Elt F) → (⟨S1x2048, .f32⟩ : BufTy).Contents (Elt F)) v57
  let cst_6 : (⟨S_, .f32⟩ : BufTy).Contents (Elt F) := constant S_ .f32 0x3F800000#32
  let v59 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_6
  let v60 : (⟨S1x2048, .f32⟩ : BufTy).Contents (Elt F) := (subf : (⟨S1x2048, .f32⟩ : BufTy).Contents (Elt F) → (⟨S1x2048, .f32⟩ : BufTy).Contents (Elt F) → (⟨S1x2048, .f32⟩ : BufTy).Contents (Elt F)) v59 v55
  let v61 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v60 v58
  let v62 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v55 v27
  let v63 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v61 v62
  let v64 : (⟨S2048x1024, .f32⟩ : BufTy).Contents (Elt F) := ((transpose S2048x1024 [1, 0] · transposes_S1024x2048_S2048x1024_1_0) : (⟨S1024x2048, .f32⟩ : BufTy).Contents (Elt F) → (⟨S2048x1024, .f32⟩ : BufTy).Contents (Elt F)) a14
  let v65 : (⟨S1x1024, .f32⟩ : BufTy).Contents (Elt F) := ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)) v63 v64
  let v66 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) a15
  let v67 : (⟨S1x1024, .f32⟩ : BufTy).Contents (Elt F) := (addf : (⟨S1x1024, .f32⟩ : BufTy).Contents (Elt F) → (⟨S1x1024, .f32⟩ : BufTy).Contents (Elt F) → (⟨S1x1024, .f32⟩ : BufTy).Contents (Elt F)) v65 v66
  let cst_7 : (⟨S_, .f32⟩ : BufTy).Contents (Elt F) := constant S_ .f32 0xFF800000#32
  let v68 : (⟨S1, .f32⟩ : BufTy).Contents (Elt F) := ((fun x v => Host.reduce FloatOps.maximumf x v reducesTo_S1x1024_S1_d1 h_S_) : (⟨S1x1024, .f32⟩ : BufTy).Contents (Elt F) → (⟨S_, .f32⟩ : BufTy).Contents (Elt F) → (⟨S1, .f32⟩ : BufTy).Contents (Elt F)) v67 cst_7
  let cst_8 : (⟨S_, .f32⟩ : BufTy).Contents (Elt F) := constant S_ .f32 0xFF800000#32
  let v69 : (⟨S1, .f32⟩ : BufTy).Contents (Elt F) := (broadcastInDim S1 ![] bcast_S_S1 : (⟨S_, .f32⟩ : BufTy).Contents (Elt F) → (⟨S1, .f32⟩ : BufTy).Contents (Elt F)) cst_8
  let v70 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v69 v68
  let v71 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v70
  let v72 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v71
  let v73 : (⟨S1x1024, .f32⟩ : BufTy).Contents (Elt F) := (subf : (⟨S1x1024, .f32⟩ : BufTy).Contents (Elt F) → (⟨S1x1024, .f32⟩ : BufTy).Contents (Elt F) → (⟨S1x1024, .f32⟩ : BufTy).Contents (Elt F)) v67 v72
  let v74 : (⟨S1x1024, .f32⟩ : BufTy).Contents (Elt F) := (Host.exp : (⟨S1x1024, .f32⟩ : BufTy).Contents (Elt F) → (⟨S1x1024, .f32⟩ : BufTy).Contents (Elt F)) v73
  let cst_9 : (⟨S_, .f32⟩ : BufTy).Contents (Elt F) := constant S_ .f32 0x00000000#32
  let v75 : (⟨S1, .f32⟩ : BufTy).Contents (Elt F) := ((fun x v => Host.reduceAdd x v reducesTo_S1x1024_S1_d1 h_S_) : (⟨S1x1024, .f32⟩ : BufTy).Contents (Elt F) → (⟨S_, .f32⟩ : BufTy).Contents (Elt F) → (⟨S1, .f32⟩ : BufTy).Contents (Elt F)) v74 cst_9
  let v76 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v75
  let v77 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v76
  let v78 : (⟨S1x1024, .f32⟩ : BufTy).Contents (Elt F) := (Host.divf : (⟨S1x1024, .f32⟩ : BufTy).Contents (Elt F) → (⟨S1x1024, .f32⟩ : BufTy).Contents (Elt F) → (⟨S1x1024, .f32⟩ : BufTy).Contents (Elt F)) v74 v77
  let v79 : (⟨S1x1x2048, .f32⟩ : BufTy).Contents (Elt F) := (broadcastInDim S1x1x2048 ![1, 2] bcast_S1x2048_S1x1x2048_1_2 : (⟨S1x2048, .f32⟩ : BufTy).Contents (Elt F) → (⟨S1x1x2048, .f32⟩ : BufTy).Contents (Elt F)) v63
  v78

/-- The new hidden state, with a leading unit axis. -/
def newHidden (g : (⟨S1x4096, .f32⟩ : BufTy).Contents (Elt F)) (e : (⟨S1x2048, .f32⟩ : BufTy).Contents (Elt F)) (a1 : (⟨S1x1x2048, .f32⟩ : BufTy).Contents (Elt F)) (a2 : (⟨S4096x2048, .f32⟩ : BufTy).Contents (Elt F))
    (a10 : (⟨S6144x4096, .f32⟩ : BufTy).Contents (Elt F)) (a11 : (⟨S6144x2048, .f32⟩ : BufTy).Contents (Elt F)) (a12 a13 : (⟨S6144, .f32⟩ : BufTy).Contents (Elt F)) (a14 : (⟨S1024x2048, .f32⟩ : BufTy).Contents (Elt F)) (a15 : (⟨S1024, .f32⟩ : BufTy).Contents (Elt F)) :
    (⟨S1x1x2048, .f32⟩ : BufTy).Contents (Elt F) :=
  let cst : (⟨S_, .f32⟩ : BufTy).Contents (Elt F) := constant S_ .f32 0xFF800000#32
  let v14 : (⟨S1, .f32⟩ : BufTy).Contents (Elt F) := ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)) g cst
  let cst_0 : (⟨S_, .f32⟩ : BufTy).Contents (Elt F) := constant S_ .f32 0xFF800000#32
  let v15 : (⟨S1, .f32⟩ : BufTy).Contents (Elt F) := (broadcastInDim S1 ![] bcast_S_S1 : (⟨S_, .f32⟩ : BufTy).Contents (Elt F) → (⟨S1, .f32⟩ : BufTy).Contents (Elt F)) cst_0
  let v16 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v15 v14
  let v17 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v16
  let v18 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v17
  let v19 : (⟨S1x4096, .f32⟩ : BufTy).Contents (Elt F) := (subf : (⟨S1x4096, .f32⟩ : BufTy).Contents (Elt F) → (⟨S1x4096, .f32⟩ : BufTy).Contents (Elt F) → (⟨S1x4096, .f32⟩ : BufTy).Contents (Elt F)) g v18
  let v20 : (⟨S1x4096, .f32⟩ : BufTy).Contents (Elt F) := (Host.exp : (⟨S1x4096, .f32⟩ : BufTy).Contents (Elt F) → (⟨S1x4096, .f32⟩ : BufTy).Contents (Elt F)) v19
  let cst_1 : (⟨S_, .f32⟩ : BufTy).Contents (Elt F) := constant S_ .f32 0x00000000#32
  let v21 : (⟨S1, .f32⟩ : BufTy).Contents (Elt F) := ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)) v20 cst_1
  let v22 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v21
  let v23 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v22
  let v24 : (⟨S1x4096, .f32⟩ : BufTy).Contents (Elt F) := (Host.divf : (⟨S1x4096, .f32⟩ : BufTy).Contents (Elt F) → (⟨S1x4096, .f32⟩ : BufTy).Contents (Elt F) → (⟨S1x4096, .f32⟩ : BufTy).Contents (Elt F)) v20 v23
  let v25 : (⟨S1x2048, .f32⟩ : BufTy).Contents (Elt F) := ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)) v24 a2
  let v26 : (⟨S1x4096, .f32⟩ : BufTy).Contents (Elt F) := ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)) e v25
  let v27 : (⟨S1x2048, .f32⟩ : BufTy).Contents (Elt F) := shapeCast _ a1 shapeCasts_S1x1x2048_S1x2048
  let v28 : (⟨S4096x6144, .f32⟩ : BufTy).Contents (Elt F) := ((transpose S4096x6144 [1, 0] · transposes_S6144x4096_S4096x6144_1_0) : (⟨S6144x4096, .f32⟩ : BufTy).Contents (Elt F) → (⟨S4096x6144, .f32⟩ : BufTy).Contents (Elt F)) a10
  let v29 : (⟨S1x6144, .f32⟩ : BufTy).Contents (Elt F) := ((fun l r => Host.dotGeneral dot_S1x4096_S4096x6144_S1x6144_1_0_0_1_n_n none l r) : (⟨S1x4096, .f32⟩ : BufTy).Contents (Elt F) → (⟨S4096x6144, .f32⟩ : BufTy).Contents (Elt F) → (⟨S1x6144, .f32⟩ : BufTy).Contents (Elt F)) v26 v28
  let v30 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a12
  let v31 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v29 v30
  let v32 : (⟨S2048x6144, .f32⟩ : BufTy).Contents (Elt F) := ((transpose S2048x6144 [1, 0] · transposes_S6144x2048_S2048x6144_1_0) : (⟨S6144x2048, .f32⟩ : BufTy).Contents (Elt F) → (⟨S2048x6144, .f32⟩ : BufTy).Contents (Elt F)) a11
  let v33 : (⟨S1x6144, .f32⟩ : BufTy).Contents (Elt F) := ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)) v27 v32
  let v34 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a13
  let v35 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v33 v34
  let v36 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v31
  let v37 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v31
  let v38 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v31
  let v39 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v35
  let v40 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v35
  let v41 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v35
  let v42 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v36 v39
  let v43 : (⟨S1x2048, .f32⟩ : BufTy).Contents (Elt F) := (Host.negf : (⟨S1x2048, .f32⟩ : BufTy).Contents (Elt F) → (⟨S1x2048, .f32⟩ : BufTy).Contents (Elt F)) v42
  let v44 : (⟨S1x2048, .f32⟩ : BufTy).Contents (Elt F) := (Host.exp : (⟨S1x2048, .f32⟩ : BufTy).Contents (Elt F) → (⟨S1x2048, .f32⟩ : BufTy).Contents (Elt F)) v43
  let cst_2 : (⟨S_, .f32⟩ : BufTy).Contents (Elt F) := constant S_ .f32 0x3F800000#32
  let v45 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_2
  let v46 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v45 v44
  let cst_3 : (⟨S_, .f32⟩ : BufTy).Contents (Elt F) := constant S_ .f32 0x3F800000#32
  let v47 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_3
  let v48 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v47 v46
  let v49 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v37 v40
  let v50 : (⟨S1x2048, .f32⟩ : BufTy).Contents (Elt F) := (Host.negf : (⟨S1x2048, .f32⟩ : BufTy).Contents (Elt F) → (⟨S1x2048, .f32⟩ : BufTy).Contents (Elt F)) v49
  let v51 : (⟨S1x2048, .f32⟩ : BufTy).Contents (Elt F) := (Host.exp : (⟨S1x2048, .f32⟩ : BufTy).Contents (Elt F) → (⟨S1x2048, .f32⟩ : BufTy).Contents (Elt F)) v50
  let cst_4 : (⟨S_, .f32⟩ : BufTy).Contents (Elt F) := constant S_ .f32 0x3F800000#32
  let v52 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_4
  let v53 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v52 v51
  let cst_5 : (⟨S_, .f32⟩ : BufTy).Contents (Elt F) := constant S_ .f32 0x3F800000#32
  let v54 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_5
  let v55 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v54 v53
  let v56 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v48 v41
  let v57 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v38 v56
  let v58 : (⟨S1x2048, .f32⟩ : BufTy).Contents (Elt F) := (Host.tanh : (⟨S1x2048, .f32⟩ : BufTy).Contents (Elt F) → (⟨S1x2048, .f32⟩ : BufTy).Contents (Elt F)) v57
  let cst_6 : (⟨S_, .f32⟩ : BufTy).Contents (Elt F) := constant S_ .f32 0x3F800000#32
  let v59 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_6
  let v60 : (⟨S1x2048, .f32⟩ : BufTy).Contents (Elt F) := (subf : (⟨S1x2048, .f32⟩ : BufTy).Contents (Elt F) → (⟨S1x2048, .f32⟩ : BufTy).Contents (Elt F) → (⟨S1x2048, .f32⟩ : BufTy).Contents (Elt F)) v59 v55
  let v61 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v60 v58
  let v62 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v55 v27
  let v63 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v61 v62
  let v64 : (⟨S2048x1024, .f32⟩ : BufTy).Contents (Elt F) := ((transpose S2048x1024 [1, 0] · transposes_S1024x2048_S2048x1024_1_0) : (⟨S1024x2048, .f32⟩ : BufTy).Contents (Elt F) → (⟨S2048x1024, .f32⟩ : BufTy).Contents (Elt F)) a14
  let v65 : (⟨S1x1024, .f32⟩ : BufTy).Contents (Elt F) := ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)) v63 v64
  let v66 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) a15
  let v67 : (⟨S1x1024, .f32⟩ : BufTy).Contents (Elt F) := (addf : (⟨S1x1024, .f32⟩ : BufTy).Contents (Elt F) → (⟨S1x1024, .f32⟩ : BufTy).Contents (Elt F) → (⟨S1x1024, .f32⟩ : BufTy).Contents (Elt F)) v65 v66
  let cst_7 : (⟨S_, .f32⟩ : BufTy).Contents (Elt F) := constant S_ .f32 0xFF800000#32
  let v68 : (⟨S1, .f32⟩ : BufTy).Contents (Elt F) := ((fun x v => Host.reduce FloatOps.maximumf x v reducesTo_S1x1024_S1_d1 h_S_) : (⟨S1x1024, .f32⟩ : BufTy).Contents (Elt F) → (⟨S_, .f32⟩ : BufTy).Contents (Elt F) → (⟨S1, .f32⟩ : BufTy).Contents (Elt F)) v67 cst_7
  let cst_8 : (⟨S_, .f32⟩ : BufTy).Contents (Elt F) := constant S_ .f32 0xFF800000#32
  let v69 : (⟨S1, .f32⟩ : BufTy).Contents (Elt F) := (broadcastInDim S1 ![] bcast_S_S1 : (⟨S_, .f32⟩ : BufTy).Contents (Elt F) → (⟨S1, .f32⟩ : BufTy).Contents (Elt F)) cst_8
  let v70 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v69 v68
  let v71 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v70
  let v72 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v71
  let v73 : (⟨S1x1024, .f32⟩ : BufTy).Contents (Elt F) := (subf : (⟨S1x1024, .f32⟩ : BufTy).Contents (Elt F) → (⟨S1x1024, .f32⟩ : BufTy).Contents (Elt F) → (⟨S1x1024, .f32⟩ : BufTy).Contents (Elt F)) v67 v72
  let v74 : (⟨S1x1024, .f32⟩ : BufTy).Contents (Elt F) := (Host.exp : (⟨S1x1024, .f32⟩ : BufTy).Contents (Elt F) → (⟨S1x1024, .f32⟩ : BufTy).Contents (Elt F)) v73
  let cst_9 : (⟨S_, .f32⟩ : BufTy).Contents (Elt F) := constant S_ .f32 0x00000000#32
  let v75 : (⟨S1, .f32⟩ : BufTy).Contents (Elt F) := ((fun x v => Host.reduceAdd x v reducesTo_S1x1024_S1_d1 h_S_) : (⟨S1x1024, .f32⟩ : BufTy).Contents (Elt F) → (⟨S_, .f32⟩ : BufTy).Contents (Elt F) → (⟨S1, .f32⟩ : BufTy).Contents (Elt F)) v74 cst_9
  let v76 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v75
  let v77 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v76
  let v78 : (⟨S1x1024, .f32⟩ : BufTy).Contents (Elt F) := (Host.divf : (⟨S1x1024, .f32⟩ : BufTy).Contents (Elt F) → (⟨S1x1024, .f32⟩ : BufTy).Contents (Elt F) → (⟨S1x1024, .f32⟩ : BufTy).Contents (Elt F)) v74 v77
  let v79 : (⟨S1x1x2048, .f32⟩ : BufTy).Contents (Elt F) := (broadcastInDim S1x1x2048 ![1, 2] bcast_S1x2048_S1x1x2048_1_2 : (⟨S1x2048, .f32⟩ : BufTy).Contents (Elt F) → (⟨S1x1x2048, .f32⟩ : BufTy).Contents (Elt F)) v63
  v79

/-- The attention weights: the softmax of the score row. -/
def attnWeights (g : (⟨S1x4096, .f32⟩ : BufTy).Contents (Elt F)) (e : (⟨S1x2048, .f32⟩ : BufTy).Contents (Elt F)) (a1 : (⟨S1x1x2048, .f32⟩ : BufTy).Contents (Elt F)) (a2 : (⟨S4096x2048, .f32⟩ : BufTy).Contents (Elt F))
    (a10 : (⟨S6144x4096, .f32⟩ : BufTy).Contents (Elt F)) (a11 : (⟨S6144x2048, .f32⟩ : BufTy).Contents (Elt F)) (a12 a13 : (⟨S6144, .f32⟩ : BufTy).Contents (Elt F)) (a14 : (⟨S1024x2048, .f32⟩ : BufTy).Contents (Elt F)) (a15 : (⟨S1024, .f32⟩ : BufTy).Contents (Elt F)) :
    (⟨S1x4096, .f32⟩ : BufTy).Contents (Elt F) :=
  let cst : (⟨S_, .f32⟩ : BufTy).Contents (Elt F) := constant S_ .f32 0xFF800000#32
  let v14 : (⟨S1, .f32⟩ : BufTy).Contents (Elt F) := ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)) g cst
  let cst_0 : (⟨S_, .f32⟩ : BufTy).Contents (Elt F) := constant S_ .f32 0xFF800000#32
  let v15 : (⟨S1, .f32⟩ : BufTy).Contents (Elt F) := (broadcastInDim S1 ![] bcast_S_S1 : (⟨S_, .f32⟩ : BufTy).Contents (Elt F) → (⟨S1, .f32⟩ : BufTy).Contents (Elt F)) cst_0
  let v16 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v15 v14
  let v17 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v16
  let v18 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v17
  let v19 : (⟨S1x4096, .f32⟩ : BufTy).Contents (Elt F) := (subf : (⟨S1x4096, .f32⟩ : BufTy).Contents (Elt F) → (⟨S1x4096, .f32⟩ : BufTy).Contents (Elt F) → (⟨S1x4096, .f32⟩ : BufTy).Contents (Elt F)) g v18
  let v20 : (⟨S1x4096, .f32⟩ : BufTy).Contents (Elt F) := (Host.exp : (⟨S1x4096, .f32⟩ : BufTy).Contents (Elt F) → (⟨S1x4096, .f32⟩ : BufTy).Contents (Elt F)) v19
  let cst_1 : (⟨S_, .f32⟩ : BufTy).Contents (Elt F) := constant S_ .f32 0x00000000#32
  let v21 : (⟨S1, .f32⟩ : BufTy).Contents (Elt F) := ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)) v20 cst_1
  let v22 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v21
  let v23 : (⟨S1x4096, .f32⟩ : BufTy).Contents (Elt F) := (broadcastInDim S1x4096 ![0, 1] bcast_S1x1_S1x4096_0_1 : (⟨S1x1, .f32⟩ : BufTy).Contents (Elt F) → (⟨S1x4096, .f32⟩ : BufTy).Contents (Elt F)) v22
  let v24 : (⟨S1x4096, .f32⟩ : BufTy).Contents (Elt F) := (Host.divf : (⟨S1x4096, .f32⟩ : BufTy).Contents (Elt F) → (⟨S1x4096, .f32⟩ : BufTy).Contents (Elt F) → (⟨S1x4096, .f32⟩ : BufTy).Contents (Elt F)) v20 v23
  let v25 : (⟨S1x2048, .f32⟩ : BufTy).Contents (Elt F) := ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)) v24 a2
  let v26 : (⟨S1x4096, .f32⟩ : BufTy).Contents (Elt F) := ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)) e v25
  let v27 : (⟨S1x2048, .f32⟩ : BufTy).Contents (Elt F) := shapeCast _ a1 shapeCasts_S1x1x2048_S1x2048
  let v28 : (⟨S4096x6144, .f32⟩ : BufTy).Contents (Elt F) := ((transpose S4096x6144 [1, 0] · transposes_S6144x4096_S4096x6144_1_0) : (⟨S6144x4096, .f32⟩ : BufTy).Contents (Elt F) → (⟨S4096x6144, .f32⟩ : BufTy).Contents (Elt F)) a10
  let v29 : (⟨S1x6144, .f32⟩ : BufTy).Contents (Elt F) := ((fun l r => Host.dotGeneral dot_S1x4096_S4096x6144_S1x6144_1_0_0_1_n_n none l r) : (⟨S1x4096, .f32⟩ : BufTy).Contents (Elt F) → (⟨S4096x6144, .f32⟩ : BufTy).Contents (Elt F) → (⟨S1x6144, .f32⟩ : BufTy).Contents (Elt F)) v26 v28
  let v30 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a12
  let v31 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v29 v30
  let v32 : (⟨S2048x6144, .f32⟩ : BufTy).Contents (Elt F) := ((transpose S2048x6144 [1, 0] · transposes_S6144x2048_S2048x6144_1_0) : (⟨S6144x2048, .f32⟩ : BufTy).Contents (Elt F) → (⟨S2048x6144, .f32⟩ : BufTy).Contents (Elt F)) a11
  let v33 : (⟨S1x6144, .f32⟩ : BufTy).Contents (Elt F) := ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)) v27 v32
  let v34 : (⟨S1x6144, .f32⟩ : BufTy).Contents (Elt F) := (broadcastInDim S1x6144 ![1] bcast_S6144_S1x6144_1 : (⟨S6144, .f32⟩ : BufTy).Contents (Elt F) → (⟨S1x6144, .f32⟩ : BufTy).Contents (Elt F)) a13
  let v35 : (⟨S1x6144, .f32⟩ : BufTy).Contents (Elt F) := (addf : (⟨S1x6144, .f32⟩ : BufTy).Contents (Elt F) → (⟨S1x6144, .f32⟩ : BufTy).Contents (Elt F) → (⟨S1x6144, .f32⟩ : BufTy).Contents (Elt F)) v33 v34
  let v36 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v31
  let v37 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v31
  let v38 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v31
  let v39 : (⟨S1x2048, .f32⟩ : BufTy).Contents (Elt F) := ((extractStridedSlice S1x2048 ![0, 0] · slices_S1x6144_S1x2048_0_0) : (⟨S1x6144, .f32⟩ : BufTy).Contents (Elt F) → (⟨S1x2048, .f32⟩ : BufTy).Contents (Elt F)) v35
  let v40 : (⟨S1x2048, .f32⟩ : BufTy).Contents (Elt F) := ((extractStridedSlice S1x2048 ![0, 2048] · slices_S1x6144_S1x2048_0_2048) : (⟨S1x6144, .f32⟩ : BufTy).Contents (Elt F) → (⟨S1x2048, .f32⟩ : BufTy).Contents (Elt F)) v35
  let v41 : (⟨S1x2048, .f32⟩ : BufTy).Contents (Elt F) := ((extractStridedSlice S1x2048 ![0, 4096] · slices_S1x6144_S1x2048_0_4096) : (⟨S1x6144, .f32⟩ : BufTy).Contents (Elt F) → (⟨S1x2048, .f32⟩ : BufTy).Contents (Elt F)) v35
  let v42 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v36 v39
  let v43 : (⟨S1x2048, .f32⟩ : BufTy).Contents (Elt F) := (Host.negf : (⟨S1x2048, .f32⟩ : BufTy).Contents (Elt F) → (⟨S1x2048, .f32⟩ : BufTy).Contents (Elt F)) v42
  let v44 : (⟨S1x2048, .f32⟩ : BufTy).Contents (Elt F) := (Host.exp : (⟨S1x2048, .f32⟩ : BufTy).Contents (Elt F) → (⟨S1x2048, .f32⟩ : BufTy).Contents (Elt F)) v43
  let cst_2 : (⟨S_, .f32⟩ : BufTy).Contents (Elt F) := constant S_ .f32 0x3F800000#32
  let v45 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_2
  let v46 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v45 v44
  let cst_3 : (⟨S_, .f32⟩ : BufTy).Contents (Elt F) := constant S_ .f32 0x3F800000#32
  let v47 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_3
  let v48 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v47 v46
  let v49 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v37 v40
  let v50 : (⟨S1x2048, .f32⟩ : BufTy).Contents (Elt F) := (Host.negf : (⟨S1x2048, .f32⟩ : BufTy).Contents (Elt F) → (⟨S1x2048, .f32⟩ : BufTy).Contents (Elt F)) v49
  let v51 : (⟨S1x2048, .f32⟩ : BufTy).Contents (Elt F) := (Host.exp : (⟨S1x2048, .f32⟩ : BufTy).Contents (Elt F) → (⟨S1x2048, .f32⟩ : BufTy).Contents (Elt F)) v50
  let cst_4 : (⟨S_, .f32⟩ : BufTy).Contents (Elt F) := constant S_ .f32 0x3F800000#32
  let v52 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_4
  let v53 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v52 v51
  let cst_5 : (⟨S_, .f32⟩ : BufTy).Contents (Elt F) := constant S_ .f32 0x3F800000#32
  let v54 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_5
  let v55 : (⟨S1x2048, .f32⟩ : BufTy).Contents (Elt F) := (Host.divf : (⟨S1x2048, .f32⟩ : BufTy).Contents (Elt F) → (⟨S1x2048, .f32⟩ : BufTy).Contents (Elt F) → (⟨S1x2048, .f32⟩ : BufTy).Contents (Elt F)) v54 v53
  let v56 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v48 v41
  let v57 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v38 v56
  let v58 : (⟨S1x2048, .f32⟩ : BufTy).Contents (Elt F) := (Host.tanh : (⟨S1x2048, .f32⟩ : BufTy).Contents (Elt F) → (⟨S1x2048, .f32⟩ : BufTy).Contents (Elt F)) v57
  let cst_6 : (⟨S_, .f32⟩ : BufTy).Contents (Elt F) := constant S_ .f32 0x3F800000#32
  let v59 : (⟨S1x2048, .f32⟩ : BufTy).Contents (Elt F) := (broadcastInDim S1x2048 ![] bcast_S_S1x2048 : (⟨S_, .f32⟩ : BufTy).Contents (Elt F) → (⟨S1x2048, .f32⟩ : BufTy).Contents (Elt F)) cst_6
  let v60 : (⟨S1x2048, .f32⟩ : BufTy).Contents (Elt F) := (subf : (⟨S1x2048, .f32⟩ : BufTy).Contents (Elt F) → (⟨S1x2048, .f32⟩ : BufTy).Contents (Elt F) → (⟨S1x2048, .f32⟩ : BufTy).Contents (Elt F)) v59 v55
  let v61 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v60 v58
  let v62 : (⟨S1x2048, .f32⟩ : BufTy).Contents (Elt F) := (mulf : (⟨S1x2048, .f32⟩ : BufTy).Contents (Elt F) → (⟨S1x2048, .f32⟩ : BufTy).Contents (Elt F) → (⟨S1x2048, .f32⟩ : BufTy).Contents (Elt F)) v55 v27
  let v63 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v61 v62
  let v64 : (⟨S2048x1024, .f32⟩ : BufTy).Contents (Elt F) := ((transpose S2048x1024 [1, 0] · transposes_S1024x2048_S2048x1024_1_0) : (⟨S1024x2048, .f32⟩ : BufTy).Contents (Elt F) → (⟨S2048x1024, .f32⟩ : BufTy).Contents (Elt F)) a14
  let v65 : (⟨S1x1024, .f32⟩ : BufTy).Contents (Elt F) := ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)) v63 v64
  let v66 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) a15
  let v67 : (⟨S1x1024, .f32⟩ : BufTy).Contents (Elt F) := (addf : (⟨S1x1024, .f32⟩ : BufTy).Contents (Elt F) → (⟨S1x1024, .f32⟩ : BufTy).Contents (Elt F) → (⟨S1x1024, .f32⟩ : BufTy).Contents (Elt F)) v65 v66
  let cst_7 : (⟨S_, .f32⟩ : BufTy).Contents (Elt F) := constant S_ .f32 0xFF800000#32
  let v68 : (⟨S1, .f32⟩ : BufTy).Contents (Elt F) := ((fun x v => Host.reduce FloatOps.maximumf x v reducesTo_S1x1024_S1_d1 h_S_) : (⟨S1x1024, .f32⟩ : BufTy).Contents (Elt F) → (⟨S_, .f32⟩ : BufTy).Contents (Elt F) → (⟨S1, .f32⟩ : BufTy).Contents (Elt F)) v67 cst_7
  let cst_8 : (⟨S_, .f32⟩ : BufTy).Contents (Elt F) := constant S_ .f32 0xFF800000#32
  let v69 : (⟨S1, .f32⟩ : BufTy).Contents (Elt F) := (broadcastInDim S1 ![] bcast_S_S1 : (⟨S_, .f32⟩ : BufTy).Contents (Elt F) → (⟨S1, .f32⟩ : BufTy).Contents (Elt F)) cst_8
  let v70 : (⟨S1, .f32⟩ : BufTy).Contents (Elt F) := (maximumf : (⟨S1, .f32⟩ : BufTy).Contents (Elt F) → (⟨S1, .f32⟩ : BufTy).Contents (Elt F) → (⟨S1, .f32⟩ : BufTy).Contents (Elt F)) v69 v68
  let v71 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v70
  let v72 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v71
  let v73 : (⟨S1x1024, .f32⟩ : BufTy).Contents (Elt F) := (subf : (⟨S1x1024, .f32⟩ : BufTy).Contents (Elt F) → (⟨S1x1024, .f32⟩ : BufTy).Contents (Elt F) → (⟨S1x1024, .f32⟩ : BufTy).Contents (Elt F)) v67 v72
  let v74 : (⟨S1x1024, .f32⟩ : BufTy).Contents (Elt F) := (Host.exp : (⟨S1x1024, .f32⟩ : BufTy).Contents (Elt F) → (⟨S1x1024, .f32⟩ : BufTy).Contents (Elt F)) v73
  let cst_9 : (⟨S_, .f32⟩ : BufTy).Contents (Elt F) := constant S_ .f32 0x00000000#32
  let v75 : (⟨S1, .f32⟩ : BufTy).Contents (Elt F) := ((fun x v => Host.reduceAdd x v reducesTo_S1x1024_S1_d1 h_S_) : (⟨S1x1024, .f32⟩ : BufTy).Contents (Elt F) → (⟨S_, .f32⟩ : BufTy).Contents (Elt F) → (⟨S1, .f32⟩ : BufTy).Contents (Elt F)) v74 cst_9
  let v76 : (⟨S1x1, .f32⟩ : BufTy).Contents (Elt F) := (broadcastInDim S1x1 ![0] bcast_S1_S1x1_0 : (⟨S1, .f32⟩ : BufTy).Contents (Elt F) → (⟨S1x1, .f32⟩ : BufTy).Contents (Elt F)) v75
  let v77 : (⟨S1x1024, .f32⟩ : BufTy).Contents (Elt F) := (broadcastInDim S1x1024 ![0, 1] bcast_S1x1_S1x1024_0_1 : (⟨S1x1, .f32⟩ : BufTy).Contents (Elt F) → (⟨S1x1024, .f32⟩ : BufTy).Contents (Elt F)) v76
  let v78 : (⟨S1x1024, .f32⟩ : BufTy).Contents (Elt F) := (Host.divf : (⟨S1x1024, .f32⟩ : BufTy).Contents (Elt F) → (⟨S1x1024, .f32⟩ : BufTy).Contents (Elt F) → (⟨S1x1024, .f32⟩ : BufTy).Contents (Elt F)) v74 v77
  let v79 : (⟨S1x1x2048, .f32⟩ : BufTy).Contents (Elt F) := (broadcastInDim S1x1x2048 ![1, 2] bcast_S1x2048_S1x1x2048_1_2 : (⟨S1x2048, .f32⟩ : BufTy).Contents (Elt F) → (⟨S1x1x2048, .f32⟩ : BufTy).Contents (Elt F)) v63
  v24

/-- The embedding of the input: two feed-forward layers, each an affine map followed by the positive part. -/
def embed (a0 : (⟨S1x1024, .f32⟩ : BufTy).Contents (Elt F)) (a3 : (⟨S512x1024, .f32⟩ : BufTy).Contents (Elt F)) (a4 : (⟨S512, .f32⟩ : BufTy).Contents (Elt F)) (a5 : (⟨S2048x512, .f32⟩ : BufTy).Contents (Elt F)) (a6 : (⟨S2048, .f32⟩ : BufTy).Contents (Elt F)) :
    (⟨S1x2048, .f32⟩ : BufTy).Contents (Elt F) :=
  let v0 : (⟨S1024x512, .f32⟩ : BufTy).Contents (Elt F) := ((transpose S1024x512 [1, 0] · transposes_S512x1024_S1024x512_1_0) : (⟨S512x1024, .f32⟩ : BufTy).Contents (Elt F) → (⟨S1024x512, .f32⟩ : BufTy).Contents (Elt F)) a3
  let v1 : (⟨S1x512, .f32⟩ : BufTy).Contents (Elt F) := ((fun l r => Host.dotGeneral dot_S1x1024_S1024x512_S1x512_1_0_0_1_n_n none l r) : (⟨S1x1024, .f32⟩ : BufTy).Contents (Elt F) → (⟨S1024x512, .f32⟩ : BufTy).Contents (Elt F) → (⟨S1x512, .f32⟩ : BufTy).Contents (Elt F)) a0 v0
  let v2 : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) a4
  let v3 : (⟨S1x512, .f32⟩ : BufTy).Contents (Elt F) := (addf : (⟨S1x512, .f32⟩ : BufTy).Contents (Elt F) → (⟨S1x512, .f32⟩ : BufTy).Contents (Elt F) → (⟨S1x512, .f32⟩ : BufTy).Contents (Elt F)) v1 v2
  let call0_cst : (⟨S_, .f32⟩ : BufTy).Contents (Elt F) := constant S_ .f32 0x00000000#32
  let call0_v0 : (⟨S1x512, .f32⟩ : BufTy).Contents (Elt F) := (broadcastInDim S1x512 ![] bcast_S_S1x512) call0_cst
  let v4 : (⟨S1x512, .f32⟩ : BufTy).Contents (Elt F) := (maximumf) v3 call0_v0
  let v5 : (⟨S512x2048, .f32⟩ : BufTy).Contents (Elt F) := ((transpose S512x2048 [1, 0] · transposes_S2048x512_S512x2048_1_0) : (⟨S2048x512, .f32⟩ : BufTy).Contents (Elt F) → (⟨S512x2048, .f32⟩ : BufTy).Contents (Elt F)) a5
  let v6 : (⟨S1x2048, .f32⟩ : BufTy).Contents (Elt F) := ((fun l r => Host.dotGeneral dot_S1x512_S512x2048_S1x2048_1_0_0_1_n_n none l r) : (⟨S1x512, .f32⟩ : BufTy).Contents (Elt F) → (⟨S512x2048, .f32⟩ : BufTy).Contents (Elt F) → (⟨S1x2048, .f32⟩ : BufTy).Contents (Elt F)) v4 v5
  let v7 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a6
  let v8 : (⟨S1x2048, .f32⟩ : BufTy).Contents (Elt F) := (addf : (⟨S1x2048, .f32⟩ : BufTy).Contents (Elt F) → (⟨S1x2048, .f32⟩ : BufTy).Contents (Elt F) → (⟨S1x2048, .f32⟩ : BufTy).Contents (Elt F)) v6 v7
  let call1_cst : (⟨S_, .f32⟩ : BufTy).Contents (Elt F) := constant S_ .f32 0x00000000#32
  let call1_v0 : (⟨S1x2048, .f32⟩ : BufTy).Contents (Elt F) := (broadcastInDim S1x2048 ![] bcast_S_S1x2048) call1_cst
  let v9 : (⟨S1x2048, .f32⟩ : BufTy).Contents (Elt F) := (maximumf) v8 call1_v0
  v9

/-- The query projection: the embedding times the transpose of the first attention matrix. -/
def query (e : (⟨S1x2048, .f32⟩ : BufTy).Contents (Elt F)) (a7 : (⟨S2048x2048, .f32⟩ : BufTy).Contents (Elt F)) :
    (⟨S1x2048, .f32⟩ : BufTy).Contents (Elt F) :=
  let v10 : (⟨S2048x2048, .f32⟩ : BufTy).Contents (Elt F) := ((transpose S2048x2048 [1, 0] · transposes_S2048x2048_S2048x2048_1_0) : (⟨S2048x2048, .f32⟩ : BufTy).Contents (Elt F) → (⟨S2048x2048, .f32⟩ : BufTy).Contents (Elt F)) a7
  let v11 : (⟨S1x2048, .f32⟩ : BufTy).Contents (Elt F) := ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)) e v10
  v11

end Cert.Tail

end
-- ==== Proof.TailRest.lean ====
/-
  The 77 lines that follow the cast of the score column compute the three tail functions.

  Whatever the buffers hold, after these lines the three result buffers hold the output probabilities, the new hidden
  state and the attention weights of the score row, the embedding and the argument arrays as those buffers were before.
-/
import proofs.«130881_j12369505813152_2_alg».proof.Proof.Tail
import proofs.«130881_j12369505813152_2_alg».proof.Proof.Gen.KernelIdeal.Launch
import Idealize.ShloMosaic.Lib.StableHlo.Run

set_option maxRecDepth 16384
set_option maxHeartbeats 40000000

noncomputable section

namespace Cert.KernelIdeal.TailRest

open Cert.KernelIdeal Cert.KernelIdeal.Gen
open Idealize.ShloMosaic Idealize.ShloMosaic.TcCoe Idealize.ShloMosaic.StableHlo Idealize.SL.Sem

variable {F : FTy → Type} [FloatOps F]

/-- The 77 lines after the cast of the score column, in order. -/
abbrev restOps : List (HloOp τ sig (Elt F)) :=
  [ StableHlo.nullary main_cst (constant S_ .f32 0xFF800000#32),
    StableHlo.binary main_v13 main_cst main_v14 ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)),
    StableHlo.nullary main_cst_0 (constant S_ .f32 0xFF800000#32),
    StableHlo.unary main_cst_0 main_v15 (broadcastInDim S1 ![] bcast_S_S1 : (⟨S_, .f32⟩ : BufTy).Contents (Elt F) → (⟨S1, .f32⟩ : BufTy).Contents (Elt F)),
    StableHlo.binary main_v15 main_v14 main_v16 (maximumf : (⟨S1, .f32⟩ : BufTy).Contents (Elt F) → (⟨S1, .f32⟩ : BufTy).Contents (Elt F) → (⟨S1, .f32⟩ : BufTy).Contents (Elt F)),
    StableHlo.unary main_v16 main_v17 (broadcastInDim S1x1 ![0] bcast_S1_S1x1_0 : (⟨S1, .f32⟩ : BufTy).Contents (Elt F) → (⟨S1x1, .f32⟩ : BufTy).Contents (Elt F)),
    StableHlo.unary main_v17 main_v18 (broadcastInDim S1x4096 ![0, 1] bcast_S1x1_S1x4096_0_1 : (⟨S1x1, .f32⟩ : BufTy).Contents (Elt F) → (⟨S1x4096, .f32⟩ : BufTy).Contents (Elt F)),
    StableHlo.binary main_v13 main_v18 main_v19 (subf : (⟨S1x4096, .f32⟩ : BufTy).Contents (Elt F) → (⟨S1x4096, .f32⟩ : BufTy).Contents (Elt F) → (⟨S1x4096, .f32⟩ : BufTy).Contents (Elt F)),
    StableHlo.unary main_v19 main_v20 (Host.exp : (⟨S1x4096, .f32⟩ : BufTy).Contents (Elt F) → (⟨S1x4096, .f32⟩ : BufTy).Contents (Elt F)),
    StableHlo.nullary main_cst_1 (constant S_ .f32 0x00000000#32),
    StableHlo.binary main_v20 main_cst_1 main_v21 ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)),
    StableHlo.unary main_v21 main_v22 (broadcastInDim S1x1 ![0] bcast_S1_S1x1_0 : (⟨S1, .f32⟩ : BufTy).Contents (Elt F) → (⟨S1x1, .f32⟩ : BufTy).Contents (Elt F)),
    StableHlo.unary main_v22 main_v23 (broadcastInDim S1x4096 ![0, 1] bcast_S1x1_S1x4096_0_1 : (⟨S1x1, .f32⟩ : BufTy).Contents (Elt F) → (⟨S1x4096, .f32⟩ : BufTy).Contents (Elt F)),
    StableHlo.binary main_v20 main_v23 main_v24 (Host.divf : (⟨S1x4096, .f32⟩ : BufTy).Contents (Elt F) → (⟨S1x4096, .f32⟩ : BufTy).Contents (Elt F) → (⟨S1x4096, .f32⟩ : BufTy).Contents (Elt F)),
    StableHlo.binary main_v24 main_arg2 main_v25 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    StableHlo.binary main_v9 main_v25 main_v26 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    StableHlo.reshape main_arg1 main_v27 rfl shapeCasts_S1x1x2048_S1x2048,
    StableHlo.unary main_arg10 main_v28 ((transpose S4096x6144 [1, 0] · transposes_S6144x4096_S4096x6144_1_0) : (⟨S6144x4096, .f32⟩ : BufTy).Contents (Elt F) → (⟨S4096x6144, .f32⟩ : BufTy).Contents (Elt F)),
    StableHlo.binary main_v26 main_v28 main_v29 ((fun l r => Host.dotGeneral dot_S1x4096_S4096x6144_S1x6144_1_0_0_1_n_n none l r) : (⟨S1x4096, .f32⟩ : BufTy).Contents (Elt F) → (⟨S4096x6144, .f32⟩ : BufTy).Contents (Elt F) → (⟨S1x6144, .f32⟩ : BufTy).Contents (Elt F)),
    StableHlo.unary main_arg12 main_v30 (broadcastInDim S1x6144 ![1] bcast_S6144_S1x6144_1 : (⟨S6144, .f32⟩ : BufTy).Contents (Elt F) → (⟨S1x6144, .f32⟩ : BufTy).Contents (Elt F)),
    StableHlo.binary main_v29 main_v30 main_v31 (addf : (⟨S1x6144, .f32⟩ : BufTy).Contents (Elt F) → (⟨S1x6144, .f32⟩ : BufTy).Contents (Elt F) → (⟨S1x6144, .f32⟩ : BufTy).Contents (Elt F)),
    StableHlo.unary main_arg11 main_v32 ((transpose S2048x6144 [1, 0] · transposes_S6144x2048_S2048x6144_1_0) : (⟨S6144x2048, .f32⟩ : BufTy).Contents (Elt F) → (⟨S2048x6144, .f32⟩ : BufTy).Contents (Elt F)),
    StableHlo.binary main_v27 main_v32 main_v33 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    StableHlo.unary main_arg13 main_v34 (broadcastInDim S1x6144 ![1] bcast_S6144_S1x6144_1 : (⟨S6144, .f32⟩ : BufTy).Contents (Elt F) → (⟨S1x6144, .f32⟩ : BufTy).Contents (Elt F)),
    StableHlo.binary main_v33 main_v34 main_v35 (addf : (⟨S1x6144, .f32⟩ : BufTy).Contents (Elt F) → (⟨S1x6144, .f32⟩ : BufTy).Contents (Elt F) → (⟨S1x6144, .f32⟩ : BufTy).Contents (Elt F)),
    StableHlo.unary main_v31 main_v36 ((extractStridedSlice S1x2048 ![0, 0] · slices_S1x6144_S1x2048_0_0) : (⟨S1x6144, .f32⟩ : BufTy).Contents (Elt F) → (⟨S1x2048, .f32⟩ : BufTy).Contents (Elt F)),
    StableHlo.unary main_v31 main_v37 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v31 main_v38 ((extractStridedSlice S1x2048 ![0, 4096] · slices_S1x6144_S1x2048_0_4096) : (⟨S1x6144, .f32⟩ : BufTy).Contents (Elt F) → (⟨S1x2048, .f32⟩ : BufTy).Contents (Elt F)),
    StableHlo.unary main_v35 main_v39 ((extractStridedSlice S1x2048 ![0, 0] · slices_S1x6144_S1x2048_0_0) : (⟨S1x6144, .f32⟩ : BufTy).Contents (Elt F) → (⟨S1x2048, .f32⟩ : BufTy).Contents (Elt F)),
    StableHlo.unary main_v35 main_v40 ((extractStridedSlice S1x2048 ![0, 2048] · slices_S1x6144_S1x2048_0_2048) : (⟨S1x6144, .f32⟩ : BufTy).Contents (Elt F) → (⟨S1x2048, .f32⟩ : BufTy).Contents (Elt F)),
    StableHlo.unary main_v35 main_v41 ((extractStridedSlice S1x2048 ![0, 4096] · slices_S1x6144_S1x2048_0_4096) : (⟨S1x6144, .f32⟩ : BufTy).Contents (Elt F) → (⟨S1x2048, .f32⟩ : BufTy).Contents (Elt F)),
    StableHlo.binary main_v36 main_v39 main_v42 (addf : (⟨S1x2048, .f32⟩ : BufTy).Contents (Elt F) → (⟨S1x2048, .f32⟩ : BufTy).Contents (Elt F) → (⟨S1x2048, .f32⟩ : BufTy).Contents (Elt F)),
    StableHlo.unary main_v42 main_v43 (Host.negf : (⟨S1x2048, .f32⟩ : BufTy).Contents (Elt F) → (⟨S1x2048, .f32⟩ : BufTy).Contents (Elt F)),
    StableHlo.unary main_v43 main_v44 (Host.exp : (⟨S1x2048, .f32⟩ : BufTy).Contents (Elt F) → (⟨S1x2048, .f32⟩ : BufTy).Contents (Elt F)),
    StableHlo.nullary main_cst_2 (constant S_ .f32 0x3F800000#32),
    StableHlo.unary main_cst_2 main_v45 (broadcastInDim S1x2048 ![] bcast_S_S1x2048 : (⟨S_, .f32⟩ : BufTy).Contents (Elt F) → (⟨S1x2048, .f32⟩ : BufTy).Contents (Elt F)),
    StableHlo.binary main_v45 main_v44 main_v46 (addf : (⟨S1x2048, .f32⟩ : BufTy).Contents (Elt F) → (⟨S1x2048, .f32⟩ : BufTy).Contents (Elt F) → (⟨S1x2048, .f32⟩ : BufTy).Contents (Elt F)),
    StableHlo.nullary main_cst_3 (constant S_ .f32 0x3F800000#32),
    StableHlo.unary main_cst_3 main_v47 (broadcastInDim S1x2048 ![] bcast_S_S1x2048 : (⟨S_, .f32⟩ : BufTy).Contents (Elt F) → (⟨S1x2048, .f32⟩ : BufTy).Contents (Elt F)),
    StableHlo.binary main_v47 main_v46 main_v48 (Host.divf : (⟨S1x2048, .f32⟩ : BufTy).Contents (Elt F) → (⟨S1x2048, .f32⟩ : BufTy).Contents (Elt F) → (⟨S1x2048, .f32⟩ : BufTy).Contents (Elt F)),
    StableHlo.binary main_v37 main_v40 main_v49 (addf : (⟨S1x2048, .f32⟩ : BufTy).Contents (Elt F) → (⟨S1x2048, .f32⟩ : BufTy).Contents (Elt F) → (⟨S1x2048, .f32⟩ : BufTy).Contents (Elt F)),
    StableHlo.unary main_v49 main_v50 (Host.negf : (⟨S1x2048, .f32⟩ : BufTy).Contents (Elt F) → (⟨S1x2048, .f32⟩ : BufTy).Contents (Elt F)),
    StableHlo.unary main_v50 main_v51 (Host.exp : (⟨S1x2048, .f32⟩ : BufTy).Contents (Elt F) → (⟨S1x2048, .f32⟩ : BufTy).Contents (Elt F)),
    StableHlo.nullary main_cst_4 (constant S_ .f32 0x3F800000#32),
    StableHlo.unary main_cst_4 main_v52 (broadcastInDim S1x2048 ![] bcast_S_S1x2048 : (⟨S_, .f32⟩ : BufTy).Contents (Elt F) → (⟨S1x2048, .f32⟩ : BufTy).Contents (Elt F)),
    StableHlo.binary main_v52 main_v51 main_v53 (addf : (⟨S1x2048, .f32⟩ : BufTy).Contents (Elt F) → (⟨S1x2048, .f32⟩ : BufTy).Contents (Elt F) → (⟨S1x2048, .f32⟩ : BufTy).Contents (Elt F)),
    StableHlo.nullary main_cst_5 (constant S_ .f32 0x3F800000#32),
    StableHlo.unary main_cst_5 main_v54 (broadcastInDim S1x2048 ![] bcast_S_S1x2048 : (⟨S_, .f32⟩ : BufTy).Contents (Elt F) → (⟨S1x2048, .f32⟩ : BufTy).Contents (Elt F)),
    StableHlo.binary main_v54 main_v53 main_v55 (Host.divf : (⟨S1x2048, .f32⟩ : BufTy).Contents (Elt F) → (⟨S1x2048, .f32⟩ : BufTy).Contents (Elt F) → (⟨S1x2048, .f32⟩ : BufTy).Contents (Elt F)),
    StableHlo.binary main_v48 main_v41 main_v56 (mulf : (⟨S1x2048, .f32⟩ : BufTy).Contents (Elt F) → (⟨S1x2048, .f32⟩ : BufTy).Contents (Elt F) → (⟨S1x2048, .f32⟩ : BufTy).Contents (Elt F)),
    StableHlo.binary main_v38 main_v56 main_v57 (addf : (⟨S1x2048, .f32⟩ : BufTy).Contents (Elt F) → (⟨S1x2048, .f32⟩ : BufTy).Contents (Elt F) → (⟨S1x2048, .f32⟩ : BufTy).Contents (Elt F)),
    StableHlo.unary main_v57 main_v58 (Host.tanh : (⟨S1x2048, .f32⟩ : BufTy).Contents (Elt F) → (⟨S1x2048, .f32⟩ : BufTy).Contents (Elt F)),
    StableHlo.nullary main_cst_6 (constant S_ .f32 0x3F800000#32),
    StableHlo.unary main_cst_6 main_v59 (broadcastInDim S1x2048 ![] bcast_S_S1x2048 : (⟨S_, .f32⟩ : BufTy).Contents (Elt F) → (⟨S1x2048, .f32⟩ : BufTy).Contents (Elt F)),
    StableHlo.binary main_v59 main_v55 main_v60 (subf : (⟨S1x2048, .f32⟩ : BufTy).Contents (Elt F) → (⟨S1x2048, .f32⟩ : BufTy).Contents (Elt F) → (⟨S1x2048, .f32⟩ : BufTy).Contents (Elt F)),
    StableHlo.binary main_v60 main_v58 main_v61 (mulf : (⟨S1x2048, .f32⟩ : BufTy).Contents (Elt F) → (⟨S1x2048, .f32⟩ : BufTy).Contents (Elt F) → (⟨S1x2048, .f32⟩ : BufTy).Contents (Elt F)),
    StableHlo.binary main_v55 main_v27 main_v62 (mulf : (⟨S1x2048, .f32⟩ : BufTy).Contents (Elt F) → (⟨S1x2048, .f32⟩ : BufTy).Contents (Elt F) → (⟨S1x2048, .f32⟩ : BufTy).Contents (Elt F)),
    StableHlo.binary main_v61 main_v62 main_v63 (addf : (⟨S1x2048, .f32⟩ : BufTy).Contents (Elt F) → (⟨S1x2048, .f32⟩ : BufTy).Contents (Elt F) → (⟨S1x2048, .f32⟩ : BufTy).Contents (Elt F)),
    StableHlo.unary main_arg14 main_v64 ((transpose S2048x1024 [1, 0] · transposes_S1024x2048_S2048x1024_1_0) : (⟨S1024x2048, .f32⟩ : BufTy).Contents (Elt F) → (⟨S2048x1024, .f32⟩ : BufTy).Contents (Elt F)),
    StableHlo.binary main_v63 main_v64 main_v65 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    StableHlo.unary main_arg15 main_v66 (broadcastInDim S1x1024 ![1] bcast_S1024_S1x1024_1 : (⟨S1024, .f32⟩ : BufTy).Contents (Elt F) → (⟨S1x1024, .f32⟩ : BufTy).Contents (Elt F)),
    StableHlo.binary main_v65 main_v66 main_v67 (addf : (⟨S1x1024, .f32⟩ : BufTy).Contents (Elt F) → (⟨S1x1024, .f32⟩ : BufTy).Contents (Elt F) → (⟨S1x1024, .f32⟩ : BufTy).Contents (Elt F)),
    StableHlo.nullary main_cst_7 (constant S_ .f32 0xFF800000#32),
    StableHlo.binary main_v67 main_cst_7 main_v68 ((fun x v => Host.reduce FloatOps.maximumf x v reducesTo_S1x1024_S1_d1 h_S_) : (⟨S1x1024, .f32⟩ : BufTy).Contents (Elt F) → (⟨S_, .f32⟩ : BufTy).Contents (Elt F) → (⟨S1, .f32⟩ : BufTy).Contents (Elt F)),
    StableHlo.nullary main_cst_8 (constant S_ .f32 0xFF800000#32),
    StableHlo.unary main_cst_8 main_v69 (broadcastInDim S1 ![] bcast_S_S1 : (⟨S_, .f32⟩ : BufTy).Contents (Elt F) → (⟨S1, .f32⟩ : BufTy).Contents (Elt F)),
    StableHlo.binary main_v69 main_v68 main_v70 (maximumf : (⟨S1, .f32⟩ : BufTy).Contents (Elt F) → (⟨S1, .f32⟩ : BufTy).Contents (Elt F) → (⟨S1, .f32⟩ : BufTy).Contents (Elt F)),
    StableHlo.unary main_v70 main_v71 (broadcastInDim S1x1 ![0] bcast_S1_S1x1_0 : (⟨S1, .f32⟩ : BufTy).Contents (Elt F) → (⟨S1x1, .f32⟩ : BufTy).Contents (Elt F)),
    StableHlo.unary main_v71 main_v72 (broadcastInDim S1x1024 ![0, 1] bcast_S1x1_S1x1024_0_1 : (⟨S1x1, .f32⟩ : BufTy).Contents (Elt F) → (⟨S1x1024, .f32⟩ : BufTy).Contents (Elt F)),
    StableHlo.binary main_v67 main_v72 main_v73 (subf : (⟨S1x1024, .f32⟩ : BufTy).Contents (Elt F) → (⟨S1x1024, .f32⟩ : BufTy).Contents (Elt F) → (⟨S1x1024, .f32⟩ : BufTy).Contents (Elt F)),
    StableHlo.unary main_v73 main_v74 (Host.exp : (⟨S1x1024, .f32⟩ : BufTy).Contents (Elt F) → (⟨S1x1024, .f32⟩ : BufTy).Contents (Elt F)),
    StableHlo.nullary main_cst_9 (constant S_ .f32 0x00000000#32),
    StableHlo.binary main_v74 main_cst_9 main_v75 ((fun x v => Host.reduceAdd x v reducesTo_S1x1024_S1_d1 h_S_) : (⟨S1x1024, .f32⟩ : BufTy).Contents (Elt F) → (⟨S_, .f32⟩ : BufTy).Contents (Elt F) → (⟨S1, .f32⟩ : BufTy).Contents (Elt F)),
    StableHlo.unary main_v75 main_v76 (broadcastInDim S1x1 ![0] bcast_S1_S1x1_0 : (⟨S1, .f32⟩ : BufTy).Contents (Elt F) → (⟨S1x1, .f32⟩ : BufTy).Contents (Elt F)),
    StableHlo.unary main_v76 main_v77 (broadcastInDim S1x1024 ![0, 1] bcast_S1x1_S1x1024_0_1 : (⟨S1x1, .f32⟩ : BufTy).Contents (Elt F) → (⟨S1x1024, .f32⟩ : BufTy).Contents (Elt F)),
    StableHlo.binary main_v74 main_v77 main_v78 (Host.divf : (⟨S1x1024, .f32⟩ : BufTy).Contents (Elt F) → (⟨S1x1024, .f32⟩ : BufTy).Contents (Elt F) → (⟨S1x1024, .f32⟩ : BufTy).Contents (Elt F)),
    StableHlo.unary main_v63 main_v79 (broadcastInDim S1x1x2048 ![1, 2] bcast_S1x2048_S1x1x2048_1_2 : (⟨S1x2048, .f32⟩ : BufTy).Contents (Elt F) → (⟨S1x1x2048, .f32⟩ : BufTy).Contents (Elt F)) ]

/-- The lines after the region are the cast followed by the rest. -/
theorem hostOps1_eq : (hostOps1 : List (HloOp τ sig (Elt F)))
    = StableHlo.reshape main_v12 main_v13 rfl shapeCasts_S4096x1_S1x4096 :: restOps := rfl

set_option maxRecDepth 200000 in
theorem rest_probs (W : Valuation τ sig (Elt F)) :
    StableHlo.after (restOps (F := F)) W (Proc.devRef .tc main_v78) = Cert.Tail.outProbs (W (Proc.devRef .tc main_v13)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

set_option maxRecDepth 200000 in
theorem rest_hidden (W : Valuation τ sig (Elt F)) :
    StableHlo.after (restOps (F := F)) W (Proc.devRef .tc main_v79) = Cert.Tail.newHidden (W (Proc.devRef .tc main_v13)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

theorem rest_weights (W : Valuation τ sig (Elt F)) :
    StableHlo.after (restOps (F := F)) W (Proc.devRef .tc main_v24) = Cert.Tail.attnWeights (W (Proc.devRef .tc main_v13)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

end Cert.KernelIdeal.TailRest

end
-- ==== Proof.TailK.lean ====
/-
  The idealized kernel's lines after its region compute the three tail functions.

  The first line after the region casts the score column [4096,1] to a row [1,4096] and changes no other buffer; the
  other 77 lines are the tail.  So whatever the buffers hold when the region is left, after all 78 lines the three
  result buffers hold the output probabilities, the new hidden state and the attention weights of: the score column
  cast to a row, the embedding, and the argument arrays, as those buffers were at the region's exit.
-/
import proofs.«130881_j12369505813152_2_alg».proof.Proof.TailRest
import Idealize.ShloMosaic.Lib.StableHlo.Run

set_option maxRecDepth 16384
set_option maxHeartbeats 40000000

noncomputable section

namespace Cert.KernelIdeal.TailK

open Cert.KernelIdeal Cert.KernelIdeal.Gen Cert.KernelIdeal.TailRest
open Idealize.ShloMosaic Idealize.ShloMosaic.TcCoe Idealize.ShloMosaic.StableHlo Idealize.SL.Sem

variable {F : FTy → Type} [FloatOps F]

/-- After the cast, the row buffer holds the score column cast to a row, and no other buffer has changed. -/
theorem cast_at (W : Valuation τ sig (Elt F)) :
    (StableHlo.reshape (τ := τ) (Val := Elt F) main_v12 main_v13 rfl shapeCasts_S4096x1_S1x4096).result W (Proc.devRef .tc main_v13)
      = shapeCast _ (W (Proc.devRef .tc main_v12)) shapeCasts_S4096x1_S1x4096 := by
  rw [StableHlo.reshape_result]
  rfl
theorem cast_keeps_v9 (W : Valuation τ sig (Elt F)) :
    (StableHlo.reshape (τ := τ) (Val := Elt F) main_v12 main_v13 rfl shapeCasts_S4096x1_S1x4096).result W (Proc.devRef .tc main_v9)
      = W (Proc.devRef .tc main_v9) := by
  rw [StableHlo.reshape_result_ne]; decide
theorem cast_keeps_arg1 (W : Valuation τ sig (Elt F)) :
    (StableHlo.reshape (τ := τ) (Val := Elt F) main_v12 main_v13 rfl shapeCasts_S4096x1_S1x4096).result W (Proc.devRef .tc main_arg1)
      = W (Proc.devRef .tc main_arg1) := by
  rw [StableHlo.reshape_result_ne]; decide
theorem cast_keeps_arg2 (W : Valuation τ sig (Elt F)) :
    (StableHlo.reshape (τ := τ) (Val := Elt F) main_v12 main_v13 rfl shapeCasts_S4096x1_S1x4096).result W (Proc.devRef .tc main_arg2)
      = W (Proc.devRef .tc main_arg2) := by
  rw [StableHlo.reshape_result_ne]; decide
theorem cast_keeps_arg10 (W : Valuation τ sig (Elt F)) :
    (StableHlo.reshape (τ := τ) (Val := Elt F) main_v12 main_v13 rfl shapeCasts_S4096x1_S1x4096).result W (Proc.devRef .tc main_arg10)
      = W (Proc.devRef .tc main_arg10) := by
  rw [StableHlo.reshape_result_ne]; decide
theorem cast_keeps_arg11 (W : Valuation τ sig (Elt F)) :
    (StableHlo.reshape (τ := τ) (Val := Elt F) main_v12 main_v13 rfl shapeCasts_S4096x1_S1x4096).result W (Proc.devRef .tc main_arg11)
      = W (Proc.devRef .tc main_arg11) := by
  rw [StableHlo.reshape_result_ne]; decide
theorem cast_keeps_arg12 (W : Valuation τ sig (Elt F)) :
    (StableHlo.reshape (τ := τ) (Val := Elt F) main_v12 main_v13 rfl shapeCasts_S4096x1_S1x4096).result W (Proc.devRef .tc main_arg12)
      = W (Proc.devRef .tc main_arg12) := by
  rw [StableHlo.reshape_result_ne]; decide
theorem cast_keeps_arg13 (W : Valuation τ sig (Elt F)) :
    (StableHlo.reshape (τ := τ) (Val := Elt F) main_v12 main_v13 rfl shapeCasts_S4096x1_S1x4096).result W (Proc.devRef .tc main_arg13)
      = W (Proc.devRef .tc main_arg13) := by
  rw [StableHlo.reshape_result_ne]; decide
theorem cast_keeps_arg14 (W : Valuation τ sig (Elt F)) :
    (StableHlo.reshape (τ := τ) (Val := Elt F) main_v12 main_v13 rfl shapeCasts_S4096x1_S1x4096).result W (Proc.devRef .tc main_arg14)
      = W (Proc.devRef .tc main_arg14) := by
  rw [StableHlo.reshape_result_ne]; decide
theorem cast_keeps_arg15 (W : Valuation τ sig (Elt F)) :
    (StableHlo.reshape (τ := τ) (Val := Elt F) main_v12 main_v13 rfl shapeCasts_S4096x1_S1x4096).result W (Proc.devRef .tc main_arg15)
      = W (Proc.devRef .tc main_arg15) := by
  rw [StableHlo.reshape_result_ne]; decide

theorem probs (W : Valuation τ sig (Elt F)) :
    StableHlo.after (hostOps1 (F := F)) W (Proc.devRef .tc main_v78)
      = Cert.Tail.outProbs (shapeCast _ (W (Proc.devRef .tc main_v12)) shapeCasts_S4096x1_S1x4096) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [hostOps1_eq, StableHlo.after_cons, rest_probs, cast_at, cast_keeps_v9, cast_keeps_arg1, cast_keeps_arg2, cast_keeps_arg10, cast_keeps_arg11, cast_keeps_arg12, cast_keeps_arg13, cast_keeps_arg14, cast_keeps_arg15]

theorem hidden (W : Valuation τ sig (Elt F)) :
    StableHlo.after (hostOps1 (F := F)) W (Proc.devRef .tc main_v79)
      = Cert.Tail.newHidden (shapeCast _ (W (Proc.devRef .tc main_v12)) shapeCasts_S4096x1_S1x4096) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [hostOps1_eq, StableHlo.after_cons, rest_hidden, cast_at, cast_keeps_v9, cast_keeps_arg1, cast_keeps_arg2, cast_keeps_arg10, cast_keeps_arg11, cast_keeps_arg12, cast_keeps_arg13, cast_keeps_arg14, cast_keeps_arg15]

theorem weights (W : Valuation τ sig (Elt F)) :
    StableHlo.after (hostOps1 (F := F)) W (Proc.devRef .tc main_v24)
      = Cert.Tail.attnWeights (shapeCast _ (W (Proc.devRef .tc main_v12)) shapeCasts_S4096x1_S1x4096) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [hostOps1_eq, StableHlo.after_cons, rest_weights, cast_at, cast_keeps_v9, cast_keeps_arg1, cast_keeps_arg2, cast_keeps_arg10, cast_keeps_arg11, cast_keeps_arg12, cast_keeps_arg13, cast_keeps_arg14, cast_keeps_arg15]

end Cert.KernelIdeal.TailK

end
-- ==== Proof.HeadK.lean ====
/-
  The idealized kernel's lines before its region compute the embedding and the query projection.

  Whatever the buffers hold at the start, after the lines that precede the region the embedding's buffer holds the
  embedding of the input (two feed-forward layers, each an affine map followed by the positive part) and the
  query's buffer holds the embedding times the transpose of the first attention matrix, each as a function of the
  argument arrays as those buffers were at the start.
-/
import proofs.«130881_j12369505813152_2_alg».proof.Proof.Tail
import proofs.«130881_j12369505813152_2_alg».proof.Proof.Gen.KernelIdeal.Launch
import Idealize.ShloMosaic.Lib.StableHlo.Run

set_option maxRecDepth 16384
set_option maxHeartbeats 4000000

noncomputable section

namespace Cert.KernelIdeal.HeadK

open Cert.KernelIdeal Cert.KernelIdeal.Gen
open Idealize.ShloMosaic Idealize.ShloMosaic.TcCoe Idealize.ShloMosaic.StableHlo Idealize.SL.Sem

variable {F : FTy → Type} [FloatOps F]

/-- The lines before the region, in order: the first layer, its positive part, the second layer, its positive part,
    the query projection. -/
abbrev ops : List (HloOp τ sig (Elt F)) :=
  List.flatten [hostOps0, hostOps0_1, hostOps0_2, hostOps0_3, hostOps0_4]

/-- After those lines the embedding's buffer holds the embedding of the input. -/
theorem embed_eq (V : Valuation τ sig (Elt F)) :
    StableHlo.after (ops (F := F)) V (Proc.devRef .tc main_v9)
      = Cert.Tail.embed (V (Proc.devRef .tc main_arg0)) (V (Proc.devRef .tc main_arg3)) (V (Proc.devRef .tc main_arg4))
          (V (Proc.devRef .tc main_arg5)) (V (Proc.devRef .tc main_arg6)) := by
  simp only [ops, hostOps0, hostOps0_1, hostOps0_2, hostOps0_3, hostOps0_4, List.flatten_cons, List.flatten_nil,
    List.append_nil, List.cons_append, List.nil_append]
  after_results_simp
  rfl

/-- After those lines the query's buffer holds the query projection of that embedding. -/
theorem query_eq (V : Valuation τ sig (Elt F)) :
    StableHlo.after (ops (F := F)) V (Proc.devRef .tc main_v11)
      = Cert.Tail.query
          (Cert.Tail.embed (V (Proc.devRef .tc main_arg0)) (V (Proc.devRef .tc main_arg3)) (V (Proc.devRef .tc main_arg4))
            (V (Proc.devRef .tc main_arg5)) (V (Proc.devRef .tc main_arg6)))
          (V (Proc.devRef .tc main_arg7)) := by
  simp only [ops, hostOps0, hostOps0_1, hostOps0_2, hostOps0_3, hostOps0_4, List.flatten_cons, List.flatten_nil,
    List.append_nil, List.cons_append, List.nil_append]
  after_results_simp
  rfl

end Cert.KernelIdeal.HeadK

end
-- ==== Proof.CastRow.lean ====
/-
  A column viewed as a row keeps its entries in order.

  The reshape of a [4096,1] column to a [1,4096] row matches indices with the same row-major position:
  the row's entry at (0, c) is the column's entry at (c, 0).
-/
import proofs.«130881_j12369505813152_2_alg».proof.KernelIdeal
import Idealize.ShloMosaic.Lib.Pipeline.Value
import Idealize.ShloMosaic.Lib.ValueIdx

noncomputable section

namespace Cert.CastRow

open Cert.KernelIdeal Idealize.ShloMosaic Idealize.ShloMosaic.ValueIdx

/-- Whatever the elements are, and whichever proof of the shape fact the cast carries: the row at `j` is the
    column at `(j 1, 0)`, both sitting at row-major position `j 1`. -/
theorem cast_row_of {α : Type} (X : S4096x1.Idx → α) (h : S4096x1.ShapeCasts S1x4096) :
    shapeCast S1x4096 X h = fun j => X (ix2 (j 1) (0 : Fin 1)) := by
  funext j
  refine shapeCast_apply X h j (ix2 (j 1) (0 : Fin 1)) ?_
  have h0 := idx2_lt0 j
  rw [Shape.rowMajor_val_two, Shape.rowMajor_val_two]
  show (j 1).val * 1 + 0 = (j 0).val * 4096 + (j 1).val
  omega

variable [Facts₀]
open Facts₀

/-- The same for a float column, with the program's own shape fact. -/
theorem cast_row {F : FTy → Type} (X : FVec F S4096x1 .f32) :
    shapeCast S1x4096 X shapeCasts_S4096x1_S1x4096 = fun j => X (ix2 (j 1) (0 : Fin 1)) :=
  cast_row_of X shapeCasts_S4096x1_S1x4096

end Cert.CastRow

end
-- ==== Proof.RunK.lean ====
/-
  The idealized kernel's three results as functions of the launch contents.

  When the region is left the score column holds the scores of the encoder rows against the query projection of the
  embedding, the staged arrays are as launched, and every other buffer is as the lines before the region left it.  The
  lines after the region compute the three tail functions of these, so the program ends with its results at the tail
  functions of: the score row (the column cast to a row keeps its order), the embedding, and the argument arrays.
-/
import proofs.«130881_j12369505813152_2_alg».proof.Proof.FrameI
import proofs.«130881_j12369505813152_2_alg».proof.Proof.ValueK
import proofs.«130881_j12369505813152_2_alg».proof.Proof.TailK
import proofs.«130881_j12369505813152_2_alg».proof.Proof.HeadK
import proofs.«130881_j12369505813152_2_alg».proof.Proof.CastRow

set_option maxRecDepth 16384
set_option maxHeartbeats 40000000

noncomputable section

namespace Cert.KernelIdeal.ValueRun

open Cert.KernelIdeal Cert.KernelIdeal.Gen Cert.KernelIdeal.Body Cert.KernelIdeal.Host Cert.KernelIdeal.Frame Cert.KernelIdeal.ScoreValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The embedding of the launched input. -/
def E (c : Dev nD) : (⟨S1x2048, .f32⟩ : BufTy).Contents (Elt Ideal) :=
  Cert.Tail.embed (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))

/-- The query projection of the embedding. -/
def Q (c : Dev nD) : (⟨S1x2048, .f32⟩ : BufTy).Contents (Elt Ideal) :=
  Cert.Tail.query (F := Ideal) (E m c) (m ((c.tc : Thread nD τ).loc main_arg7))

/-- The score row: entry `j 1` is the score of encoder row `j 1` against the query projection. -/
def scoreRow (c : Dev nD) : (⟨S1x4096, .f32⟩ : BufTy).Contents (Elt Ideal) :=
  fun j => Cert.Score.score (n := 4096) (m ((c.tc : Thread nD τ).loc main_arg2)) (m ((c.tc : Thread nD τ).loc main_arg8)) (m ((c.tc : Thread nD τ).loc main_arg9)) (Q m c) (j 1)

/-- The three results. -/
def probsOf (c : Dev nD) : (⟨S1x1024, .f32⟩ : BufTy).Contents (Elt Ideal) := Cert.Tail.outProbs (F := Ideal) (scoreRow m c) (E m c) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
def hiddenOf (c : Dev nD) : (⟨S1x1x2048, .f32⟩ : BufTy).Contents (Elt Ideal) := Cert.Tail.newHidden (F := Ideal) (scoreRow m c) (E m c) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
def weightsOf (c : Dev nD) : (⟨S1x4096, .f32⟩ : BufTy).Contents (Elt Ideal) := Cert.Tail.attnWeights (F := Ideal) (scoreRow m c) (E m c) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The region finds the embedding and its query projection in their buffers. -/
theorem V_embed (c : Dev nD) : V m c main_v9 = E m c :=
  (HeadK.embed_eq (F := Ideal) (fun b => m (c, b))).trans rfl
theorem V_query (c : Dev nD) : V m c main_v11 = Q m c :=
  (HeadK.query_eq (F := Ideal) (fun b => m (c, b))).trans rfl

/-- The core's buffer contents when the region is left. -/
abbrev exitW (c : Dev nD) : Valuation τ sig (Elt Ideal) :=
  Pipeline.withArrays spec0 c (V0 m c) fun w => (dats m 0 c).arrAt w cfg0.N

theorem exit_score (c : Dev nD) : exitW m c (Proc.devRef .tc main_v12)
    = scoreCol (m ((c.tc : Thread nD τ).loc main_arg2)) (m ((c.tc : Thread nD τ).loc main_arg8)) (m ((c.tc : Thread nD τ).loc main_arg9)) (Q m c) := by
  refine (Pipeline.withArrays_arr spec0 launch0.win.arr_inj c _ _ 4).trans ((final m c).trans ?_)
  rw [show V m c main_arg2 = _ from V_arg m c 2, show V m c main_arg8 = _ from V_arg m c 8,
    show V m c main_arg9 = _ from V_arg m c 9, V_query]
  rfl

theorem exit_enc (c : Dev nD) : exitW m c (Proc.devRef .tc main_arg2) = (m ((c.tc : Thread nD τ).loc main_arg2)) :=
  (Pipeline.withArrays_arr spec0 launch0.win.arr_inj c _ _ 0).trans
    (((dats m 0 c).arrAt_in 0 rfl _).trans ((A_eq m c 0).trans (V_arg m c 2)))

theorem exit_embed (c : Dev nD) : exitW m c (Proc.devRef .tc main_v9) = E m c :=
  (Pipeline.withArrays_of_ne spec0 c (V0 m c) _ main_v9 (by decide)).trans (V_embed m c)

theorem exit_arg (c : Dev nD) (k : Fin 16) (hk : ∀ w, Pipeline.arrRef spec0 w ≠ argRef k) :
    exitW m c (Proc.devRef .tc (argRef k)) = m ((c : Thread nD τ).loc (argRef k)) :=
  (Pipeline.withArrays_of_ne spec0 c (V0 m c) _ (argRef k) hk).trans (V_arg m c k)

/-- The score column cast to a row is the score row. -/
theorem cast_score (c : Dev nD) :
    shapeCast S1x4096 (scoreCol (m ((c.tc : Thread nD τ).loc main_arg2)) (m ((c.tc : Thread nD τ).loc main_arg8)) (m ((c.tc : Thread nD τ).loc main_arg9)) (Q m c)) shapeCasts_S4096x1_S1x4096
      = scoreRow m c :=
  (Cert.CastRow.cast_row_of _ shapeCasts_S4096x1_S1x4096).trans rfl

theorem res_probs (c : Dev nD) :
    Pipeline.afterTail₀ cfgs (dats m) 0 (V0 m) [hostOps1] c main_v78 = probsOf m c := by
  show StableHlo.after (hostOps1 (F := Ideal)) (exitW m c) (Proc.devRef .tc main_v78) = _
  rw [TailK.probs, exit_score, exit_embed, exit_enc,
    show exitW m c (Proc.devRef .tc main_arg1) = _ from exit_arg m c 1 (by decide),
    show exitW m c (Proc.devRef .tc main_arg10) = _ from exit_arg m c 10 (by decide),
    show exitW m c (Proc.devRef .tc main_arg11) = _ from exit_arg m c 11 (by decide),
    show exitW m c (Proc.devRef .tc main_arg12) = _ from exit_arg m c 12 (by decide),
    show exitW m c (Proc.devRef .tc main_arg13) = _ from exit_arg m c 13 (by decide),
    show exitW m c (Proc.devRef .tc main_arg14) = _ from exit_arg m c 14 (by decide),
    show exitW m c (Proc.devRef .tc main_arg15) = _ from exit_arg m c 15 (by decide),
    cast_score]
  rfl

theorem res_hidden (c : Dev nD) :
    Pipeline.afterTail₀ cfgs (dats m) 0 (V0 m) [hostOps1] c main_v79 = hiddenOf m c := by
  show StableHlo.after (hostOps1 (F := Ideal)) (exitW m c) (Proc.devRef .tc main_v79) = _
  rw [TailK.hidden, exit_score, exit_embed, exit_enc,
    show exitW m c (Proc.devRef .tc main_arg1) = _ from exit_arg m c 1 (by decide),
    show exitW m c (Proc.devRef .tc main_arg10) = _ from exit_arg m c 10 (by decide),
    show exitW m c (Proc.devRef .tc main_arg11) = _ from exit_arg m c 11 (by decide),
    show exitW m c (Proc.devRef .tc main_arg12) = _ from exit_arg m c 12 (by decide),
    show exitW m c (Proc.devRef .tc main_arg13) = _ from exit_arg m c 13 (by decide),
    show exitW m c (Proc.devRef .tc main_arg14) = _ from exit_arg m c 14 (by decide),
    show exitW m c (Proc.devRef .tc main_arg15) = _ from exit_arg m c 15 (by decide),
    cast_score]
  rfl

theorem res_weights (c : Dev nD) :
    Pipeline.afterTail₀ cfgs (dats m) 0 (V0 m) [hostOps1] c main_v24 = weightsOf m c := by
  show StableHlo.after (hostOps1 (F := Ideal)) (exitW m c) (Proc.devRef .tc main_v24) = _
  rw [TailK.weights, exit_score, exit_embed, exit_enc,
    show exitW m c (Proc.devRef .tc main_arg1) = _ from exit_arg m c 1 (by decide),
    show exitW m c (Proc.devRef .tc main_arg10) = _ from exit_arg m c 10 (by decide),
    show exitW m c (Proc.devRef .tc main_arg11) = _ from exit_arg m c 11 (by decide),
    show exitW m c (Proc.devRef .tc main_arg12) = _ from exit_arg m c 12 (by decide),
    show exitW m c (Proc.devRef .tc main_arg13) = _ from exit_arg m c 13 (by decide),
    show exitW m c (Proc.devRef .tc main_arg14) = _ from exit_arg m c 14 (by decide),
    show exitW m c (Proc.devRef .tc main_arg15) = _ from exit_arg m c 15 (by decide),
    cast_score]
  rfl

/-- The run: the three results at the tail functions of the launch contents, the sixteen arguments unchanged. -/
theorem run : θ_run defs (onTc (τ := τ) (main (F := Ideal))) ⟨m, fun _ => 0, ρ⟩ (fun r => ∀ c : Dev nD,
      r.2.mem ((c.tc : Thread nD τ).loc main_v78) = probsOf m c
      ∧ r.2.mem ((c.tc : Thread nD τ).loc main_v79) = hiddenOf m c
      ∧ r.2.mem ((c.tc : Thread nD τ).loc main_v24) = weightsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨
    ((h c).2 main_v78 (Pipeline.mem_restRefs_of main_v78 (by decide) (by decide))).trans (res_probs m c),
    ((h c).2 main_v79 (Pipeline.mem_restRefs_of main_v79 (by decide) (by decide))).trans (res_hidden m c),
    ((h c).2 main_v24 (Pipeline.mem_restRefs_of main_v24 (by decide) (by decide))).trans (res_weights m c),
    kept_bypass m r h c 0 (by decide) rfl,
    kept_bypass m r h c 1 (by decide) rfl,
    kept_arg2 m r h c,
    kept_bypass m r h c 3 (by decide) rfl,
    kept_bypass m r h c 4 (by decide) rfl,
    kept_bypass m r h c 5 (by decide) rfl,
    kept_bypass m r h c 6 (by decide) rfl,
    kept_bypass m r h c 7 (by decide) rfl,
    kept_arg8 m r h c,
    kept_arg9 m r h c,
    kept_bypass m r h c 10 (by decide) rfl,
    kept_bypass m r h c 11 (by decide) rfl,
    kept_bypass m r h c 12 (by decide) rfl,
    kept_bypass m r h c 13 (by decide) rfl,
    kept_bypass m r h c 14 (by decide) rfl,
    kept_bypass m r h c 15 (by decide) rfl⟩) (run_main m ρ)

end Cert.KernelIdeal.ValueRun

end
-- ==== Proof.RefScore.lean ====
/-
  The reference program's score column, read at a row.

  The reference computes, for all 4096 encoder rows at once, the column
    gammaT = transpose (tanh (broadcast way + enc · w2ᵀ) · w3ᵀ)
  where both products are dot_generals contracting the LAST axis of the left factor with the FIRST axis of the
  (transposed) right factor. Read at the index (0, r) this is the score of row r:
    Σ_h tanh (way[0,h] + Σ_k enc[r,k] · w2[h,k]) · w3[0,h].
  The proof reads each layer at an index: a transpose swaps the two coordinates, the broadcast of a [1,2048] row
  forgets the row coordinate, tanh and the sum act pointwise, and a dot_general with one contracted axis of extent
  2048 is a sum over Fin 2048 (its contraction index set is re-indexed by its one coordinate).
-/
import proofs.«130881_j12369505813152_2_alg».proof.ReferenceIdeal
import proofs.«130881_j12369505813152_2_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.RefScore

open Cert.ReferenceIdeal Idealize.ShloMosaic Idealize.SL.Sem Idealize.ShloMosaic.StableHlo
open Idealize.ShloMosaic.ValueIdx
open scoped BigOperators

variable [Facts₀]
open Facts₀

/-! ## The layout operations at an index -/

/-- The transpose of the second attention matrix: (w2ᵀ)[k,h] = w2[h,k]. -/
theorem w2T_apply (w2 : FVec Ideal S2048x2048 .f32) (k h : Fin 2048) :
    transpose S2048x2048 [1, 0] w2 transposes_S2048x2048_S2048x2048_1_0 (ix2 k h) = w2 (ix2 h k) :=
  transpose_apply [1, 0] w2 transposes_S2048x2048_S2048x2048_1_0 (ix2 k h) (ix2 h k) (fun b => match b with
    | ⟨0, _⟩ => rfl
    | ⟨1, _⟩ => rfl)

/-- The transpose of the third attention vector: (w3ᵀ)[h,0] = w3[0,h]. -/
theorem w3T_apply (w3 : FVec Ideal S1x2048 .f32) (h : Fin 2048) :
    transpose S2048x1 [1, 0] w3 transposes_S1x2048_S2048x1_1_0 (ix2 h (0 : Fin 1)) = w3 (ix2 (0 : Fin 1) h) :=
  transpose_apply [1, 0] w3 transposes_S1x2048_S2048x1_1_0 (ix2 h (0 : Fin 1)) (ix2 (0 : Fin 1) h) (fun b => match b with
    | ⟨0, _⟩ => rfl
    | ⟨1, _⟩ => rfl)

/-- The transpose of a [4096,1] column into a [1,4096] row: (yᵀ)[0,r] = y[r,0]. -/
theorem colT_apply (y : FVec Ideal S4096x1 .f32) (r : Fin 4096) :
    transpose S1x4096 [1, 0] y transposes_S4096x1_S1x4096_1_0 (ix2 (0 : Fin 1) r) = y (ix2 r (0 : Fin 1)) :=
  transpose_apply [1, 0] y transposes_S4096x1_S1x4096_1_0 (ix2 (0 : Fin 1) r) (ix2 r (0 : Fin 1)) (fun b => match b with
    | ⟨0, _⟩ => rfl
    | ⟨1, _⟩ => rfl)

/-- The broadcast of a [1,2048] row over 4096 rows forgets the row: (bcast way)[r,h] = way[0,h]. -/
theorem bcast_apply (way : FVec Ideal S1x2048 .f32) (r : Fin 4096) (h : Fin 2048) :
    broadcastInDim S4096x2048 ![0, 1] bcast_S1x2048_S4096x2048_0_1 way (ix2 r h) = way (ix2 (0 : Fin 1) h) :=
  broadcastInDim_apply _ bcast_S1x2048_S4096x2048_0_1 way (ix2 r h) (ix2 (0 : Fin 1) h) (fun a => match a with
    | ⟨0, _⟩ => by show 0 = if (1 : Nat) = 1 then 0 else r.val; rw [if_pos rfl]
    | ⟨1, _⟩ => by show h.val = if (2048 : Nat) = 1 then 0 else h.val; rw [if_neg (by decide)])

/-! ## The operand indices of the two products

Both products contract axis 1 of the left factor with axis 0 of the right one and have no batch axis: at the output
index i and the contraction index q the left operand is read at (i 0, q) and the right one at (q, i 1). -/

theorem hidden_lhs_0 (i : S4096x2048.Idx) (q : dot_S4096x2048_S2048x2048_S4096x2048_1_0_0_1_n_n.contr.Idx) :
    (dot_S4096x2048_S2048x2048_S4096x2048_1_0_0_1_n_n.lhsIdx i q 0).val = (i 0).val := by
  unfold DotDims.lhsIdx
  rw [dif_neg (show ¬(0 : Fin S4096x2048.rank) ∈ dot_S4096x2048_S2048x2048_S4096x2048_1_0_0_1_n_n.lhsBatch from List.not_mem_nil),
    dif_pos (show (0 : Fin S4096x2048.rank) ∈ dot_S4096x2048_S2048x2048_S4096x2048_1_0_0_1_n_n.lhsNonContracting from List.mem_singleton.mpr rfl)]
  rfl
theorem hidden_lhs_1 (i : S4096x2048.Idx) (q : dot_S4096x2048_S2048x2048_S4096x2048_1_0_0_1_n_n.contr.Idx) :
    (dot_S4096x2048_S2048x2048_S4096x2048_1_0_0_1_n_n.lhsIdx i q 1).val = (q ⟨0, Nat.one_pos⟩).val :=
  dot_S4096x2048_S2048x2048_S4096x2048_1_0_0_1_n_n.lhsIdx_val_of_single rfl i q
theorem hidden_rhs_0 (i : S4096x2048.Idx) (q : dot_S4096x2048_S2048x2048_S4096x2048_1_0_0_1_n_n.contr.Idx) :
    (dot_S4096x2048_S2048x2048_S4096x2048_1_0_0_1_n_n.rhsIdx i q 0).val = (q ⟨0, Nat.one_pos⟩).val :=
  dot_S4096x2048_S2048x2048_S4096x2048_1_0_0_1_n_n.rhsIdx_val_of_single rfl i q
theorem hidden_rhs_1 (i : S4096x2048.Idx) (q : dot_S4096x2048_S2048x2048_S4096x2048_1_0_0_1_n_n.contr.Idx) :
    (dot_S4096x2048_S2048x2048_S4096x2048_1_0_0_1_n_n.rhsIdx i q 1).val = (i 1).val := by
  unfold DotDims.rhsIdx
  rw [dif_neg (show ¬(1 : Fin S2048x2048.rank) ∈ dot_S4096x2048_S2048x2048_S4096x2048_1_0_0_1_n_n.rhsBatch from List.not_mem_nil),
    dif_pos (show (1 : Fin S2048x2048.rank) ∈ dot_S4096x2048_S2048x2048_S4096x2048_1_0_0_1_n_n.rhsNonContracting from List.mem_singleton.mpr rfl)]
  rfl

theorem score_lhs_0 (i : S4096x1.Idx) (q : dot_S4096x2048_S2048x1_S4096x1_1_0_0_1_n_n.contr.Idx) :
    (dot_S4096x2048_S2048x1_S4096x1_1_0_0_1_n_n.lhsIdx i q 0).val = (i 0).val := by
  unfold DotDims.lhsIdx
  rw [dif_neg (show ¬(0 : Fin S4096x2048.rank) ∈ dot_S4096x2048_S2048x1_S4096x1_1_0_0_1_n_n.lhsBatch from List.not_mem_nil),
    dif_pos (show (0 : Fin S4096x2048.rank) ∈ dot_S4096x2048_S2048x1_S4096x1_1_0_0_1_n_n.lhsNonContracting from List.mem_singleton.mpr rfl)]
  rfl
theorem score_lhs_1 (i : S4096x1.Idx) (q : dot_S4096x2048_S2048x1_S4096x1_1_0_0_1_n_n.contr.Idx) :
    (dot_S4096x2048_S2048x1_S4096x1_1_0_0_1_n_n.lhsIdx i q 1).val = (q ⟨0, Nat.one_pos⟩).val :=
  dot_S4096x2048_S2048x1_S4096x1_1_0_0_1_n_n.lhsIdx_val_of_single rfl i q
theorem score_rhs_0 (i : S4096x1.Idx) (q : dot_S4096x2048_S2048x1_S4096x1_1_0_0_1_n_n.contr.Idx) :
    (dot_S4096x2048_S2048x1_S4096x1_1_0_0_1_n_n.rhsIdx i q 0).val = (q ⟨0, Nat.one_pos⟩).val :=
  dot_S4096x2048_S2048x1_S4096x1_1_0_0_1_n_n.rhsIdx_val_of_single rfl i q
theorem score_rhs_1 (i : S4096x1.Idx) (q : dot_S4096x2048_S2048x1_S4096x1_1_0_0_1_n_n.contr.Idx) :
    (dot_S4096x2048_S2048x1_S4096x1_1_0_0_1_n_n.rhsIdx i q 1).val = (i 1).val := by
  unfold DotDims.rhsIdx
  rw [dif_neg (show ¬(1 : Fin S2048x1.rank) ∈ dot_S4096x2048_S2048x1_S4096x1_1_0_0_1_n_n.rhsBatch from List.not_mem_nil),
    dif_pos (show (1 : Fin S2048x1.rank) ∈ dot_S4096x2048_S2048x1_S4096x1_1_0_0_1_n_n.rhsNonContracting from List.mem_singleton.mpr rfl)]
  rfl

/-! ## The two products at an index -/

/-- [4096,2048] · [2048,2048], contracting the left factor's last axis with the right factor's first:
    the element (r, h) is Σ_k y0[r,k] · y1[k,h]. -/
theorem dotHidden_apply (y0 : FVec Ideal S4096x2048 .f32) (y1 : FVec Ideal S2048x2048 .f32) (r : Fin 4096) (h : Fin 2048) :
    Host.dotGeneral (F := Ideal) dot_S4096x2048_S2048x2048_S4096x2048_1_0_0_1_n_n none y0 y1 (ix2 r h)
      = ∑ k : Fin 2048, y0 (ix2 r k) * y1 (ix2 k h) := by
  simp only [Host.dotGeneral]
  rw [Ideal.dotGeneral_apply, ← Equiv.sum_comp (contrEquiv1 dot_S4096x2048_S2048x2048_S4096x2048_1_0_0_1_n_n 2048 rfl rfl).symm]
  refine Finset.sum_congr rfl fun k _ => ?_
  have hk := contrEquiv1_symm_val dot_S4096x2048_S2048x2048_S4096x2048_1_0_0_1_n_n 2048 rfl rfl k
  have el : dot_S4096x2048_S2048x2048_S4096x2048_1_0_0_1_n_n.lhsIdx (ix2 r h) ((contrEquiv1 dot_S4096x2048_S2048x2048_S4096x2048_1_0_0_1_n_n 2048 rfl rfl).symm k) = ix2 r k := funext fun a => Fin.ext (by
    match a with
    | ⟨0, _⟩ => exact hidden_lhs_0 _ _
    | ⟨1, _⟩ => exact (hidden_lhs_1 _ _).trans hk)
  have er : dot_S4096x2048_S2048x2048_S4096x2048_1_0_0_1_n_n.rhsIdx (ix2 r h) ((contrEquiv1 dot_S4096x2048_S2048x2048_S4096x2048_1_0_0_1_n_n 2048 rfl rfl).symm k) = ix2 k h := funext fun a => Fin.ext (by
    match a with
    | ⟨0, _⟩ => exact (hidden_rhs_0 _ _).trans hk
    | ⟨1, _⟩ => exact hidden_rhs_1 _ _)
  rw [el, er]

/-- [4096,2048] · [2048,1], contracting the left factor's last axis with the right factor's first:
    the element (r, 0) is Σ_h y0[r,h] · y1[h,0]. -/
theorem dotScore_apply (y0 : FVec Ideal S4096x2048 .f32) (y1 : FVec Ideal S2048x1 .f32) (r : Fin 4096) :
    Host.dotGeneral (F := Ideal) dot_S4096x2048_S2048x1_S4096x1_1_0_0_1_n_n none y0 y1 (ix2 r (0 : Fin 1))
      = ∑ h : Fin 2048, y0 (ix2 r h) * y1 (ix2 h (0 : Fin 1)) := by
  simp only [Host.dotGeneral]
  rw [Ideal.dotGeneral_apply, ← Equiv.sum_comp (contrEquiv1 dot_S4096x2048_S2048x1_S4096x1_1_0_0_1_n_n 2048 rfl rfl).symm]
  refine Finset.sum_congr rfl fun k _ => ?_
  have hk := contrEquiv1_symm_val dot_S4096x2048_S2048x1_S4096x1_1_0_0_1_n_n 2048 rfl rfl k
  have el : dot_S4096x2048_S2048x1_S4096x1_1_0_0_1_n_n.lhsIdx (ix2 r (0 : Fin 1)) ((contrEquiv1 dot_S4096x2048_S2048x1_S4096x1_1_0_0_1_n_n 2048 rfl rfl).symm k) = ix2 r k := funext fun a => Fin.ext (by
    match a with
    | ⟨0, _⟩ => exact score_lhs_0 _ _
    | ⟨1, _⟩ => exact (score_lhs_1 _ _).trans hk)
  have er : dot_S4096x2048_S2048x1_S4096x1_1_0_0_1_n_n.rhsIdx (ix2 r (0 : Fin 1)) ((contrEquiv1 dot_S4096x2048_S2048x1_S4096x1_1_0_0_1_n_n 2048 rfl rfl).symm k) = ix2 k (0 : Fin 1) := funext fun a => Fin.ext (by
    match a with
    | ⟨0, _⟩ => exact (score_rhs_0 _ _).trans hk
    | ⟨1, _⟩ => exact score_rhs_1 _ _)
  rw [el, er]

/-! ## The score column -/

/-- The pre-activation of hidden unit h at row r: way[0,h] + Σ_k enc[r,k] · w2[h,k]. -/
theorem pre_apply (enc : FVec Ideal S4096x2048 .f32) (w2 : FVec Ideal S2048x2048 .f32) (way : FVec Ideal S1x2048 .f32)
    (r : Fin 4096) (h : Fin 2048) :
    addf (F := Ideal) (broadcastInDim S4096x2048 ![0, 1] bcast_S1x2048_S4096x2048_0_1 way)
        (Host.dotGeneral (F := Ideal) dot_S4096x2048_S2048x2048_S4096x2048_1_0_0_1_n_n none enc
          (transpose S2048x2048 [1, 0] w2 transposes_S2048x2048_S2048x2048_1_0)) (ix2 r h)
      = way (ix2 (0 : Fin 1) h) + ∑ k : Fin 2048, enc (ix2 r k) * w2 (ix2 h k) := by
  rw [addf_apply, bcast_apply, dotHidden_apply]
  refine congrArg (way (ix2 (0 : Fin 1) h) + ·) (Finset.sum_congr rfl fun k _ => ?_)
  rw [w2T_apply]

/-- The reference's score column at (0, r) is the score of row r. -/
theorem ref_score (enc : FVec Ideal S4096x2048 .f32) (w2 : FVec Ideal S2048x2048 .f32) (w3 way : FVec Ideal S1x2048 .f32)
    (r : Fin 4096) :
    transpose S1x4096 [1, 0]
        (Host.dotGeneral (F := Ideal) dot_S4096x2048_S2048x1_S4096x1_1_0_0_1_n_n none
          (Host.tanh (F := Ideal) (addf (F := Ideal) (broadcastInDim S4096x2048 ![0, 1] bcast_S1x2048_S4096x2048_0_1 way)
            (Host.dotGeneral (F := Ideal) dot_S4096x2048_S2048x2048_S4096x2048_1_0_0_1_n_n none enc
              (transpose S2048x2048 [1, 0] w2 transposes_S2048x2048_S2048x2048_1_0))))
          (transpose S2048x1 [1, 0] w3 transposes_S1x2048_S2048x1_1_0))
        transposes_S4096x1_S1x4096_1_0 (ix2 (0 : Fin 1) r)
      = Cert.Score.score enc w2 w3 way r := by
  unfold Cert.Score.score
  rw [colT_apply, dotScore_apply]
  refine Finset.sum_congr rfl fun h _ => ?_
  rw [w3T_apply]
  refine congrArg (· * w3 (ix2 (0 : Fin 1) h)) ?_
  show Ideal.tanh (addf (F := Ideal) (broadcastInDim S4096x2048 ![0, 1] bcast_S1x2048_S4096x2048_0_1 way)
        (Host.dotGeneral (F := Ideal) dot_S4096x2048_S2048x2048_S4096x2048_1_0_0_1_n_n none enc
          (transpose S2048x2048 [1, 0] w2 transposes_S2048x2048_S2048x2048_1_0)) (ix2 r h)) = _
  rw [pre_apply]

/-- The same fact as an equality of functions on the [1,4096] index set. -/
theorem ref_score_fn (enc : FVec Ideal S4096x2048 .f32) (w2 : FVec Ideal S2048x2048 .f32) (w3 way : FVec Ideal S1x2048 .f32) :
    transpose S1x4096 [1, 0]
        (Host.dotGeneral (F := Ideal) dot_S4096x2048_S2048x1_S4096x1_1_0_0_1_n_n none
          (Host.tanh (F := Ideal) (addf (F := Ideal) (broadcastInDim S4096x2048 ![0, 1] bcast_S1x2048_S4096x2048_0_1 way)
            (Host.dotGeneral (F := Ideal) dot_S4096x2048_S2048x2048_S4096x2048_1_0_0_1_n_n none enc
              (transpose S2048x2048 [1, 0] w2 transposes_S2048x2048_S2048x2048_1_0))))
          (transpose S2048x1 [1, 0] w3 transposes_S1x2048_S2048x1_1_0))
        transposes_S4096x1_S1x4096_1_0
      = fun j : S1x4096.Idx => Cert.Score.score enc w2 w3 way (j 1) := by
  funext j
  have hj : j = ix2 (0 : Fin 1) (j 1) :=
    (eq_ix2 j).trans (congrArg (fun a : Fin 1 => ix2 a (j 1)) (Subsingleton.elim (α := Fin 1) _ _))
  exact (congrArg _ hj).trans (ref_score enc w2 w3 way (j 1))

end Cert.RefScore

end
-- ==== Proof.RefRun.lean ====
/-
  The reference program's run, read as: a score row, then the lines after the scores.

  The reference is one straight line of 101 host operations.  Its first 24 compute the embedding of the input, the query
  projection, and the score of every encoder row, transposed into a [1,4096] row; the remaining 77 compute, from that
  row, the attention weights, the context, one recurrent-cell step and the output probabilities.  Every execution ends
  with each buffer at the fold of the operations' results over the launch contents; the fold over the whole line is the
  fold over the second part from the fold over the first.  The second part computes the three tail functions of the
  score row, the embedding and the argument arrays; the first part's score row is the score of each encoder row; no
  operation writes an argument array.
-/
import proofs.«130881_j12369505813152_2_alg».proof.Proof.Gen.ReferenceIdeal
import proofs.«130881_j12369505813152_2_alg».proof.Proof.Gen.KernelIdeal
import proofs.«130881_j12369505813152_2_alg».proof.Proof.Tail
import proofs.«130881_j12369505813152_2_alg».proof.Proof.RefScore
import Idealize.ShloMosaic.Lib.StableHlo.Run

set_option maxRecDepth 16384
set_option maxHeartbeats 40000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as two lists of operations -/

/-- The first 24 operations: the embedding, the query projection, the scores, transposed into a row. -/
abbrev opsA : List (HloOp τ sig (Elt F)) :=
  [ unary main_arg3 main_v0 ((transpose S1024x512 [1, 0] · transposes_S512x1024_S1024x512_1_0) : (⟨S512x1024, .f32⟩ : BufTy).Contents (Elt F) → (⟨S1024x512, .f32⟩ : BufTy).Contents (Elt F)),
    binary main_arg0 main_v0 main_v1 ((fun l r => Host.dotGeneral dot_S1x1024_S1024x512_S1x512_1_0_0_1_n_n none l r) : (⟨S1x1024, .f32⟩ : BufTy).Contents (Elt F) → (⟨S1024x512, .f32⟩ : BufTy).Contents (Elt F) → (⟨S1x512, .f32⟩ : BufTy).Contents (Elt F)),
    unary main_arg4 main_v2 (broadcastInDim S1x512 ![1] bcast_S512_S1x512_1 : (⟨S512, .f32⟩ : BufTy).Contents (Elt F) → (⟨S1x512, .f32⟩ : BufTy).Contents (Elt F)),
    binary main_v1 main_v2 main_v3 (addf : (⟨S1x512, .f32⟩ : BufTy).Contents (Elt F) → (⟨S1x512, .f32⟩ : BufTy).Contents (Elt F) → (⟨S1x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x512, .f32⟩) main_call0_v0) (broadcastInDim S1x512 ![] bcast_S_S1x512),
    TRef.binary (TRef.of (T := ⟨S1x512, .f32⟩) main_v3) (TRef.of (T := ⟨S1x512, .f32⟩) main_call0_v0) (TRef.of (T := ⟨S1x512, .f32⟩) main_v4) maximumf,
    unary main_arg5 main_v5 ((transpose S512x2048 [1, 0] · transposes_S2048x512_S512x2048_1_0) : (⟨S2048x512, .f32⟩ : BufTy).Contents (Elt F) → (⟨S512x2048, .f32⟩ : BufTy).Contents (Elt F)),
    binary main_v4 main_v5 main_v6 ((fun l r => Host.dotGeneral dot_S1x512_S512x2048_S1x2048_1_0_0_1_n_n none l r) : (⟨S1x512, .f32⟩ : BufTy).Contents (Elt F) → (⟨S512x2048, .f32⟩ : BufTy).Contents (Elt F) → (⟨S1x2048, .f32⟩ : BufTy).Contents (Elt F)),
    unary main_arg6 main_v7 (broadcastInDim S1x2048 ![1] bcast_S2048_S1x2048_1 : (⟨S2048, .f32⟩ : BufTy).Contents (Elt F) → (⟨S1x2048, .f32⟩ : BufTy).Contents (Elt F)),
    binary main_v6 main_v7 main_v8 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x2048, .f32⟩) main_call1_v0) (broadcastInDim S1x2048 ![] bcast_S_S1x2048),
    TRef.binary (TRef.of (T := ⟨S1x2048, .f32⟩) main_v8) (TRef.of (T := ⟨S1x2048, .f32⟩) main_call1_v0) (TRef.of (T := ⟨S1x2048, .f32⟩) main_v9) maximumf,
    unary main_arg7 main_v10 ((transpose S2048x2048 [1, 0] · transposes_S2048x2048_S2048x2048_1_0) : (⟨S2048x2048, .f32⟩ : BufTy).Contents (Elt F) → (⟨S2048x2048, .f32⟩ : BufTy).Contents (Elt F)),
    binary main_v9 main_v10 main_v11 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    unary main_arg8 main_v12 ((transpose S2048x2048 [1, 0] · transposes_S2048x2048_S2048x2048_1_0) : (⟨S2048x2048, .f32⟩ : BufTy).Contents (Elt F) → (⟨S2048x2048, .f32⟩ : BufTy).Contents (Elt F)),
    binary main_arg2 main_v12 main_v13 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_v11 main_v14 (broadcastInDim S4096x2048 ![0, 1] bcast_S1x2048_S4096x2048_0_1 : (⟨S1x2048, .f32⟩ : BufTy).Contents (Elt F) → (⟨S4096x2048, .f32⟩ : BufTy).Contents (Elt F)),
    binary main_v14 main_v13 main_v15 (addf : (⟨S4096x2048, .f32⟩ : BufTy).Contents (Elt F) → (⟨S4096x2048, .f32⟩ : BufTy).Contents (Elt F) → (⟨S4096x2048, .f32⟩ : BufTy).Contents (Elt F)),
    unary main_v15 main_v16 (Host.tanh : (⟨S4096x2048, .f32⟩ : BufTy).Contents (Elt F) → (⟨S4096x2048, .f32⟩ : BufTy).Contents (Elt F)),
    unary main_arg9 main_v17 ((transpose S2048x1 [1, 0] · transposes_S1x2048_S2048x1_1_0) : (⟨S1x2048, .f32⟩ : BufTy).Contents (Elt F) → (⟨S2048x1, .f32⟩ : BufTy).Contents (Elt F)),
    binary main_v16 main_v17 main_v18 ((fun l r => Host.dotGeneral dot_S4096x2048_S2048x1_S4096x1_1_0_0_1_n_n none l r) : (⟨S4096x2048, .f32⟩ : BufTy).Contents (Elt F) → (⟨S2048x1, .f32⟩ : BufTy).Contents (Elt F) → (⟨S4096x1, .f32⟩ : BufTy).Contents (Elt F)),
    unary main_v18 main_v19 ((transpose S1x4096 [1, 0] · transposes_S4096x1_S1x4096_1_0) : (⟨S4096x1, .f32⟩ : BufTy).Contents (Elt F) → (⟨S1x4096, .f32⟩ : BufTy).Contents (Elt F)) ]

/-- The remaining 77 operations: everything computed from the score row. -/
abbrev opsB : List (HloOp τ sig (Elt F)) :=
  [ nullary main_cst (constant S_ .f32 0xFF800000#32),
    binary main_v19 main_cst main_v20 ((fun x v => Host.reduce FloatOps.maximumf x v reducesTo_S1x4096_S1_d1 h_S_) : (⟨S1x4096, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v21 (broadcastInDim S1 ![] bcast_S_S1 : (⟨S_, .f32⟩ : BufTy).Contents (Elt F) → (⟨S1, .f32⟩ : BufTy).Contents (Elt F)),
    binary main_v21 main_v20 main_v22 (maximumf : (⟨S1, .f32⟩ : BufTy).Contents (Elt F) → (⟨S1, .f32⟩ : BufTy).Contents (Elt F) → (⟨S1, .f32⟩ : BufTy).Contents (Elt F)),
    unary main_v22 main_v23 (broadcastInDim S1x1 ![0] bcast_S1_S1x1_0 : (⟨S1, .f32⟩ : BufTy).Contents (Elt F) → (⟨S1x1, .f32⟩ : BufTy).Contents (Elt F)),
    unary main_v23 main_v24 (broadcastInDim S1x4096 ![0, 1] bcast_S1x1_S1x4096_0_1 : (⟨S1x1, .f32⟩ : BufTy).Contents (Elt F) → (⟨S1x4096, .f32⟩ : BufTy).Contents (Elt F)),
    binary main_v19 main_v24 main_v25 (subf : (⟨S1x4096, .f32⟩ : BufTy).Contents (Elt F) → (⟨S1x4096, .f32⟩ : BufTy).Contents (Elt F) → (⟨S1x4096, .f32⟩ : BufTy).Contents (Elt F)),
    unary main_v25 main_v26 (Host.exp : (⟨S1x4096, .f32⟩ : BufTy).Contents (Elt F) → (⟨S1x4096, .f32⟩ : BufTy).Contents (Elt F)),
    nullary main_cst_1 (constant S_ .f32 0x00000000#32),
    binary main_v26 main_cst_1 main_v27 ((fun x v => Host.reduceAdd x v reducesTo_S1x4096_S1_d1 h_S_) : (⟨S1x4096, .f32⟩ : BufTy).Contents (Elt F) → (⟨S_, .f32⟩ : BufTy).Contents (Elt F) → (⟨S1, .f32⟩ : BufTy).Contents (Elt F)),
    unary main_v27 main_v28 (broadcastInDim S1x1 ![0] bcast_S1_S1x1_0 : (⟨S1, .f32⟩ : BufTy).Contents (Elt F) → (⟨S1x1, .f32⟩ : BufTy).Contents (Elt F)),
    unary main_v28 main_v29 (broadcastInDim S1x4096 ![0, 1] bcast_S1x1_S1x4096_0_1 : (⟨S1x1, .f32⟩ : BufTy).Contents (Elt F) → (⟨S1x4096, .f32⟩ : BufTy).Contents (Elt F)),
    binary main_v26 main_v29 main_v30 (Host.divf : (⟨S1x4096, .f32⟩ : BufTy).Contents (Elt F) → (⟨S1x4096, .f32⟩ : BufTy).Contents (Elt F) → (⟨S1x4096, .f32⟩ : BufTy).Contents (Elt F)),
    binary main_v30 main_arg2 main_v31 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    binary main_v9 main_v31 main_v32 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    reshape main_arg1 main_v33 rfl shapeCasts_S1x1x2048_S1x2048,
    unary main_arg10 main_v34 ((transpose S4096x6144 [1, 0] · transposes_S6144x4096_S4096x6144_1_0) : (⟨S6144x4096, .f32⟩ : BufTy).Contents (Elt F) → (⟨S4096x6144, .f32⟩ : BufTy).Contents (Elt F)),
    binary main_v32 main_v34 main_v35 ((fun l r => Host.dotGeneral dot_S1x4096_S4096x6144_S1x6144_1_0_0_1_n_n none l r) : (⟨S1x4096, .f32⟩ : BufTy).Contents (Elt F) → (⟨S4096x6144, .f32⟩ : BufTy).Contents (Elt F) → (⟨S1x6144, .f32⟩ : BufTy).Contents (Elt F)),
    unary main_arg12 main_v36 (broadcastInDim S1x6144 ![1] bcast_S6144_S1x6144_1 : (⟨S6144, .f32⟩ : BufTy).Contents (Elt F) → (⟨S1x6144, .f32⟩ : BufTy).Contents (Elt F)),
    binary main_v35 main_v36 main_v37 (addf : (⟨S1x6144, .f32⟩ : BufTy).Contents (Elt F) → (⟨S1x6144, .f32⟩ : BufTy).Contents (Elt F) → (⟨S1x6144, .f32⟩ : BufTy).Contents (Elt F)),
    unary main_arg11 main_v38 ((transpose S2048x6144 [1, 0] · transposes_S6144x2048_S2048x6144_1_0) : (⟨S6144x2048, .f32⟩ : BufTy).Contents (Elt F) → (⟨S2048x6144, .f32⟩ : BufTy).Contents (Elt F)),
    binary main_v33 main_v38 main_v39 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg13 main_v40 (broadcastInDim S1x6144 ![1] bcast_S6144_S1x6144_1 : (⟨S6144, .f32⟩ : BufTy).Contents (Elt F) → (⟨S1x6144, .f32⟩ : BufTy).Contents (Elt F)),
    binary main_v39 main_v40 main_v41 (addf : (⟨S1x6144, .f32⟩ : BufTy).Contents (Elt F) → (⟨S1x6144, .f32⟩ : BufTy).Contents (Elt F) → (⟨S1x6144, .f32⟩ : BufTy).Contents (Elt F)),
    unary main_v37 main_v42 ((extractStridedSlice S1x2048 ![0, 0] · slices_S1x6144_S1x2048_0_0) : (⟨S1x6144, .f32⟩ : BufTy).Contents (Elt F) → (⟨S1x2048, .f32⟩ : BufTy).Contents (Elt F)),
    unary main_v37 main_v43 ((extractStridedSlice S1x2048 ![0, 2048] · slices_S1x6144_S1x2048_0_2048) : (⟨S1x6144, .f32⟩ : BufTy).Contents (Elt F) → (⟨S1x2048, .f32⟩ : BufTy).Contents (Elt F)),
    unary main_v37 main_v44 ((extractStridedSlice S1x2048 ![0, 4096] · slices_S1x6144_S1x2048_0_4096) : (⟨S1x6144, .f32⟩ : BufTy).Contents (Elt F) → (⟨S1x2048, .f32⟩ : BufTy).Contents (Elt F)),
    unary main_v41 main_v45 ((extractStridedSlice S1x2048 ![0, 0] · slices_S1x6144_S1x2048_0_0) : (⟨S1x6144, .f32⟩ : BufTy).Contents (Elt F) → (⟨S1x2048, .f32⟩ : BufTy).Contents (Elt F)),
    unary main_v41 main_v46 ((extractStridedSlice S1x2048 ![0, 2048] · slices_S1x6144_S1x2048_0_2048) : (⟨S1x6144, .f32⟩ : BufTy).Contents (Elt F) → (⟨S1x2048, .f32⟩ : BufTy).Contents (Elt F)),
    unary main_v41 main_v47 ((extractStridedSlice S1x2048 ![0, 4096] · slices_S1x6144_S1x2048_0_4096) : (⟨S1x6144, .f32⟩ : BufTy).Contents (Elt F) → (⟨S1x2048, .f32⟩ : BufTy).Contents (Elt F)),
    binary main_v42 main_v45 main_v48 (addf : (⟨S1x2048, .f32⟩ : BufTy).Contents (Elt F) → (⟨S1x2048, .f32⟩ : BufTy).Contents (Elt F) → (⟨S1x2048, .f32⟩ : BufTy).Contents (Elt F)),
    unary main_v48 main_v49 (Host.negf : (⟨S1x2048, .f32⟩ : BufTy).Contents (Elt F) → (⟨S1x2048, .f32⟩ : BufTy).Contents (Elt F)),
    unary main_v49 main_v50 (Host.exp : (⟨S1x2048, .f32⟩ : BufTy).Contents (Elt F) → (⟨S1x2048, .f32⟩ : BufTy).Contents (Elt F)),
    nullary main_cst_2 (constant S_ .f32 0x3F800000#32),
    unary main_cst_2 main_v51 (broadcastInDim S1x2048 ![] bcast_S_S1x2048 : (⟨S_, .f32⟩ : BufTy).Contents (Elt F) → (⟨S1x2048, .f32⟩ : BufTy).Contents (Elt F)),
    binary main_v51 main_v50 main_v52 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v53 (broadcastInDim S1x2048 ![] bcast_S_S1x2048 : (⟨S_, .f32⟩ : BufTy).Contents (Elt F) → (⟨S1x2048, .f32⟩ : BufTy).Contents (Elt F)),
    binary main_v53 main_v52 main_v54 (Host.divf : (⟨S1x2048, .f32⟩ : BufTy).Contents (Elt F) → (⟨S1x2048, .f32⟩ : BufTy).Contents (Elt F) → (⟨S1x2048, .f32⟩ : BufTy).Contents (Elt F)),
    binary main_v43 main_v46 main_v55 (addf : (⟨S1x2048, .f32⟩ : BufTy).Contents (Elt F) → (⟨S1x2048, .f32⟩ : BufTy).Contents (Elt F) → (⟨S1x2048, .f32⟩ : BufTy).Contents (Elt F)),
    unary main_v55 main_v56 (Host.negf : (⟨S1x2048, .f32⟩ : BufTy).Contents (Elt F) → (⟨S1x2048, .f32⟩ : BufTy).Contents (Elt F)),
    unary main_v56 main_v57 (Host.exp : (⟨S1x2048, .f32⟩ : BufTy).Contents (Elt F) → (⟨S1x2048, .f32⟩ : BufTy).Contents (Elt F)),
    nullary main_cst_4 (constant S_ .f32 0x3F800000#32),
    unary main_cst_4 main_v58 (broadcastInDim S1x2048 ![] bcast_S_S1x2048 : (⟨S_, .f32⟩ : BufTy).Contents (Elt F) → (⟨S1x2048, .f32⟩ : BufTy).Contents (Elt F)),
    binary main_v58 main_v57 main_v59 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v60 (broadcastInDim S1x2048 ![] bcast_S_S1x2048 : (⟨S_, .f32⟩ : BufTy).Contents (Elt F) → (⟨S1x2048, .f32⟩ : BufTy).Contents (Elt F)),
    binary main_v60 main_v59 main_v61 (Host.divf : (⟨S1x2048, .f32⟩ : BufTy).Contents (Elt F) → (⟨S1x2048, .f32⟩ : BufTy).Contents (Elt F) → (⟨S1x2048, .f32⟩ : BufTy).Contents (Elt F)),
    binary main_v54 main_v47 main_v62 (mulf : (⟨S1x2048, .f32⟩ : BufTy).Contents (Elt F) → (⟨S1x2048, .f32⟩ : BufTy).Contents (Elt F) → (⟨S1x2048, .f32⟩ : BufTy).Contents (Elt F)),
    binary main_v44 main_v62 main_v63 (addf : (⟨S1x2048, .f32⟩ : BufTy).Contents (Elt F) → (⟨S1x2048, .f32⟩ : BufTy).Contents (Elt F) → (⟨S1x2048, .f32⟩ : BufTy).Contents (Elt F)),
    unary main_v63 main_v64 (Host.tanh : (⟨S1x2048, .f32⟩ : BufTy).Contents (Elt F) → (⟨S1x2048, .f32⟩ : BufTy).Contents (Elt F)),
    nullary main_cst_6 (constant S_ .f32 0x3F800000#32),
    unary main_cst_6 main_v65 (broadcastInDim S1x2048 ![] bcast_S_S1x2048 : (⟨S_, .f32⟩ : BufTy).Contents (Elt F) → (⟨S1x2048, .f32⟩ : BufTy).Contents (Elt F)),
    binary main_v65 main_v61 main_v66 (subf : (⟨S1x2048, .f32⟩ : BufTy).Contents (Elt F) → (⟨S1x2048, .f32⟩ : BufTy).Contents (Elt F) → (⟨S1x2048, .f32⟩ : BufTy).Contents (Elt F)),
    binary main_v66 main_v64 main_v67 (mulf : (⟨S1x2048, .f32⟩ : BufTy).Contents (Elt F) → (⟨S1x2048, .f32⟩ : BufTy).Contents (Elt F) → (⟨S1x2048, .f32⟩ : BufTy).Contents (Elt F)),
    binary main_v61 main_v33 main_v68 (mulf : (⟨S1x2048, .f32⟩ : BufTy).Contents (Elt F) → (⟨S1x2048, .f32⟩ : BufTy).Contents (Elt F) → (⟨S1x2048, .f32⟩ : BufTy).Contents (Elt F)),
    binary main_v67 main_v68 main_v69 (addf : (⟨S1x2048, .f32⟩ : BufTy).Contents (Elt F) → (⟨S1x2048, .f32⟩ : BufTy).Contents (Elt F) → (⟨S1x2048, .f32⟩ : BufTy).Contents (Elt F)),
    unary main_arg14 main_v70 ((transpose S2048x1024 [1, 0] · transposes_S1024x2048_S2048x1024_1_0) : (⟨S1024x2048, .f32⟩ : BufTy).Contents (Elt F) → (⟨S2048x1024, .f32⟩ : BufTy).Contents (Elt F)),
    binary main_v69 main_v70 main_v71 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg15 main_v72 (broadcastInDim S1x1024 ![1] bcast_S1024_S1x1024_1 : (⟨S1024, .f32⟩ : BufTy).Contents (Elt F) → (⟨S1x1024, .f32⟩ : BufTy).Contents (Elt F)),
    binary main_v71 main_v72 main_v73 (addf : (⟨S1x1024, .f32⟩ : BufTy).Contents (Elt F) → (⟨S1x1024, .f32⟩ : BufTy).Contents (Elt F) → (⟨S1x1024, .f32⟩ : BufTy).Contents (Elt F)),
    nullary main_cst_7 (constant S_ .f32 0xFF800000#32),
    binary main_v73 main_cst_7 main_v74 ((fun x v => Host.reduce FloatOps.maximumf x v reducesTo_S1x1024_S1_d1 h_S_) : (⟨S1x1024, .f32⟩ : BufTy).Contents (Elt F) → (⟨S_, .f32⟩ : BufTy).Contents (Elt F) → (⟨S1, .f32⟩ : BufTy).Contents (Elt F)),
    nullary main_cst_8 (constant S_ .f32 0xFF800000#32),
    unary main_cst_8 main_v75 (broadcastInDim S1 ![] bcast_S_S1 : (⟨S_, .f32⟩ : BufTy).Contents (Elt F) → (⟨S1, .f32⟩ : BufTy).Contents (Elt F)),
    binary main_v75 main_v74 main_v76 (maximumf : (⟨S1, .f32⟩ : BufTy).Contents (Elt F) → (⟨S1, .f32⟩ : BufTy).Contents (Elt F) → (⟨S1, .f32⟩ : BufTy).Contents (Elt F)),
    unary main_v76 main_v77 (broadcastInDim S1x1 ![0] bcast_S1_S1x1_0 : (⟨S1, .f32⟩ : BufTy).Contents (Elt F) → (⟨S1x1, .f32⟩ : BufTy).Contents (Elt F)),
    unary main_v77 main_v78 (broadcastInDim S1x1024 ![0, 1] bcast_S1x1_S1x1024_0_1 : (⟨S1x1, .f32⟩ : BufTy).Contents (Elt F) → (⟨S1x1024, .f32⟩ : BufTy).Contents (Elt F)),
    binary main_v73 main_v78 main_v79 (subf : (⟨S1x1024, .f32⟩ : BufTy).Contents (Elt F) → (⟨S1x1024, .f32⟩ : BufTy).Contents (Elt F) → (⟨S1x1024, .f32⟩ : BufTy).Contents (Elt F)),
    unary main_v79 main_v80 (Host.exp : (⟨S1x1024, .f32⟩ : BufTy).Contents (Elt F) → (⟨S1x1024, .f32⟩ : BufTy).Contents (Elt F)),
    nullary main_cst_9 (constant S_ .f32 0x00000000#32),
    binary main_v80 main_cst_9 main_v81 ((fun x v => Host.reduceAdd x v reducesTo_S1x1024_S1_d1 h_S_) : (⟨S1x1024, .f32⟩ : BufTy).Contents (Elt F) → (⟨S_, .f32⟩ : BufTy).Contents (Elt F) → (⟨S1, .f32⟩ : BufTy).Contents (Elt F)),
    unary main_v81 main_v82 (broadcastInDim S1x1 ![0] bcast_S1_S1x1_0 : (⟨S1, .f32⟩ : BufTy).Contents (Elt F) → (⟨S1x1, .f32⟩ : BufTy).Contents (Elt F)),
    unary main_v82 main_v83 (broadcastInDim S1x1024 ![0, 1] bcast_S1x1_S1x1024_0_1 : (⟨S1x1, .f32⟩ : BufTy).Contents (Elt F) → (⟨S1x1024, .f32⟩ : BufTy).Contents (Elt F)),
    binary main_v80 main_v83 main_v84 (Host.divf : (⟨S1x1024, .f32⟩ : BufTy).Contents (Elt F) → (⟨S1x1024, .f32⟩ : BufTy).Contents (Elt F) → (⟨S1x1024, .f32⟩ : BufTy).Contents (Elt F)),
    unary main_v69 main_v85 (broadcastInDim S1x1x2048 ![1, 2] bcast_S1x2048_S1x1x2048_1_2 : (⟨S1x2048, .f32⟩ : BufTy).Contents (Elt F) → (⟨S1x1x2048, .f32⟩ : BufTy).Contents (Elt F)) ]

theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., unary_bufs_sub ..⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., reshape_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩
theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor

/-- The fold of the operations' results over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every execution ends with each buffer at the fold of the second part over the fold of the first part over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsB (after opsA (launchContents m d)) (Proc.devRef .tc b) :=
  (θ_run defs _ _).mono (fun _ h d b => (h d b).trans (congrFun (after_app opsA opsB (launchContents m d)) _))
    (run_seq scopedRefs_eq scopedSems_eq defs main (fun _ => opsA ++ opsB) main_eq (fun _ => ops_sub) m ρ
      (fun _ op h => (List.mem_append.mp h).elim
        (List.forall_iff_forall_mem.mp opsA_fresh op) (List.forall_iff_forall_mem.mp opsB_fresh op)))

/-! ## The second part computes the three tail functions -/

set_option maxRecDepth 200000 in
/-- Whatever the buffers hold before them, the 77 operations leave the first result at the output probabilities of the
    score row, the embedding and the argument arrays as those buffers were. -/
theorem probs (W : Valuation τ sig (Elt F)) :
    after (opsB (F := F)) W (Proc.devRef .tc main_v84) = Cert.Tail.outProbs (W (Proc.devRef .tc main_v19)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

set_option maxRecDepth 200000 in
/-- Likewise the second result is the new hidden state. -/
theorem hidden (W : Valuation τ sig (Elt F)) :
    after (opsB (F := F)) W (Proc.devRef .tc main_v85) = Cert.Tail.newHidden (W (Proc.devRef .tc main_v19)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

/-- Likewise the third result is the attention weights. -/
theorem weights (W : Valuation τ sig (Elt F)) :
    after (opsB (F := F)) W (Proc.devRef .tc main_v30) = Cert.Tail.attnWeights (W (Proc.devRef .tc main_v19)) (W (Proc.devRef .tc main_v9)) (W (Proc.devRef .tc main_arg1)) (W (Proc.devRef .tc main_arg2)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

/-! ## The first part computes the embedding and the score row -/

/-- The first 24 operations leave the embedding buffer at the embedding of the input. -/
theorem embedA (V : Valuation τ sig (Elt F)) :
    after (opsA (F := F)) V (Proc.devRef .tc main_v9) = (Cert.Tail.embed (V (Proc.devRef .tc main_arg0)) (V (Proc.devRef .tc main_arg3)) (V (Proc.devRef .tc main_arg4)) (V (Proc.devRef .tc main_arg5)) (V (Proc.devRef .tc main_arg6))) := by
  after_results_simp
  rfl

/-- The first 24 operations leave the score row at: the transpose of
    tanh (broadcast (query projection) + enc · w2ᵀ) · w3ᵀ. -/
theorem scoreRowA (V : Valuation τ sig (Elt F)) :
    after (opsA (F := F)) V (Proc.devRef .tc main_v19)
      = transpose S1x4096 [1, 0]
        (Host.dotGeneral dot_S4096x2048_S2048x1_S4096x1_1_0_0_1_n_n none
          (Host.tanh (addf (broadcastInDim S4096x2048 ![0, 1] bcast_S1x2048_S4096x2048_0_1 (Cert.Tail.query (Cert.Tail.embed (V (Proc.devRef .tc main_arg0)) (V (Proc.devRef .tc main_arg3)) (V (Proc.devRef .tc main_arg4)) (V (Proc.devRef .tc main_arg5)) (V (Proc.devRef .tc main_arg6))) (V (Proc.devRef .tc main_arg7))))
            (Host.dotGeneral dot_S4096x2048_S2048x2048_S4096x2048_1_0_0_1_n_n none (V (Proc.devRef .tc main_arg2))
              (transpose S2048x2048 [1, 0] (V (Proc.devRef .tc main_arg8)) transposes_S2048x2048_S2048x2048_1_0))))
          (transpose S2048x1 [1, 0] (V (Proc.devRef .tc main_arg9)) transposes_S1x2048_S2048x1_1_0))
        transposes_S4096x1_S1x4096_1_0 := by
  after_results_simp
  rfl

/-! ## No operation writes an argument array -/

/-- The sixteen argument arrays. -/
abbrev argRef : Fin 16 → Ref sig .tc :=
  ![main_arg0, main_arg1, main_arg2, main_arg3, main_arg4, main_arg5, main_arg6, main_arg7, main_arg8, main_arg9,
    main_arg10, main_arg11, main_arg12, main_arg13, main_arg14, main_arg15]

theorem opsA_keeps_args : (opsA : List (HloOp τ sig (Elt F))).Forall fun op =>
    ∀ k : Fin 16, Proc.devRef .tc (argRef k) ∉ op.writes := by
  simp only [List.Forall, nullary_writes, unary_writes, binary_writes, ternary_writes, quaternary_writes, reshape_writes, binaryIndexed_writes, Finset.mem_singleton]
  repeat' apply And.intro
  all_goals (intro k; exact devRef_ne_of_ne (by revert k; decide))

theorem opsB_keeps_args : (opsB : List (HloOp τ sig (Elt F))).Forall fun op =>
    ∀ k : Fin 16, Proc.devRef .tc (argRef k) ∉ op.writes := by
  simp only [List.Forall, nullary_writes, unary_writes, binary_writes, ternary_writes, quaternary_writes, reshape_writes, binaryIndexed_writes, Finset.mem_singleton]
  repeat' apply And.intro
  all_goals (intro k; exact devRef_ne_of_ne (by revert k; decide))

/-- The first part leaves every argument array as it was. -/
theorem argA (V : Valuation τ sig (Elt F)) (k : Fin 16) :
    after (opsA (F := F)) V (Proc.devRef .tc (argRef k)) = V (Proc.devRef .tc (argRef k)) :=
  after_of_forall_not_mem (b := Proc.devRef .tc (argRef k)) _ _
    (fun op hop => (List.forall_iff_forall_mem.mp opsA_keeps_args) op hop k)

/-- So does the second part. -/
theorem argB (W : Valuation τ sig (Elt F)) (k : Fin 16) :
    after (opsB (F := F)) W (Proc.devRef .tc (argRef k)) = W (Proc.devRef .tc (argRef k)) :=
  after_of_forall_not_mem (b := Proc.devRef .tc (argRef k)) _ _
    (fun op hop => (List.forall_iff_forall_mem.mp opsB_keeps_args) op hop k)

/-- So does the whole line. -/
theorem argAB (V : Valuation τ sig (Elt F)) (k : Fin 16) :
    after (opsA ++ opsB : List (HloOp τ sig (Elt F))) V (Proc.devRef .tc (argRef k)) = V (Proc.devRef .tc (argRef k)) := by
  rw [after_app, argB, argA]

/-! ## The run, at the ideal values -/

/-- Every execution of the reference ends with: the first result at the output probabilities, the second at the new
    hidden state, the third at the attention weights — each of the score row `j ↦ score of encoder row j`, the embedding
    of the input and the argument arrays as launched — and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84) = Cert.Tail.outProbs (fun j : S1x4096.Idx => Cert.Score.score (m ((c.tc : Thread nD τ).loc main_arg2)) (m ((c.tc : Thread nD τ).loc main_arg8)) (m ((c.tc : Thread nD τ).loc main_arg9)) (Cert.Tail.query (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (j 1)) (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v85) = Cert.Tail.newHidden (fun j : S1x4096.Idx => Cert.Score.score (m ((c.tc : Thread nD τ).loc main_arg2)) (m ((c.tc : Thread nD τ).loc main_arg8)) (m ((c.tc : Thread nD τ).loc main_arg9)) (Cert.Tail.query (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (j 1)) (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v30) = Cert.Tail.attnWeights (fun j : S1x4096.Idx => Cert.Score.score (m ((c.tc : Thread nD τ).loc main_arg2)) (m ((c.tc : Thread nD τ).loc main_arg8)) (m ((c.tc : Thread nD τ).loc main_arg9)) (Cert.Tail.query (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (j 1)) (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    have hE : after (opsA (F := Ideal)) (launchContents m c) (Proc.devRef .tc main_v9) = (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := embedA _
    have hG : after (opsA (F := Ideal)) (launchContents m c) (Proc.devRef .tc main_v19) = (fun j : S1x4096.Idx => Cert.Score.score (m ((c.tc : Thread nD τ).loc main_arg2)) (m ((c.tc : Thread nD τ).loc main_arg8)) (m ((c.tc : Thread nD τ).loc main_arg9)) (Cert.Tail.query (Cert.Tail.embed (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (j 1)) :=
      (scoreRowA _).trans (Cert.RefScore.ref_score_fn _ _ _ _)
    have ha1 : after (opsA (F := Ideal)) (launchContents m c) (Proc.devRef .tc main_arg1) = m ((c.tc : Thread nD τ).loc main_arg1) := argA _ 1
    have ha2 : after (opsA (F := Ideal)) (launchContents m c) (Proc.devRef .tc main_arg2) = m ((c.tc : Thread nD τ).loc main_arg2) := argA _ 2
    have ha10 : after (opsA (F := Ideal)) (launchContents m c) (Proc.devRef .tc main_arg10) = m ((c.tc : Thread nD τ).loc main_arg10) := argA _ 10
    have ha11 : after (opsA (F := Ideal)) (launchContents m c) (Proc.devRef .tc main_arg11) = m ((c.tc : Thread nD τ).loc main_arg11) := argA _ 11
    have ha12 : after (opsA (F := Ideal)) (launchContents m c) (Proc.devRef .tc main_arg12) = m ((c.tc : Thread nD τ).loc main_arg12) := argA _ 12
    have ha13 : after (opsA (F := Ideal)) (launchContents m c) (Proc.devRef .tc main_arg13) = m ((c.tc : Thread nD τ).loc main_arg13) := argA _ 13
    have ha14 : after (opsA (F := Ideal)) (launchContents m c) (Proc.devRef .tc main_arg14) = m ((c.tc : Thread nD τ).loc main_arg14) := argA _ 14
    have ha15 : after (opsA (F := Ideal)) (launchContents m c) (Proc.devRef .tc main_arg15) = m ((c.tc : Thread nD τ).loc main_arg15) := argA _ 15
    have hk : ∀ k : Fin 16, r.2.mem ((c.tc : Thread nD τ).loc (argRef k)) = m ((c.tc : Thread nD τ).loc (argRef k)) :=
      fun k => (h c (argRef k)).trans ((argB _ k).trans (argA _ k))
    refine ⟨?_, ?_, ?_, hk 0, hk 1, hk 2, hk 3, hk 4, hk 5, hk 6, hk 7, hk 8, hk 9, hk 10, hk 11, hk 12, hk 13, hk 14, hk 15⟩
    · rw [h c main_v84, probs, hG, hE, ha1, ha2, ha10, ha11, ha12, ha13, ha14, ha15]
    · rw [h c main_v85, hidden, hG, hE, ha1, ha2, ha10, ha11, ha12, ha13, ha14, ha15]
    · rw [h c main_v30, weights, hG, hE, ha1, ha2, ha10, ha11, ha12, ha13, ha14, ha15])
    (run_after m ρ)

end Cert.ReferenceIdeal.RefRun

end
-- ==== Proof.lean ====
/-
  The certificate of the attention decoder step: the Pallas score kernel against the plain reference.

  Both programs embed the input by two feed-forward layers, project the embedding by the first attention matrix into a
  query, score every encoder row `r` as `Σ_h tanh(query[h] + Σ_k enc[r,k] · w2[h,k]) · w3[h]`, and then run the same
  lines: the softmax of the score row, the attention-weighted sum of the encoder rows, one recurrent cell step and the
  output softmax.  The kernel computes the scores block by block — 1024 encoder rows per grid point, the matrix product
  on operands narrowed to a shorter float format (the identity on the extended reals), the projection onto `w3` as a
  product and a lane sum — into a column it then reshapes to a row; the reference computes them by two matrix products
  and a transpose.  On the extended reals the two are the same sum term by term, so no law beyond reading each
  operation at an index is needed, and the precondition is never opened.
  The frames: each program runs to the end from any memory and writes no argument array (for the kernel, at the word
  level and idealized: the region's proof data and the body's triple; for the reference, its run with the results dropped).
-/
import proofs.«130881_j12369505813152_2_alg».proof.Defs
import proofs.«130881_j12369505813152_2_alg».proof.Proof.Gen.Kernel
import proofs.«130881_j12369505813152_2_alg».proof.Proof.Gen.KernelIdeal
import proofs.«130881_j12369505813152_2_alg».proof.Proof.Gen.ReferenceIdeal
import proofs.«130881_j12369505813152_2_alg».proof.Proof.Gen.Pre_finite_inputs
import proofs.«130881_j12369505813152_2_alg».proof.Proof.FrameK
import proofs.«130881_j12369505813152_2_alg».proof.Proof.RunK
import proofs.«130881_j12369505813152_2_alg».proof.Proof.RefRun

set_option maxRecDepth 16384
set_option maxHeartbeats 40000000

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.RefRun.run m ρ)

/-- The ideal pass rewrote nothing. -/
theorem preserves : Cert.preserves_Kernel_KernelIdeal := trivial

/-- Both runs end with the three results at the same tail functions of the same score row, embedding and argument
    arrays, once the reference's arrays are rewritten to the kernel's by the agreement of the two memories. -/
theorem algebraic : Cert.algebraic_KernelIdeal_ReferenceIdeal := by
  intro m ρ m' ρ' _ hagree
  refine ⟨Cert.KernelIdeal.ValueRun.probsOf m, Cert.KernelIdeal.ValueRun.hiddenOf m, Cert.KernelIdeal.ValueRun.weightsOf m,
    Cert.KernelIdeal.ValueRun.run m ρ, ?_⟩
  refine (θ_run Cert.ReferenceIdeal.defs _ _).mono (fun r h c => ?_) (Cert.ReferenceIdeal.RefRun.run m' ρ')
  obtain ⟨h0, h1, h2, hrest⟩ := h c
  obtain ⟨e0, e1, e2, e3, e4, e5, e6, e7, e8, e9, e10, e11, e12, e13, e14, e15⟩ := hagree c
  refine ⟨h0.trans ?_, h1.trans ?_, h2.trans ?_, hrest⟩
  all_goals (rw [e0, e1, e2, e3, e4, e5, e6, e7, e8, e9, e10, e11, e12, e13, e14, e15]; rfl)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
